-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x8192x2048 : Shape := ⟨3, ![2, 8192, 2048]⟩
abbrev S2x8192 : Shape := ⟨2, ![2, 8192]⟩
abbrev S8192x128 : Shape := ⟨2, ![8192, 128]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S2x8192 : S_.BroadcastsInDim S2x8192 (![] : Fin 0 → Fin S2x8192.rank)
  reducesTo_S2x8192_S_d0_1 : S2x8192.ReducesTo [0, 1] S_

variable [Facts]

def fn_part1 {F : FTy → Type} [FloatOps F] (main_arg1 : IVec S2x8192 32) (main_v13 : IVec S_ 1) (main_v15 : IVec S2x8192 1) (main_c_5 : IVec S_ 32) : IVec S_ 1 :=
  let main_v16 : IVec S2x8192 32 := broadcastInDim S2x8192 ![] bcast_S_S2x8192 main_c_5
  let main_v17 : IVec S2x8192 1 := cmpi .sle main_arg1 main_v16
  let main_v18 : IVec S2x8192 1 := andi main_v15 main_v17
  let main_c_6 : IVec S_ 1 := constantI S_ 1 1#1
  let main_v19 : IVec S_ 1 := (fun x v => Host.reduce IntOp.andi x v reducesTo_S2x8192_S_d0_1 h_S_) main_v18 main_c_6
  let main_v20 : IVec S_ 1 := andi main_v13 main_v19
  main_v20

def fn {F : FTy → Type} [FloatOps F] (main_arg0 : FVec F S2x8192x2048 .f32) (main_arg1 : IVec S2x8192 32) (main_arg2 : FVec F S8192x128 .f32) (main_arg3 : FVec F S8192x128 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_c_4 : IVec S_ 32 := constantI S_ 32 0#32
  let main_v14 : IVec S2x8192 32 := broadcastInDim S2x8192 ![] bcast_S_S2x8192 main_c_4
  let main_v15 : IVec S2x8192 1 := cmpi .sge main_arg1 main_v14
  let main_c_5 : IVec S_ 32 := constantI S_ 32 8191#32
  fn_part1 (F := F) main_arg1 main_v13 main_v15 main_c_5
-- ==== Kernel.lean ====
abbrev S2x8192x2048 : Shape := ⟨3, ![2, 8192, 2048]⟩
abbrev S2x8192 : Shape := ⟨2, ![2, 8192]⟩
abbrev S8192x128 : Shape := ⟨2, ![8192, 128]⟩
abbrev S2x1x8192x128 : Shape := ⟨4, ![2, 1, 8192, 128]⟩
abbrev S512 : Shape := ⟨1, ![512]⟩
abbrev S128x128 : Shape := ⟨2, ![128, 128]⟩
abbrev S_ : Shape := ⟨0, ![]⟩
abbrev S1x512 : Shape := ⟨2, ![1, 512]⟩
abbrev S128 : Shape := ⟨1, ![128]⟩
abbrev S1x1x128x128 : Shape := ⟨4, ![1, 1, 128, 128]⟩

abbrev nBuf : Table → Nat
  | .hbm => 6
  | .local .scVector .vmem => 7
  | _ => 0

abbrev bufTy : (tb : Table) → Fin (nBuf tb) → BufTy
  | .hbm, ⟨0, _⟩ => ⟨S2x8192x2048, .f32⟩
  | .hbm, ⟨1, _⟩ => ⟨S2x8192, .i32⟩
  | .hbm, ⟨2, _⟩ => ⟨S8192x128, .f32⟩
  | .hbm, ⟨3, _⟩ => ⟨S8192x128, .f32⟩
  | .hbm, ⟨4, _⟩ => ⟨S2x1x8192x128, .f32⟩
  | .hbm, ⟨5, _⟩ => ⟨S2x1x8192x128, .f32⟩
  | .local .scVector .vmem, ⟨0, _⟩ => ⟨S512, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | _, _ => ⟨S2x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v29.toNat]
def k0_off2 (i : grid0.Coords) (c0_i32_26 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c0_i32_30 : BitVec 32 := 0#32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v42 : BitVec 32 := Scalar.addi v29 c0_i32_26
  let c0_i32_31 : BitVec 32 := 0#32
  ![v18.toNat, 0, v42.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x512_S512 : S1x512.Squeezes S512
  inb_S512_S128_0 : ∀ a, (![0] : Fin 1 → Nat) a + S128.size a ≤ S512.size a
  inb_S8192x128_S8192x128_0_0 : ∀ a, (![0, 0] : Fin 2 → Nat) a + S8192x128.size a ≤ S8192x128.size a
  gathers_S8192x128_S128x128 : S8192x128.Gathers 0 S128x128
  inb_S512_S128_128 : ∀ a, (![128] : Fin 1 → Nat) a + S128.size a ≤ S512.size a
  inb_S512_S128_256 : ∀ a, (![256] : Fin 1 → Nat) a + S128.size a ≤ S512.size a
  squeezes_S1x1x128x128_S128x128 : S1x1x128x128.Squeezes S128x128
  inb_S512_S128_384 : ∀ a, (![384] : Fin 1 → Nat) a + S128.size a ≤ S512.size a
  hcc0_scratch7 : 0 + S_.numel ≤ 13
  hcc0_scratch8 : 1 + S_.numel ≤ 13
  hcc0_scratch9 : 2 + S_.numel ≤ 13
  hcc0_scratch10 : 3 + S_.numel ≤ 13
  hcc0_scratch11 : 4 + S_.numel ≤ 13
  hcc0_scratch12 : 5 + S_.numel ≤ 13
  hcc0_scratch13 : 6 + S_.numel ≤ 13
  hcc0_scratch14 : 7 + S_.numel ≤ 13
  hcc0_scratch15 : 8 + S_.numel ≤ 13
  hcc0_scratch16 : 9 + S_.numel ≤ 13
  hcc0_scratch17 : 10 + S_.numel ≤ 13
  hcc0_scratch18 : 11 + S_.numel ≤ 13
  hcc0_scoped0 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x512.size a ≤ S2x8192.size a
  k0_off2_inb : ∀ i : grid0.Coords, ∀ (r : Fin 4), ∀ a, (k0_off2 i (BitVec.ofNat 32 (128 * r.val))) a + S1x1x128x128.size a ≤ S2x1x8192x128.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scratch15 : DmaSems sig S_ := SemArray.consecutive 8 S_ hcc0_scratch15
abbrev cc0_scratch16 : DmaSems sig S_ := SemArray.consecutive 9 S_ hcc0_scratch16
abbrev cc0_scratch17 : DmaSems sig S_ := SemArray.consecutive 10 S_ hcc0_scratch17
abbrev cc0_scratch18 : DmaSems sig S_ := SemArray.consecutive 11 S_ hcc0_scratch18
abbrev cc0_scoped0 : DmaSems sig S_ := SemArray.consecutive 12 S_ hcc0_scoped0

class Facts : Prop extends Facts₀ where

variable [Facts]
-- ==== ReferenceIdeal.lean ====
abbrev S2x8192x2048 : Shape := ⟨3, ![2, 8192, 2048]⟩
abbrev S2x8192 : Shape := ⟨2, ![2, 8192]⟩
abbrev S8192x128 : Shape := ⟨2, ![8192, 128]⟩
abbrev S_ : Shape := ⟨0, ![]⟩
abbrev S2x8192x1 : Shape := ⟨3, ![2, 8192, 1]⟩
abbrev S1 : Shape := ⟨1, ![1]⟩
abbrev S1x1x1 : Shape := ⟨3, ![1, 1, 1]⟩
abbrev S2x8192x128 : Shape := ⟨3, ![2, 8192, 128]⟩
abbrev S2x1x8192x128 : Shape := ⟨4, ![2, 1, 8192, 128]⟩

abbrev nBuf : Space → Nat
  | .hbm => 52
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S8192x128, .f32⟩
  | .hbm, ⟨3, _⟩ => ⟨S8192x128, .f32⟩
  | .hbm, ⟨4, _⟩ => ⟨S_, .i32⟩
  | .hbm, ⟨5, _⟩ => ⟨S2x8192, .i32⟩
  | .hbm, ⟨6, _⟩ => ⟨S2x8192, .i1⟩
  | .hbm, ⟨7, _⟩ => ⟨S_, .i32⟩
  | .hbm, ⟨8, _⟩ => ⟨S2x8192, .i32⟩
  | .hbm, ⟨9, _⟩ => ⟨S2x8192, .i32⟩
  | .hbm, ⟨10, _⟩ => ⟨S2x8192, .i32⟩
  | .hbm, ⟨11, _⟩ => ⟨S2x8192x1, .i32⟩
  | .hbm, ⟨12, _⟩ => ⟨S1, .i32⟩
  | .hbm, ⟨13, _⟩ => ⟨S_, .i32⟩
  | .hbm, ⟨14, _⟩ => ⟨S2x8192x1, .i32⟩
  | .hbm, ⟨15, _⟩ => ⟨S2x8192x1, .i1⟩
  | .hbm, ⟨16, _⟩ => ⟨S1x1x1, .i32⟩
  | .hbm, ⟨17, _⟩ => ⟨S2x8192x1, .i32⟩
  | .hbm, ⟨18, _⟩ => ⟨S2x8192x1, .i1⟩
  | .hbm, ⟨19, _⟩ => ⟨S2x8192x1, .i1⟩
  | .hbm, ⟨20, _⟩ => ⟨S_, .i1⟩
  | .hbm, ⟨21, _⟩ => ⟨S2x8192, .i1⟩
  | .hbm, ⟨22, _⟩ => ⟨S2x8192x128, .f32⟩
  | .hbm, ⟨23, _⟩ => ⟨S2x8192x128, .i1⟩
  | .hbm, ⟨24, _⟩ => ⟨S_, .f32⟩
  | .hbm, ⟨25, _⟩ => ⟨S2x8192x128, .f32⟩
  | .hbm, ⟨26, _⟩ => ⟨S2x8192x128, .f32⟩
  | .hbm, ⟨27, _⟩ => ⟨S2x1x8192x128, .f32⟩
  | .hbm, ⟨28, _⟩ => ⟨S_, .i32⟩
  | .hbm, ⟨29, _⟩ => ⟨S2x8192, .i32⟩
  | .hbm, ⟨30, _⟩ => ⟨S2x8192, .i1⟩
  | .hbm, ⟨31, _⟩ => ⟨S_, .i32⟩
  | .hbm, ⟨32, _⟩ => ⟨S2x8192, .i32⟩
  | .hbm, ⟨33, _⟩ => ⟨S2x8192, .i32⟩
  | .hbm, ⟨34, _⟩ => ⟨S2x8192, .i32⟩
  | .hbm, ⟨35, _⟩ => ⟨S2x8192x1, .i32⟩
  | .hbm, ⟨36, _⟩ => ⟨S1, .i32⟩
  | .hbm, ⟨37, _⟩ => ⟨S_, .i32⟩
  | .hbm, ⟨38, _⟩ => ⟨S2x8192x1, .i32⟩
  | .hbm, ⟨39, _⟩ => ⟨S2x8192x1, .i1⟩
  | .hbm, ⟨40, _⟩ => ⟨S1x1x1, .i32⟩
  | .hbm, ⟨41, _⟩ => ⟨S2x8192x1, .i32⟩
  | .hbm, ⟨42, _⟩ => ⟨S2x8192x1, .i1⟩
  | .hbm, ⟨43, _⟩ => ⟨S2x8192x1, .i1⟩
  | .hbm, ⟨44, _⟩ => ⟨S_, .i1⟩
  | .hbm, ⟨45, _⟩ => ⟨S2x8192, .i1⟩
  | .hbm, ⟨46, _⟩ => ⟨S2x8192x128, .f32⟩
  | .hbm, ⟨47, _⟩ => ⟨S2x8192x128, .i1⟩
  | .hbm, ⟨48, _⟩ => ⟨S_, .f32⟩
  | .hbm, ⟨49, _⟩ => ⟨S2x8192x128, .f32⟩
  | .hbm, ⟨50, _⟩ => ⟨S2x8192x128, .f32⟩
  | .hbm, ⟨51, _⟩ => ⟨S2x1x8192x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩

abbrev nD : Nat := 1
abbrev τ : Topo := Topo.v7x

variable {F : FTy → Type} [FloatOps F]

class Facts₀ : Prop where
  bcast_S_S2x8192 : S_.BroadcastsInDim S2x8192 (![] : Fin 0 → Fin S2x8192.rank)
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S1_S1x1x1_2 : S1.BroadcastsInDim S1x1x1 (![2] : Fin 1 → Fin S1x1x1.rank)
  bcast_S1x1x1_S2x8192x1_0_1_2 : S1x1x1.BroadcastsInDim S2x8192x1 (![0, 1, 2] : Fin 3 → Fin S2x8192x1.rank)
  reducesTo_S2x8192x1_S2x8192_d2 : S2x8192x1.ReducesTo [2] S2x8192
  h_S_ : 0 < S_.numel
  bcast_S2x8192_S2x8192x128_0_1 : S2x8192.BroadcastsInDim S2x8192x128 (![0, 1] : Fin 2 → Fin S2x8192x128.rank)
  bcast_S_S2x8192x128 : S_.BroadcastsInDim S2x8192x128 (![] : Fin 0 → Fin S2x8192x128.rank)
  bcast_S2x8192x128_S2x1x8192x128_0_2_3 : S2x8192x128.BroadcastsInDim S2x1x8192x128 (![0, 2, 3] : Fin 3 → Fin S2x1x8192x128.rank)
  gather_S8192x128_S2x8192x1_S2x8192x128_2_0_n_n_0_2_1128_wf : GatherDims.WF S8192x128 S2x8192x1 S2x8192x128 [2] [0] [] [0] [] 2 ![1, 128]

variable [Facts₀]

def gather_S8192x128_S2x8192x1_S2x8192x128_2_0_n_n_0_2_1128 : GatherDims S8192x128 S2x8192x1 S2x8192x128 where
  offsetDims := [2]
  collapsedSliceDims := [0]
  operandBatchingDims := []
  startIndicesBatchingDims := []
  startIndexMap := [0]
  indexVectorDim := 2
  sliceSizes := ![1, 128]
  wf := gather_S8192x128_S2x8192x1_S2x8192x128_2_0_n_n_0_2_1128_wf

class Facts : Prop extends Facts₀ where

variable [Facts]
-- ==== Proof.KiGeom.lean ====
/-
  The geometry of the kernel's copies. A grid point `L` (core `L 0` of 2, subcore `L 1` of 16) is worker
  `wid L = 2 * L 1 + L 0` of 32. Worker `w` serves batch `w / 16` and the 512 sequence places from
  `(w % 16) * 512` on; its window `r` of 4 is the 128 places from `(w % 16) * 512 + 128 * r` on.
  Here: the closed forms of the printed offset functions, and which result entries a window holds.
-/
import proofs.«214960_g85727547228328_cont_9to1_m_337_27_alg».proof.KernelIdeal
import proofs.«214960_g85727547228328_cont_9to1_m_337_27_alg».proof.Proof.Gen.KernelIdeal
import Idealize.ShloMosaic.Lib.Decide

namespace Cert.Proof.KI

open Cert.KernelIdeal Cert.KernelIdeal.Gen
open Idealize.ShloMosaic

/-- The worker number of a grid point. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The fetch of the position words starts at batch `w / 16`, place `(w % 16) * 512`. -/
theorem off1_eq : ∀ L : grid0.Coords, k0_off1 L = ![wid L / 16, wid L % 16 * 512] := by decide +kernel

/-- Window `r` starts at batch `w / 16`, place `(w % 16) * 512 + 128 * r`. -/
theorem off2_eq : ∀ (L : grid0.Coords) (r : Fin 4),
    k0_off2 L (BitVec.ofNat 32 (128 * r.val)) = ![wid L / 16, 0, wid L % 16 * 512 + 128 * r.val, 0] := by decide +kernel

/-- The rectangle of window `r` in a result array. -/
abbrev winRect (L : grid0.Coords) (r : Fin 4) : Rect S2x1x8192x128 :=
  Rect.unit (s := S2x1x8192x128) (k0_off2 L (BitVec.ofNat 32 (128 * r.val))) S1x1x128x128.size (k0_off2_inb L r)

/-- A result entry lies in window `r` of worker `w` exactly when its batch is `w / 16` and its place is one of the window's 128. -/
theorem mem_winRect (L : grid0.Coords) (r : Fin 4) (j : S2x1x8192x128.Idx) :
    j ∈ (winRect L r).set ↔ (j 0).val = wid L / 16 ∧ wid L % 16 * 512 + 128 * r.val ≤ (j 2).val ∧ (j 2).val < wid L % 16 * 512 + 128 * r.val + 128 := by
  rw [Rect.mem_set_unit, off2_eq]
  have h1 : (j 1).val < 1 := (j 1).isLt
  have h3 : (j 3).val < 128 := (j 3).isLt
  constructor
  · intro h
    have a0 : wid L / 16 ≤ (j 0).val ∧ (j 0).val < wid L / 16 + 1 := h 0
    have a2 : wid L % 16 * 512 + 128 * r.val ≤ (j 2).val ∧ (j 2).val < wid L % 16 * 512 + 128 * r.val + 128 := h 2
    omega
  · rintro ⟨e0, lo, hi⟩ a
    match a with
    | ⟨0, _⟩ => exact (show wid L / 16 ≤ (j 0).val ∧ (j 0).val < wid L / 16 + 1 from by omega)
    | ⟨1, _⟩ => exact (show 0 ≤ (j 1).val ∧ (j 1).val < 0 + 1 from by omega)
    | ⟨2, _⟩ => exact (show wid L % 16 * 512 + 128 * r.val ≤ (j 2).val ∧ (j 2).val < wid L % 16 * 512 + 128 * r.val + 128 from ⟨lo, hi⟩)
    | ⟨3, _⟩ => exact (show 0 ≤ (j 3).val ∧ (j 3).val < 0 + 128 from by omega)

end Cert.Proof.KI
-- ==== Proof.KiSetup.lean ====
/-
  Names shared by the modules about the kernel's run: the launch configuration, the ghost state, the arrays and
  scratch buffers as a vector subcore addresses them, and the slices the kernel cuts — a tile's 512 position
  words, and its four windows of 128 rows in each result plane.
-/
import proofs.«214960_g85727547228328_cont_9to1_m_337_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«214960_g85727547228328_cont_9to1_m_337_27_alg».proof.Proof.Gen.KernelIdeal
import proofs.«214960_g85727547228328_cont_9to1_m_337_27_alg».proof.Proof.Gen.KernelIdeal.Skeleton
import proofs.«214960_g85727547228328_cont_9to1_m_337_27_alg».proof.Proof.KiGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

abbrev EH : Emb UH (MT nD τ sig (HIx 1) (Elt F) ℕ UU ℕ) := embL

abbrev pLoc (d : Dev nD) : Loc nD τ sig := (SparseCore.T d).loc main_arg1
abbrev cLoc (d : Dev nD) : Loc nD τ sig := (SparseCore.T d).loc main_arg2
abbrev sLoc (d : Dev nD) : Loc nD τ sig := (SparseCore.T d).loc main_arg3
abbrev xLoc (d : Dev nD) : Loc nD τ sig := (SparseCore.T d).loc main_arg0
abbrev aLoc (d : Dev nD) : Loc nD τ sig := (SparseCore.T d).loc main_v0_0
abbrev bLoc (d : Dev nD) : Loc nD τ sig := (SparseCore.T d).loc main_v0_1

/-- The position array, the two tables and the two result arrays, whole, as a vector subcore names them. -/
abbrev pV : Memref sig .scVector .hbm S2x8192 .i32 := Memref.whole main_arg1_scv
abbrev cM : Memref sig .scVector .hbm S8192x128 .f32 := Memref.whole main_arg2_scv
abbrev sM : Memref sig .scVector .hbm S8192x128 .f32 := Memref.whole main_arg3_scv
abbrev aV : Memref sig .scVector .hbm S2x1x8192x128 .f32 := Memref.whole main_v0_0_scv
abbrev bV : Memref sig .scVector .hbm S2x1x8192x128 .f32 := Memref.whole main_v0_1_scv
/-- A tile's list buffer and its six row buffers. -/
abbrev iS : Memref sig .scVector .vmem S512 .i32 := Memref.whole cc0_scratch0
abbrev c0S : Memref sig .scVector .vmem S128x128 .f32 := Memref.whole cc0_scratch1
abbrev c1S : Memref sig .scVector .vmem S128x128 .f32 := Memref.whole cc0_scratch2
abbrev c2S : Memref sig .scVector .vmem S128x128 .f32 := Memref.whole cc0_scratch3
abbrev s0S : Memref sig .scVector .vmem S128x128 .f32 := Memref.whole cc0_scratch4
abbrev s1S : Memref sig .scVector .vmem S128x128 .f32 := Memref.whole cc0_scratch5
abbrev s2S : Memref sig .scVector .vmem S128x128 .f32 := Memref.whole cc0_scratch6

abbrev cV (L : grid0.Coords) : Fin τ.nSC := (L 0).castLE hcore0
abbrev jV (L : grid0.Coords) : Fin τ.nSub := (L 1).castLE hsub0
/-- The vector subcore that runs grid point `L` on device `d`. -/
abbrev thr (d : Dev nD) (L : grid0.Coords) : Thread nD τ := V d (cV L) (jV L)

/-- The tile's 512 position words, as the kernel addresses them. -/
abbrev pRowK (L : grid0.Coords) : Memref sig .scVector .hbm S512 .i32 :=
  ((pV).slice (Rect.unit (s := S2x8192) (k0_off1 L) S1x512.size (k0_off1_inb L)) (fun _ => rfl)).squeeze S512 squeezes_S1x512_S512
/-- Window `r` of a result plane: 128 rows, as the kernel addresses them. -/
abbrev aWin (L : grid0.Coords) (r : Fin 4) : Memref sig .scVector .hbm S128x128 .f32 :=
  ((aV).slice (winRect L r) (fun _ => rfl)).squeeze S128x128 squeezes_S1x1x128x128_S128x128
abbrev bWin (L : grid0.Coords) (r : Fin 4) : Memref sig .scVector .hbm S128x128 .f32 :=
  ((bV).slice (winRect L r) (fun _ => rfl)).squeeze S128x128 squeezes_S1x1x128x128_S128x128

variable (m : (ℓ : Loc nD τ sig) → Buf (Elt F) ℓ)

/-- What the tile's list buffer holds once its 512 position words have landed. -/
abbrev idxv (d : Dev nD) (L : grid0.Coords) : Buf (Elt F) ((thr d L).loc cc0_scratch0) := (pRowK L).view.read (Elt F) (m (pLoc d))

/-- A window held outright at contents `f`. -/
abbrev winPts (d : Dev nD) (L : grid0.Coords) (M : Memref sig .scVector .hbm S128x128 .f32) (f : Buf (Elt F) (M.view.loc (thr d L))) :
    sProp (MT nD τ sig (HIx 1) (Elt F) ℕ UU ℕ) :=
  M.view.loc (thr d L) ↦[M.view.set]{fullShare} f

end Cert.Proof.KI

end
-- ==== Proof.Spec.lean ====
/-
  What both programs compute: a row lookup in a table of 8192 rows of 128 numbers.
  For a batch `b`, a sequence place `s` and a lane `l`, entry `(b, 0, s, l)` of the result is entry
  `(pos[b, s], l)` of the table. The position word is read as a natural number; a word below 8192
  names its own row (the fold modulo 8192 only makes the function total).
-/
import Idealize.ShloMosaic.Lib.ValueIdx

namespace Cert.Spec

open Idealize.ShloMosaic Idealize.ShloMosaic.ValueIdx

/-- The positions: two batches of 8192 places. -/
abbrev SPos : Shape := ⟨2, ![2, 8192]⟩
/-- A table: 8192 rows of 128 lanes. -/
abbrev STab : Shape := ⟨2, ![8192, 128]⟩
/-- A result: per batch one plane of 8192 rows of 128 lanes. -/
abbrev SOut : Shape := ⟨4, ![2, 1, 8192, 128]⟩

/-- The table row a position word names. -/
def rowOf (w : BitVec 32) : Fin 8192 := ⟨w.toNat % 8192, Nat.mod_lt _ (by decide)⟩

theorem rowOf_val_of_lt {w : BitVec 32} (h : w.toNat < 8192) : (rowOf w).val = w.toNat :=
  Nat.mod_eq_of_lt h

/-- The lookup: entry `(b, 0, s, l)` is the table's entry `(pos[b, s], l)`. -/
def lookup {α : Type} (tab : STab.Idx → α) (pos : SPos.Idx → BitVec 32) : SOut.Idx → α :=
  fun j => tab (ix2 (rowOf (pos (ix2 (j 0 : Fin 2) (j 2 : Fin 8192)))) (j 3 : Fin 128))

end Cert.Spec
-- ==== Proof.KiValue.lean ====
/-
  What a result window holds after a tile's run is the row lookup.

  A tile's list buffer holds its 512 position words: word `z` is the position at batch `w / 16`, place
  `(w % 16) * 512 + z` (`w` the worker number). A chunk's gather reads a window of 128 of those words, takes each as
  a row number of the table, and fills a row buffer with those rows; the row buffer is then written out to the
  window of the result plane at batch `w / 16`, places `(w % 16) * 512 + 128 * r` on. So entry `(y0, y1)` of the
  row buffer is the table's entry (position word at place `(w % 16) * 512 + 128 * r + y0`, lane `y1`), and the
  window's entry `(w / 16, 0, (w % 16) * 512 + 128 * r + y0, y1)` ends holding it: the lookup at that entry, a
  position word below 8192 naming its own row.
-/
import proofs.«214960_g85727547228328_cont_9to1_m_337_27_alg».proof.Proof.KiSetup
import proofs.«214960_g85727547228328_cont_9to1_m_337_27_alg».proof.Proof.Spec
import Idealize.ShloMosaic.Lib.ValueLayout
import Idealize.ShloMosaic.Lib.ValueIdx
import Idealize.ShloMosaic.Lib.Exec.Geometry
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

variable [FloatOps F]

variable (d : Dev nD) (L : grid0.Coords)

/-! ## Indices -/

omit [FloatOps F] in
/-- A rank-1 index recovered from its row-major position has that position as its coordinate. -/
theorem rowMajor_symm_one {dd : Fin 1 → Nat} (n : Fin (⟨1, dd⟩ : Shape).numel) :
    (((⟨1, dd⟩ : Shape).rowMajor.symm n) 0).val = n.val := by
  have h := Shape.rowMajor_val_one ((⟨1, dd⟩ : Shape).rowMajor.symm n)
  rw [Equiv.apply_symm_apply] at h
  exact h.symm

/-- Entry `(y0, y1)` of window `r`, as an entry of the result plane: batch `w / 16`, place
    `(w % 16) * 512 + 128 * r + y0`, lane `y1`. -/
theorem win_coords (r : Fin 4) (y : S128x128.Idx) (h : S128x128.numel = (winRect L r).shape.numel) :
    (((winRect L r).emb (Shape.reshapeEquiv h y)) 0).val = wid L / 16
      ∧ (((winRect L r).emb (Shape.reshapeEquiv h y)) 2).val = wid L % 16 * 512 + 128 * r.val + (y 0).val
      ∧ (((winRect L r).emb (Shape.reshapeEquiv h y)) 3).val = (y 1).val := by
  obtain ⟨y0, y1, rfl⟩ : ∃ y0 y1, y = ix2 y0 y1 := ⟨_, _, eq_ix2 y⟩
  have e : Shape.reshapeEquiv h (ix2 y0 y1) = ix4 (⟨0, Nat.one_pos⟩ : Fin 1) (⟨0, Nat.one_pos⟩ : Fin 1) y0 y1 :=
    reshapeEquiv_ix2_11ab (a := 128) (b := 128) h y0 y1
  rw [e]
  refine ⟨?_, ?_, ?_⟩
  · show k0_off2 L (BitVec.ofNat 32 (128 * r.val)) 0 + 1 * 0 = wid L / 16
    rw [off2_eq]
    show wid L / 16 + 1 * 0 = wid L / 16
    omega
  · show k0_off2 L (BitVec.ofNat 32 (128 * r.val)) 2 + 1 * y0.val = wid L % 16 * 512 + 128 * r.val + y0.val
    rw [off2_eq]
    show wid L % 16 * 512 + 128 * r.val + 1 * y0.val = wid L % 16 * 512 + 128 * r.val + y0.val
    omega
  · show k0_off2 L (BitVec.ofNat 32 (128 * r.val)) 3 + 1 * y1.val = y1.val
    rw [off2_eq]
    show 0 + 1 * y1.val = y1.val
    omega

/-! ## The list buffer -/

/-- The tile's list, read through a window of 128 words at `off`: word `x` of the window is the position word at
    batch `w / 16`, place `(w % 16) * 512 + off + x`. -/
theorem list_apply (off : Fin 1 → Nat) (inb : ∀ a, off a + S128.size a ≤ S512.size a)
    (hs : ∀ a, (Rect.unit (s := S512) off S128.size inb).stride a = 1)
    (x : (Rect.unit (s := S512) off S128.size inb).shape.Idx) (p : S2x8192.Idx)
    (h0 : (p 0).val = wid L / 16) (h1 : (p 1).val = wid L % 16 * 512 + off 0 + (x 0).val) :
    View.read (Elt F) ((iS).slice (Rect.unit (s := S512) off S128.size inb) hs).view (idxv m d L) x = m (pLoc d) p := by
  unfold idxv
  rw [View.read_apply]
  simp only [cast_eq]
  rw [View.read_apply]
  simp only [cast_eq]
  refine congrArg (m (pLoc d)) (show ((pRowK L).view.emb (((iS).slice (Rect.unit (s := S512) off S128.size inb) hs).view.emb x) : S2x8192.Idx) = p from ?_)
  funext a
  refine Fin.ext ?_
  match a with
  | ⟨0, _⟩ =>
    show k0_off1 L 0 + 1 * ((Shape.reshapeEquiv _ ((Rect.unit (s := S512) off S128.size inb).emb x) : S1x512.Idx) 0).val = (p 0).val
    rw [Shape.reshapeEquiv_cons_one, off1_eq, h0]
    show wid L / 16 + 1 * 0 = wid L / 16
    omega
  | ⟨1, _⟩ =>
    show k0_off1 L 1 + 1 * ((Shape.reshapeEquiv _ ((Rect.unit (s := S512) off S128.size inb).emb x) : S1x512.Idx) 1).val = (p 1).val
    rw [Shape.reshapeEquiv_cons_one, off1_eq, h1]
    show wid L % 16 * 512 + 1 * (off 0 + 1 * (x 0).val) = _
    omega

/-! ## A row buffer after its gather -/

/-- THE GATHERED ROWS AT A LOCAL INDEX. A row buffer `B` whose last write is the gather of the table's rows
    named by the list window at `off` reads, at `(y0, y1)`, the lookup at any result entry `j` of batch `w / 16`,
    place `(w % 16) * 512 + off + y0` and lane `y1` — whatever the buffer held before and whatever older writes
    lie under the gather. -/
theorem pay_apply (hpos : ∀ (d : Dev nD) (j : S2x8192.Idx), (m (pLoc d) j).toNat < 8192)
    (T : Memref sig .scVector .hbm S8192x128 .f32) (tab : T.view.ty.Contents (Elt F))
    (B : Memref sig .scVector .vmem S128x128 .f32) (fprev : B.view.ty.Contents (Elt F))
    (older : List (View.Piece (Elt F) S128x128 .f32))
    (off : Fin 1 → Nat) (inb : ∀ a, off a + S128.size a ≤ S512.size a)
    (hs : ∀ a, (Rect.unit (s := S512) off S128.size inb).stride a = 1)
    (inbT : ∀ a, (![0, 0] : Fin 2 → Nat) a + S8192x128.size a ≤ S8192x128.size a)
    (hsT : ∀ a, (Rect.unit (s := S8192x128) ![0, 0] S8192x128.size inbT).stride a = 1)
    (hg : S8192x128.Gathers 0 S128x128)
    (hn : (Rect.unit (s := S512) off S128.size inb).shape.numel = S128x128.size hg.axis')
    (hin : ∀ x, (View.read (Elt F) ((iS).slice (Rect.unit (s := S512) off S128.size inb) hs).view (idxv m d L) x).toNat
      < S8192x128.size hg.axis)
    (y : S128x128.Idx) (j : S2x1x8192x128.Idx)
    (hj0 : (j 0).val = wid L / 16) (hj2 : (j 2).val = wid L % 16 * 512 + off 0 + (y 0).val) (hj3 : (j 3).val = (y 1).val) :
    ReadAs.same.apply
        (View.read (Elt F) B.view
          (B.view.writes (Elt F) fprev
            (⟨Rect.whole S128x128,
              SparseCore.gatherPayload hg
                (View.read (Elt F) (T.slice (Rect.unit (s := S8192x128) ![0, 0] S8192x128.size inbT) hsT).view tab)
                (SparseCore.rows
                  (View.read (Elt F) ((iS).slice (Rect.unit (s := S512) off S128.size inb) hs).view (idxv m d L))
                  hn hin)⟩ :: older)))
        y
      = Cert.Spec.lookup (T.view.read (Elt F) tab) (m (pLoc d)) j := by
  rw [ReadAs.apply_same]
  have h1 := View.read_writes_cons_emb B.view fprev (Rect.whole S128x128)
    (SparseCore.gatherPayload hg
      (View.read (Elt F) (T.slice (Rect.unit (s := S8192x128) ![0, 0] S8192x128.size inbT) hsT).view tab)
      (SparseCore.rows
        (View.read (Elt F) ((iS).slice (Rect.unit (s := S512) off S128.size inb) hs).view (idxv m d L))
        hn hin)) older y
  rw [Rect.emb_whole_apply] at h1
  refine h1.trans ?_
  show View.read (Elt F) T.view tab
      ((Rect.unit (s := S8192x128) ![0, 0] S8192x128.size inbT).emb
        (hg.idx (SparseCore.rows
          (View.read (Elt F) ((iS).slice (Rect.unit (s := S512) off S128.size inb) hs).view (idxv m d L)) hn hin) y))
    = View.read (Elt F) T.view tab (ix2 (Cert.Spec.rowOf (m (pLoc d) (ix2 (j 0) (j 2)))) (j 3))
  refine congrArg (View.read (Elt F) T.view tab) ?_
  funext a
  refine Fin.ext ?_
  match a with
  | ⟨0, _⟩ =>
    show 0 + 1 * (hg.idx (SparseCore.rows
          (View.read (Elt F) ((iS).slice (Rect.unit (s := S512) off S128.size inb) hs).view (idxv m d L)) hn hin) y hg.axis).val
      = (Cert.Spec.rowOf (m (pLoc d) (ix2 (j 0) (j 2)))).val
    rw [Shape.Gathers.idx_axis, Cert.Spec.rowOf_val_of_lt (hpos d _)]
    show 0 + 1 * (View.read (Elt F) ((iS).slice (Rect.unit (s := S512) off S128.size inb) hs).view (idxv m d L)
        ((Rect.unit (s := S512) off S128.size inb).shape.rowMajor.symm ((y hg.axis').cast hn.symm))).toNat = _
    have hz : (((Rect.unit (s := S512) off S128.size inb).shape.rowMajor.symm ((y hg.axis').cast hn.symm)) 0).val = (y 0).val :=
      rowMajor_symm_one (dd := S128.size) ((y hg.axis').cast hn.symm)
    rw [list_apply m d L off inb hs _ (ix2 (j 0) (j 2)) hj0 (by rw [hz]; exact hj2)]
    omega
  | ⟨1, _⟩ =>
    show 0 + 1 * (hg.idx (SparseCore.rows
          (View.read (Elt F) ((iS).slice (Rect.unit (s := S512) off S128.size inb) hs).view (idxv m d L)) hn hin) y ⟨1, by decide⟩).val
      = (j 3).val
    rw [Shape.Gathers.idx_of_ne hg _ y ⟨1, by decide⟩ (by decide), hj3]
    show 0 + 1 * (y 1).val = (y 1).val
    omega

/-! ## A result window after its write-out -/

/-- A window of the cosine plane written whole with `w` holds the lookup, when `w` at `(y0, y1)` is the lookup
    at the entries of batch `w / 16`, place `(w % 16) * 512 + 128 * r + y0`, lane `y1`. -/
theorem aWin_value (r : Fin 4) (fa : Buf (Elt F) (aLoc d)) (w : S128x128.Idx → Elt F .f32)
    (hw : ∀ (y : S128x128.Idx) (j : S2x1x8192x128.Idx), (j 0).val = wid L / 16 →
      (j 2).val = wid L % 16 * 512 + 128 * r.val + (y 0).val → (j 3).val = (y 1).val →
      w y = Cert.Spec.lookup (m (cLoc d)) (m (pLoc d)) j) :
    ∀ i ∈ (aWin L r).view.set, ((aWin L r).view.writes (Elt F) fa [⟨Rect.whole S128x128, w⟩]) i
      = Cert.Spec.lookup (m (cLoc d)) (m (pLoc d)) i := by
  intro i hi
  obtain ⟨y, rfl⟩ := View.exists_emb_of_mem_set _ hi
  have hr := congrFun (View.read_writes_whole (aWin L r).view fa w) y
  rw [View.read_apply] at hr
  simp only [cast_eq] at hr
  refine hr.trans ?_
  have hc := win_coords L r y squeezes_S1x1x128x128_S128x128.numel_eq
  exact hw y _ hc.1 hc.2.1 hc.2.2

/-- The same for a window of the sine plane. -/
theorem bWin_value (r : Fin 4) (fb : Buf (Elt F) (bLoc d)) (w : S128x128.Idx → Elt F .f32)
    (hw : ∀ (y : S128x128.Idx) (j : S2x1x8192x128.Idx), (j 0).val = wid L / 16 →
      (j 2).val = wid L % 16 * 512 + 128 * r.val + (y 0).val → (j 3).val = (y 1).val →
      w y = Cert.Spec.lookup (m (sLoc d)) (m (pLoc d)) j) :
    ∀ i ∈ (bWin L r).view.set, ((bWin L r).view.writes (Elt F) fb [⟨Rect.whole S128x128, w⟩]) i
      = Cert.Spec.lookup (m (sLoc d)) (m (pLoc d)) i := by
  intro i hi
  obtain ⟨y, rfl⟩ := View.exists_emb_of_mem_set _ hi
  have hr := congrFun (View.read_writes_whole (bWin L r).view fb w) y
  rw [View.read_apply] at hr
  simp only [cast_eq] at hr
  refine hr.trans ?_
  have hc := win_coords L r y squeezes_S1x1x128x128_S128x128.numel_eq
  exact hw y _ hc.1 hc.2.1 hc.2.2

/-- A window of the cosine plane written whole with a row buffer's contents — the buffer's last write the gather of
    the cosine table's rows named by the list window at `off`, `off` the window's own offset `128 * r` — holds the lookup. -/
theorem aWin_pay (hpos : ∀ (d : Dev nD) (j : S2x8192.Idx), (m (pLoc d) j).toNat < 8192)
    (r : Fin 4) (fa : Buf (Elt F) (aLoc d))
    (B : Memref sig .scVector .vmem S128x128 .f32) (fprev : B.view.ty.Contents (Elt F))
    (older : List (View.Piece (Elt F) S128x128 .f32))
    (off : Fin 1 → Nat) (hoff : off 0 = 128 * r.val) (inb : ∀ a, off a + S128.size a ≤ S512.size a)
    (hs : ∀ a, (Rect.unit (s := S512) off S128.size inb).stride a = 1)
    (inbT : ∀ a, (![0, 0] : Fin 2 → Nat) a + S8192x128.size a ≤ S8192x128.size a)
    (hsT : ∀ a, (Rect.unit (s := S8192x128) ![0, 0] S8192x128.size inbT).stride a = 1)
    (hg : S8192x128.Gathers 0 S128x128)
    (hn : (Rect.unit (s := S512) off S128.size inb).shape.numel = S128x128.size hg.axis')
    (hin : ∀ x, (View.read (Elt F) ((iS).slice (Rect.unit (s := S512) off S128.size inb) hs).view (idxv m d L) x).toNat
      < S8192x128.size hg.axis) :
    ∀ i ∈ (aWin L r).view.set, ((aWin L r).view.writes (Elt F) fa [⟨Rect.whole S128x128,
        ReadAs.same.apply
          (View.read (Elt F) B.view
            (B.view.writes (Elt F) fprev
              (⟨Rect.whole S128x128,
                SparseCore.gatherPayload hg
                  (View.read (Elt F) ((cM).slice (Rect.unit (s := S8192x128) ![0, 0] S8192x128.size inbT) hsT).view (m (cLoc d)))
                  (SparseCore.rows
                    (View.read (Elt F) ((iS).slice (Rect.unit (s := S512) off S128.size inb) hs).view (idxv m d L))
                    hn hin)⟩ :: older)))⟩]) i
      = Cert.Spec.lookup (m (cLoc d)) (m (pLoc d)) i :=
  aWin_value m d L r fa _ fun y j h0 h2 h3 =>
    pay_apply m d L hpos cM (m (cLoc d)) B fprev older off inb hs inbT hsT hg hn hin y j h0 (by rw [hoff]; exact h2) h3

/-- A window of the sine plane written whole with a row buffer's contents — the buffer's last write the gather of
    the sine table's rows named by the list window at `off`, `off` the window's own offset `128 * r` — holds the lookup. -/
theorem bWin_pay (hpos : ∀ (d : Dev nD) (j : S2x8192.Idx), (m (pLoc d) j).toNat < 8192)
    (r : Fin 4) (fb : Buf (Elt F) (bLoc d))
    (B : Memref sig .scVector .vmem S128x128 .f32) (fprev : B.view.ty.Contents (Elt F))
    (older : List (View.Piece (Elt F) S128x128 .f32))
    (off : Fin 1 → Nat) (hoff : off 0 = 128 * r.val) (inb : ∀ a, off a + S128.size a ≤ S512.size a)
    (hs : ∀ a, (Rect.unit (s := S512) off S128.size inb).stride a = 1)
    (inbT : ∀ a, (![0, 0] : Fin 2 → Nat) a + S8192x128.size a ≤ S8192x128.size a)
    (hsT : ∀ a, (Rect.unit (s := S8192x128) ![0, 0] S8192x128.size inbT).stride a = 1)
    (hg : S8192x128.Gathers 0 S128x128)
    (hn : (Rect.unit (s := S512) off S128.size inb).shape.numel = S128x128.size hg.axis')
    (hin : ∀ x, (View.read (Elt F) ((iS).slice (Rect.unit (s := S512) off S128.size inb) hs).view (idxv m d L) x).toNat
      < S8192x128.size hg.axis) :
    ∀ i ∈ (bWin L r).view.set, ((bWin L r).view.writes (Elt F) fb [⟨Rect.whole S128x128,
        ReadAs.same.apply
          (View.read (Elt F) B.view
            (B.view.writes (Elt F) fprev
              (⟨Rect.whole S128x128,
                SparseCore.gatherPayload hg
                  (View.read (Elt F) ((sM).slice (Rect.unit (s := S8192x128) ![0, 0] S8192x128.size inbT) hsT).view (m (sLoc d)))
                  (SparseCore.rows
                    (View.read (Elt F) ((iS).slice (Rect.unit (s := S512) off S128.size inb) hs).view (idxv m d L))
                    hn hin)⟩ :: older)))⟩]) i
      = Cert.Spec.lookup (m (sLoc d)) (m (pLoc d)) i :=
  bWin_value m d L r fb _ fun y j h0 h2 h3 =>
    pay_apply m d L hpos sM (m (sLoc d)) B fprev older off inb hs inbT hsT hg hn hin y j h0 (by rw [hoff]; exact h2) h3

end Cert.Proof.KI

end
-- ==== Proof.KiBody.lean ====
/-
  One tile's run. The tile fetches its 512 position words into its list buffer and waits; then, for each of its four
  chunks of 128 words, it gathers the rows those words name from the two tables into a pair of row buffers (three
  pairs, reused in turn) and writes each filled buffer out to its window of the matching result plane, waiting for a
  write-out before its buffer is gathered into again. Every list window and each table are read by several streams at
  once, so they are held as read tokens, one per semaphore; each result window ends holding the rows gathered for it.
-/
import proofs.«214960_g85727547228328_cont_9to1_m_337_27_alg».proof.Proof.KiSetup
import proofs.«214960_g85727547228328_cont_9to1_m_337_27_alg».proof.Proof.Spec
import proofs.«214960_g85727547228328_cont_9to1_m_337_27_alg».proof.Proof.KiValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid0.Coords)

/-- The position words the tile fetched are in range wherever a 128-word window of its list is read. -/
theorem list_inb (hpos : ∀ (d : Dev nD) (j : S2x8192.Idx), (m (pLoc d) j).toNat < 8192)
    (off : Fin 1 → Nat) (inb : ∀ a, off a + S128.size a ≤ S512.size a)
    (x : (Rect.unit (s := S512) off S128.size inb).shape.Idx) :
    (View.read (Elt F) ((iS).slice (Rect.unit (s := S512) off S128.size inb) (fun _ => rfl)).view (idxv m d L) x).toNat < 8192 := by
  unfold idxv
  rw [View.read_apply]
  simp only [cast_eq]
  rw [View.read_apply]
  simp only [cast_eq]
  exact hpos d _

set_option maxHeartbeats 4000000 in
/-- The fetch of the tile's position words and its wait. -/
theorem fetch_run (R : sProp 𝕄) (O : CellTallies nD τ sig (HIx 1)) (W : Waits sig (HIx 1)) (hO : ∀ g, O g none = 0)
    (q : PosShare TreeShare) (fi : Buf (Elt F) ((thr d L).loc cc0_scratch0)) :
    iprop(R ∗ levAts (K (F := F)).L (K (F := F)).lev
        ∗ ((pV).view.loc (thr d L) ↦{q} m (pLoc d)) ∗ ((iS).view.loc (thr d L) ↦{fullShare} fi)
        ∗ semVal (thr d L, .dma cc0_scoped0.sem) 0 ∗ owes (thr d L) O W)
      ⊢ wp frame (wpE (defs₀ (F := F)) 𝒱₀ (thr d L) none) Set.univ
          (k0_part1 L pV (Memref.isWhole_whole _) cM (Memref.isWhole_whole _) sM (Memref.isWhole_whole _) aV (Memref.isWhole_whole _) bV (Memref.isWhole_whole _)
            iS (Memref.isWhole_whole _) c0S (Memref.isWhole_whole _) c1S (Memref.isWhole_whole _) c2S (Memref.isWhole_whole _)
            s0S (Memref.isWhole_whole _) s1S (Memref.isWhole_whole _) s2S (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop(R ∗ levAts (K (F := F)).L (K (F := F)).lev ∗ ((pV).view.loc (thr d L) ↦{q} m (pLoc d)) ∗ ((iS).view.loc (thr d L) ↦{fullShare} idxv m d L)
            ∗ semVal (thr d L, .dma cc0_scoped0.sem) 0
            ∗ ∃ W', ⌜∀ p ∈ W', p ∈ W ∨ p.2 = none⌝ ∗ owes (thr d L) O W') := by
  unfold k0_part1
  iintro ⟨HR, #Hlv, Hp, Hi, S19, HO⟩
  ihave Hmw := (show levAts (K (F := F)).L (K (F := F)).lev ⊢ Transfers.MayWaits (thr d L) (default : HIx 1) O from
    (K (F := F)).mayWaits_none (thr := thr d L) hO) $$ Hlv
  sl_exec
  sl_step
  have e : View.write (Elt F) (iS).view fi (fetch_run.sl.dma0 m d L) Finset.univ = idxv m d L := by
    exact View.write_whole_univ (cc0_scratch0 : Ref sig .scVector) fi (idxv m d L)
  isplitl [HR]; · iexact HR
  isplitr; · iexact Hlv
  isplitl [Hp]; · iexact Hp
  isplitl [Hi]
  · iapply (Entails.of_eq (show ((iS).view.loc (thr d L) ↦{fullShare} View.write (Elt F) (iS).view fi (fetch_run.sl.dma0 m d L) Finset.univ : sProp 𝕄)
      = ((iS).view.loc (thr d L) ↦{fullShare} idxv m d L) by rw [e])); iexact Hi
  isplitl [S19]; · iexact S19
  iexists _; isplitr
  swap; · iexact HO
  ipureintro; intro p hp
  rcases Finset.mem_insert.mp hp with hp | hp; · exact .inr (hp ▸ rfl)
  exact .inl hp

open Transfers (shareDrop shareTokN) in
/-- A share of an array cut into six read tokens and a remainder, and put together again. -/
theorem toks6 {ℓ : Loc nD τ sig} (S : Finset (Idx ℓ)) (q : PosShare TreeShare) (f : Buf (Elt F) ℓ) :
    (ℓ ↦[S]{q} f : sProp 𝕄) ⊣⊢ iprop((ℓ ↦[S]{shareDrop q 6} f) ∗ (ℓ ↦[S]{shareTokN q 0} f) ∗ (ℓ ↦[S]{shareTokN q 1} f) ∗ (ℓ ↦[S]{shareTokN q 2} f)
      ∗ (ℓ ↦[S]{shareTokN q 3} f) ∗ (ℓ ↦[S]{shareTokN q 4} f) ∗ (ℓ ↦[S]{shareTokN q 5} f)) := by
  have h := Transfers.pointsTo_toks_range (ℓ := ℓ) (S := S) (f := f) (Ix := HIx 1) (Name := ℕ) (U := UU) (Lvl := ℕ) q 6
  have e : (BI.bigSep (Finset.range 6) (fun i => (ℓ ↦[S]{shareTokN q i} f : sProp 𝕄)))
      ⊣⊢ iprop((ℓ ↦[S]{shareTokN q 0} f) ∗ (ℓ ↦[S]{shareTokN q 1} f) ∗ (ℓ ↦[S]{shareTokN q 2} f)
        ∗ (ℓ ↦[S]{shareTokN q 3} f) ∗ (ℓ ↦[S]{shareTokN q 4} f) ∗ (ℓ ↦[S]{shareTokN q 5} f)) := by
    rw [show Finset.range 6 = insert 0 (insert 1 (insert 2 (insert 3 (insert 4 {5})))) by decide,
      SparseCore.bigSep_insert' (by decide), SparseCore.bigSep_insert' (by decide), SparseCore.bigSep_insert' (by decide),
      SparseCore.bigSep_insert' (by decide), SparseCore.bigSep_insert' (by decide), bigSep_singleton]
  exact ⟨h.1.trans (sep_mono .rfl e.1), (sep_mono .rfl e.2).trans h.2⟩

/-- The tile's own buffers, opened: its seven scratch buffers, each at some contents, and the rest. -/
abbrev bufsExp : sProp 𝕄 :=
  iprop((∃ f, (iS).view.loc (thr d L) ↦{fullShare} f)
      ∗ (∃ f, (c0S).view.loc (thr d L) ↦{fullShare} f)
      ∗ (∃ f, (c1S).view.loc (thr d L) ↦{fullShare} f)
      ∗ (∃ f, (c2S).view.loc (thr d L) ↦{fullShare} f)
      ∗ (∃ f, (s0S).view.loc (thr d L) ↦{fullShare} f)
      ∗ (∃ f, (s1S).view.loc (thr d L) ↦{fullShare} f)
      ∗ (∃ f, (s2S).view.loc (thr d L) ↦{fullShare} f)
      ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
          fun b => iprop(∃ f, ((d, b) : Loc nD τ sig) ↦{fullShare} f))

omit [FloatOps F] in
theorem ownBufs_V : (ownBufs (thr d L) : sProp 𝕄) = bufsExp d L := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

/-- The thirteen DMA semaphores of a tile. -/
def dmaCells : Finset (GSem nD τ sig) :=
  Finset.univ.map ⟨fun k : Fin 13 => ((thr d L, SemLoc.dma k) : GSem nD τ sig), fun a b h => SemLoc.dma.inj (Prod.mk.inj h).2⟩

omit [FloatOps F] in
theorem dmaCells_sub : dmaCells d L ⊆ ownCells (thr d L) := by
  intro g hg
  obtain ⟨k, -, rfl⟩ := Finset.mem_map.mp hg
  refine (mem_ownCells (g := ((thr d L, SemLoc.dma k) : GSem nD τ sig))).mpr ⟨rfl, ?_⟩
  have h : ∀ k : Fin 13, (SemLoc.dma k : SemLoc sig).isScoped .scVector = true := by decide
  exact h k

/-- The tile's own semaphores at zero, opened: its thirteen DMA semaphores at zero, and the rest. -/
abbrev semsExp : sProp 𝕄 :=
  iprop((semVal (thr d L, .dma cc0_scratch7.sem) 0
      ∗ semVal (thr d L, .dma cc0_scratch8.sem) 0
      ∗ semVal (thr d L, .dma cc0_scratch9.sem) 0
      ∗ semVal (thr d L, .dma cc0_scratch10.sem) 0
      ∗ semVal (thr d L, .dma cc0_scratch11.sem) 0
      ∗ semVal (thr d L, .dma cc0_scratch12.sem) 0
      ∗ semVal (thr d L, .dma cc0_scratch13.sem) 0
      ∗ semVal (thr d L, .dma cc0_scratch14.sem) 0
      ∗ semVal (thr d L, .dma cc0_scratch15.sem) 0
      ∗ semVal (thr d L, .dma cc0_scratch16.sem) 0
      ∗ semVal (thr d L, .dma cc0_scratch17.sem) 0
      ∗ semVal (thr d L, .dma cc0_scratch18.sem) 0
      ∗ semVal (thr d L, .dma cc0_scoped0.sem) 0)
      ∗ bigSep (ownCells (thr d L) \ dmaCells d L) fun g => semVal g 0)

omit [FloatOps F] in
theorem ownSems0_V : (ownSems0 (thr d L) : sProp 𝕄) = semsExp d L := by
  unfold SparseCore.Cfg.ownSems0
  rw [SparseCore.bigSep_sdiff_split' (dmaCells_sub d L)]
  congr 1
  unfold dmaCells
  rw [BI.bigSep_map, show (Finset.univ : Finset (Fin 13)) = {0, 1, 2, 3, 4, 5, 6, 7, 8, 9, 10, 11, 12} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- What of a tile's own buffers and semaphores the kernel never names. -/
abbrev tileRest : sProp 𝕄 :=
  iprop((bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
      fun b => iprop(∃ f, ((d, b) : Loc nD τ sig) ↦{fullShare} f))
    ∗ bigSep (ownCells (thr d L) \ dmaCells d L) fun g => semVal g 0)

set_option maxHeartbeats 16000000 in
/-- The tile's whole run over named scratch contents, carrying a frame `R`: every result window ends at the lookup. -/
theorem tile_body (hF : (K (F := F)).Facts) (hpos : ∀ (d : Dev nD) (j : S2x8192.Idx), (m (pLoc d) j).toNat < 8192)
    (R : sProp 𝕄) (O : CellTallies nD τ sig (HIx 1)) (W : Waits sig (HIx 1)) (hO : ∀ g, O g none = 0)
    (q : PosShare TreeShare)
    (fa : Buf (Elt F) (aLoc d)) (fb : Buf (Elt F) (bLoc d))
    (fi : Buf (Elt F) ((thr d L).loc cc0_scratch0))
    (f1 : Buf (Elt F) ((thr d L).loc cc0_scratch1)) (f2 : Buf (Elt F) ((thr d L).loc cc0_scratch2)) (f3 : Buf (Elt F) ((thr d L).loc cc0_scratch3))
    (f4 : Buf (Elt F) ((thr d L).loc cc0_scratch4)) (f5 : Buf (Elt F) ((thr d L).loc cc0_scratch5)) (f6 : Buf (Elt F) ((thr d L).loc cc0_scratch6)) :
    iprop((R ∗ ((cM).view.loc (thr d L) ↦{q} m (cLoc d)) ∗ ((sM).view.loc (thr d L) ↦{q} m (sLoc d))
        ∗ winPts d L (aWin L 0) fa ∗ winPts d L (aWin L 1) fa ∗ winPts d L (aWin L 2) fa ∗ winPts d L (aWin L 3) fa
        ∗ winPts d L (bWin L 0) fb ∗ winPts d L (bWin L 1) fb ∗ winPts d L (bWin L 2) fb ∗ winPts d L (bWin L 3) fb
        ∗ ((c0S).view.loc (thr d L) ↦{fullShare} f1) ∗ ((c1S).view.loc (thr d L) ↦{fullShare} f2) ∗ ((c2S).view.loc (thr d L) ↦{fullShare} f3)
        ∗ ((s0S).view.loc (thr d L) ↦{fullShare} f4) ∗ ((s1S).view.loc (thr d L) ↦{fullShare} f5) ∗ ((s2S).view.loc (thr d L) ↦{fullShare} f6)
        ∗ semVal (thr d L, .dma cc0_scratch7.sem) 0 ∗ semVal (thr d L, .dma cc0_scratch8.sem) 0 ∗ semVal (thr d L, .dma cc0_scratch9.sem) 0
        ∗ semVal (thr d L, .dma cc0_scratch10.sem) 0 ∗ semVal (thr d L, .dma cc0_scratch11.sem) 0 ∗ semVal (thr d L, .dma cc0_scratch12.sem) 0
        ∗ semVal (thr d L, .dma cc0_scratch13.sem) 0 ∗ semVal (thr d L, .dma cc0_scratch14.sem) 0 ∗ semVal (thr d L, .dma cc0_scratch15.sem) 0
        ∗ semVal (thr d L, .dma cc0_scratch16.sem) 0 ∗ semVal (thr d L, .dma cc0_scratch17.sem) 0 ∗ semVal (thr d L, .dma cc0_scratch18.sem) 0)
        ∗ levAts (K (F := F)).L (K (F := F)).lev
        ∗ ((pV).view.loc (thr d L) ↦{q} m (pLoc d)) ∗ ((iS).view.loc (thr d L) ↦{fullShare} fi)
        ∗ semVal (thr d L, .dma cc0_scoped0.sem) 0 ∗ owes (thr d L) O W)
      ⊢ wp frame (wpE (defs₀ (F := F)) 𝒱₀ (thr d L) none) Set.univ
          (cc0_k L pV (Memref.isWhole_whole _) cM (Memref.isWhole_whole _) sM (Memref.isWhole_whole _) aV (Memref.isWhole_whole _) bV (Memref.isWhole_whole _)
            iS (Memref.isWhole_whole _) c0S (Memref.isWhole_whole _) c1S (Memref.isWhole_whole _) c2S (Memref.isWhole_whole _)
            s0S (Memref.isWhole_whole _) s1S (Memref.isWhole_whole _) s2S (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop((R ∗ ((cM).view.loc (thr d L) ↦{q} m (cLoc d)) ∗ ((sM).view.loc (thr d L) ↦{q} m (sLoc d))
        ∗ winPts d L (aWin L 0) (Cert.Spec.lookup (m (cLoc d)) (m (pLoc d)) : Buf (Elt F) (aLoc d)) ∗ winPts d L (aWin L 1) (Cert.Spec.lookup (m (cLoc d)) (m (pLoc d)) : Buf (Elt F) (aLoc d)) ∗ winPts d L (aWin L 2) (Cert.Spec.lookup (m (cLoc d)) (m (pLoc d)) : Buf (Elt F) (aLoc d)) ∗ winPts d L (aWin L 3) (Cert.Spec.lookup (m (cLoc d)) (m (pLoc d)) : Buf (Elt F) (aLoc d))
        ∗ winPts d L (bWin L 0) (Cert.Spec.lookup (m (sLoc d)) (m (pLoc d)) : Buf (Elt F) (bLoc d)) ∗ winPts d L (bWin L 1) (Cert.Spec.lookup (m (sLoc d)) (m (pLoc d)) : Buf (Elt F) (bLoc d)) ∗ winPts d L (bWin L 2) (Cert.Spec.lookup (m (sLoc d)) (m (pLoc d)) : Buf (Elt F) (bLoc d)) ∗ winPts d L (bWin L 3) (Cert.Spec.lookup (m (sLoc d)) (m (pLoc d)) : Buf (Elt F) (bLoc d))
        ∗ (∃ f, (c0S).view.loc (thr d L) ↦{fullShare} f) ∗ (∃ f, (c1S).view.loc (thr d L) ↦{fullShare} f) ∗ (∃ f, (c2S).view.loc (thr d L) ↦{fullShare} f)
        ∗ (∃ f, (s0S).view.loc (thr d L) ↦{fullShare} f) ∗ (∃ f, (s1S).view.loc (thr d L) ↦{fullShare} f) ∗ (∃ f, (s2S).view.loc (thr d L) ↦{fullShare} f)
        ∗ semVal (thr d L, .dma cc0_scratch7.sem) 0 ∗ semVal (thr d L, .dma cc0_scratch8.sem) 0 ∗ semVal (thr d L, .dma cc0_scratch9.sem) 0
        ∗ semVal (thr d L, .dma cc0_scratch10.sem) 0 ∗ semVal (thr d L, .dma cc0_scratch11.sem) 0 ∗ semVal (thr d L, .dma cc0_scratch12.sem) 0
        ∗ semVal (thr d L, .dma cc0_scratch13.sem) 0 ∗ semVal (thr d L, .dma cc0_scratch14.sem) 0 ∗ semVal (thr d L, .dma cc0_scratch15.sem) 0
        ∗ semVal (thr d L, .dma cc0_scratch16.sem) 0 ∗ semVal (thr d L, .dma cc0_scratch17.sem) 0 ∗ semVal (thr d L, .dma cc0_scratch18.sem) 0
        ∗ ((pV).view.loc (thr d L) ↦{q} m (pLoc d)) ∗ (∃ f, (iS).view.loc (thr d L) ↦{fullShare} f)
        ∗ semVal (thr d L, .dma cc0_scoped0.sem) 0)
            ∗ ∃ W', ⌜∀ p ∈ W', p ∈ W ∨ p.2 = none⌝ ∗ owes (thr d L) O W') := by
  rw [cc0_k_eq_skeleton]; unfold cc0_k_skel
  rw [wp_bind]
  refine (fetch_run m d L _ O W hO q fi).trans (wp_mono frame _ _ fun v29 => ?_)
  iintro ⟨⟨HR, Hc, Hs, Ha0, Ha1, Ha2, Ha3, Hb0, Hb1, Hb2, Hb3, H1, H2, H3, H4, H5, H6, S7, S8, S9, S10, S11, S12, S13, S14, S15, S16, S17, S18⟩, #Hlv, Hp, Hi, S19, %W', %hW', HO⟩
  ihave Hmw := (show levAts (K (F := F)).L (K (F := F)).lev ⊢ Transfers.MayWaits (thr d L) (default : HIx 1) O from
    (K (F := F)).mayWaits_none (thr := thr d L) hO) $$ Hlv
  ihave Hc' := (toks6 (ℓ := (cM).view.loc (thr d L)) _ q (m (cLoc d))).1 $$ Hc
  icases Hc' with ⟨Hcr, Hc0, Hc1, Hc2, Hc3, Hc4, Hc5⟩
  ihave Hs' := (toks6 (ℓ := (sM).view.loc (thr d L)) _ q (m (sLoc d))).1 $$ Hs
  icases Hs' with ⟨Hsr, Hs0, Hs1, Hs2, Hs3, Hs4, Hs5⟩
  ihave Hi' := (toks6 (ℓ := (iS).view.loc (thr d L)) _ fullShare (idxv m d L)).1 $$ Hi
  icases Hi' with ⟨Hir, Hi0, Hi1, Hi2, Hi3, Hi4, Hi5⟩
  have hin := list_inb m d L hpos
  sl_exec
  sl_step
  ihave Hc := (toks6 (ℓ := (cM).view.loc (thr d L)) _ q (m (cLoc d))).2 $$ [Hcr Hc0 Hc1 Hc2 Hc3 Hc4 Hc5]
  · isplitl [Hcr]; · iexact Hcr
    isplitl [Hc0]; · iexact Hc0
    isplitl [Hc1]; · iexact Hc1
    isplitl [Hc2]; · iexact Hc2
    isplitl [Hc3]; · iexact Hc3
    isplitl [Hc4]; · iexact Hc4
    iexact Hc5
  ihave Hs := (toks6 (ℓ := (sM).view.loc (thr d L)) _ q (m (sLoc d))).2 $$ [Hsr Hs0 Hs1 Hs2 Hs3 Hs4 Hs5]
  · isplitl [Hsr]; · iexact Hsr
    isplitl [Hs0]; · iexact Hs0
    isplitl [Hs1]; · iexact Hs1
    isplitl [Hs2]; · iexact Hs2
    isplitl [Hs3]; · iexact Hs3
    isplitl [Hs4]; · iexact Hs4
    iexact Hs5
  ihave Hi := (toks6 (ℓ := (iS).view.loc (thr d L)) _ fullShare (idxv m d L)).2 $$ [Hir Hi0 Hi1 Hi2 Hi3 Hi4 Hi5]
  · isplitl [Hir]; · iexact Hir
    isplitl [Hi0]; · iexact Hi0
    isplitl [Hi1]; · iexact Hi1
    isplitl [Hi2]; · iexact Hi2
    isplitl [Hi3]; · iexact Hi3
    isplitl [Hi4]; · iexact Hi4
    iexact Hi5
  have va0 : ∀ i ∈ (aWin L 0).view.set, ((aWin L 0).view.writes (Elt F) fa [⟨Rect.whole S128x128, tile_body.sl.dma0 m d L f1 hin⟩]) i = (Cert.Spec.lookup (m (cLoc d)) (m (pLoc d)) : Buf (Elt F) (aLoc d)) i :=
    aWin_pay m d L hpos 0 fa _ _ _ _ (by rfl) _ _ _ _ _ _ _
  ihave Ha0 := (Entails.of_eq (pointsTo_congr (q := fullShare) va0)) $$ Ha0
  have va1 : ∀ i ∈ (aWin L 1).view.set, ((aWin L 1).view.writes (Elt F) fa [⟨Rect.whole S128x128, tile_body.sl.dma0_2 m d L f2 hin⟩]) i = (Cert.Spec.lookup (m (cLoc d)) (m (pLoc d)) : Buf (Elt F) (aLoc d)) i :=
    aWin_pay m d L hpos 1 fa _ _ _ _ (by rfl) _ _ _ _ _ _ _
  ihave Ha1 := (Entails.of_eq (pointsTo_congr (q := fullShare) va1)) $$ Ha1
  have va2 : ∀ i ∈ (aWin L 2).view.set, ((aWin L 2).view.writes (Elt F) fa [⟨Rect.whole S128x128, tile_body.sl.dma0_4 m d L f3 hin⟩]) i = (Cert.Spec.lookup (m (cLoc d)) (m (pLoc d)) : Buf (Elt F) (aLoc d)) i :=
    aWin_pay m d L hpos 2 fa _ _ _ _ (by rfl) _ _ _ _ _ _ _
  ihave Ha2 := (Entails.of_eq (pointsTo_congr (q := fullShare) va2)) $$ Ha2
  have va3 : ∀ i ∈ (aWin L 3).view.set, ((aWin L 3).view.writes (Elt F) fa [⟨Rect.whole S128x128, tile_body.sl.dma0_6 m d L f1 hin⟩]) i = (Cert.Spec.lookup (m (cLoc d)) (m (pLoc d)) : Buf (Elt F) (aLoc d)) i :=
    aWin_pay m d L hpos 3 fa _ _ _ _ (by rfl) _ _ _ _ _ _ _
  ihave Ha3 := (Entails.of_eq (pointsTo_congr (q := fullShare) va3)) $$ Ha3
  have vb0 : ∀ i ∈ (bWin L 0).view.set, ((bWin L 0).view.writes (Elt F) fb [⟨Rect.whole S128x128, tile_body.sl.dma0_1 m d L f4 hin⟩]) i = (Cert.Spec.lookup (m (sLoc d)) (m (pLoc d)) : Buf (Elt F) (bLoc d)) i :=
    bWin_pay m d L hpos 0 fb _ _ _ _ (by rfl) _ _ _ _ _ _ _
  ihave Hb0 := (Entails.of_eq (pointsTo_congr (q := fullShare) vb0)) $$ Hb0
  have vb1 : ∀ i ∈ (bWin L 1).view.set, ((bWin L 1).view.writes (Elt F) fb [⟨Rect.whole S128x128, tile_body.sl.dma0_3 m d L f5 hin⟩]) i = (Cert.Spec.lookup (m (sLoc d)) (m (pLoc d)) : Buf (Elt F) (bLoc d)) i :=
    bWin_pay m d L hpos 1 fb _ _ _ _ (by rfl) _ _ _ _ _ _ _
  ihave Hb1 := (Entails.of_eq (pointsTo_congr (q := fullShare) vb1)) $$ Hb1
  have vb2 : ∀ i ∈ (bWin L 2).view.set, ((bWin L 2).view.writes (Elt F) fb [⟨Rect.whole S128x128, tile_body.sl.dma0_5 m d L f6 hin⟩]) i = (Cert.Spec.lookup (m (sLoc d)) (m (pLoc d)) : Buf (Elt F) (bLoc d)) i :=
    bWin_pay m d L hpos 2 fb _ _ _ _ (by rfl) _ _ _ _ _ _ _
  ihave Hb2 := (Entails.of_eq (pointsTo_congr (q := fullShare) vb2)) $$ Hb2
  have vb3 : ∀ i ∈ (bWin L 3).view.set, ((bWin L 3).view.writes (Elt F) fb [⟨Rect.whole S128x128, tile_body.sl.dma0_7 m d L f4 hin⟩]) i = (Cert.Spec.lookup (m (sLoc d)) (m (pLoc d)) : Buf (Elt F) (bLoc d)) i :=
    bWin_pay m d L hpos 3 fb _ _ _ _ (by rfl) _ _ _ _ _ _ _
  ihave Hb3 := (Entails.of_eq (pointsTo_congr (q := fullShare) vb3)) $$ Hb3
  isplitr [HO]
  · sl_close
  iexists _; isplitr
  swap; · iexact HO
  ipureintro; intro p hp
  simp only [Finset.mem_insert] at hp
  rcases hp with rfl | rfl | rfl | rfl | rfl | rfl | rfl | rfl | rfl | rfl | rfl | rfl | rfl | rfl | rfl | rfl | hp
  all_goals first | exact .inr rfl | exact hW' p hp

/-- What a tile is handed of the arrays and hands back: a share of the positions and of each table, and its four
    windows of each result plane outright. -/
abbrev tileRes (q : PosShare TreeShare) (fa : Buf (Elt F) (aLoc d)) (fb : Buf (Elt F) (bLoc d)) : sProp 𝕄 :=
  iprop(((pV).view.loc (thr d L) ↦{q} m (pLoc d)) ∗ ((cM).view.loc (thr d L) ↦{q} m (cLoc d)) ∗ ((sM).view.loc (thr d L) ↦{q} m (sLoc d))
    ∗ (winPts d L (aWin L 0) fa ∗ winPts d L (aWin L 1) fa ∗ winPts d L (aWin L 2) fa ∗ winPts d L (aWin L 3) fa)
    ∗ (winPts d L (bWin L 0) fb ∗ winPts d L (bWin L 1) fb ∗ winPts d L (bWin L 2) fb ∗ winPts d L (bWin L 3) fb))

omit [FloatOps F] in
/-- The run's leavings, packed as the task's result. -/
theorem tile_repack (q : PosShare TreeShare) (O : CellTallies nD τ sig (HIx 1)) (W : Waits sig (HIx 1)) :
    iprop((tileRest d L ∗ ((cM).view.loc (thr d L) ↦{q} m (cLoc d)) ∗ ((sM).view.loc (thr d L) ↦{q} m (sLoc d))
        ∗ winPts d L (aWin L 0) (Cert.Spec.lookup (m (cLoc d)) (m (pLoc d)) : Buf (Elt F) (aLoc d)) ∗ winPts d L (aWin L 1) (Cert.Spec.lookup (m (cLoc d)) (m (pLoc d)) : Buf (Elt F) (aLoc d)) ∗ winPts d L (aWin L 2) (Cert.Spec.lookup (m (cLoc d)) (m (pLoc d)) : Buf (Elt F) (aLoc d)) ∗ winPts d L (aWin L 3) (Cert.Spec.lookup (m (cLoc d)) (m (pLoc d)) : Buf (Elt F) (aLoc d))
        ∗ winPts d L (bWin L 0) (Cert.Spec.lookup (m (sLoc d)) (m (pLoc d)) : Buf (Elt F) (bLoc d)) ∗ winPts d L (bWin L 1) (Cert.Spec.lookup (m (sLoc d)) (m (pLoc d)) : Buf (Elt F) (bLoc d)) ∗ winPts d L (bWin L 2) (Cert.Spec.lookup (m (sLoc d)) (m (pLoc d)) : Buf (Elt F) (bLoc d)) ∗ winPts d L (bWin L 3) (Cert.Spec.lookup (m (sLoc d)) (m (pLoc d)) : Buf (Elt F) (bLoc d))
        ∗ (∃ f, (c0S).view.loc (thr d L) ↦{fullShare} f) ∗ (∃ f, (c1S).view.loc (thr d L) ↦{fullShare} f) ∗ (∃ f, (c2S).view.loc (thr d L) ↦{fullShare} f)
        ∗ (∃ f, (s0S).view.loc (thr d L) ↦{fullShare} f) ∗ (∃ f, (s1S).view.loc (thr d L) ↦{fullShare} f) ∗ (∃ f, (s2S).view.loc (thr d L) ↦{fullShare} f)
        ∗ semVal (thr d L, .dma cc0_scratch7.sem) 0 ∗ semVal (thr d L, .dma cc0_scratch8.sem) 0 ∗ semVal (thr d L, .dma cc0_scratch9.sem) 0
        ∗ semVal (thr d L, .dma cc0_scratch10.sem) 0 ∗ semVal (thr d L, .dma cc0_scratch11.sem) 0 ∗ semVal (thr d L, .dma cc0_scratch12.sem) 0
        ∗ semVal (thr d L, .dma cc0_scratch13.sem) 0 ∗ semVal (thr d L, .dma cc0_scratch14.sem) 0 ∗ semVal (thr d L, .dma cc0_scratch15.sem) 0
        ∗ semVal (thr d L, .dma cc0_scratch16.sem) 0 ∗ semVal (thr d L, .dma cc0_scratch17.sem) 0 ∗ semVal (thr d L, .dma cc0_scratch18.sem) 0
        ∗ ((pV).view.loc (thr d L) ↦{q} m (pLoc d)) ∗ (∃ f, (iS).view.loc (thr d L) ↦{fullShare} f)
        ∗ semVal (thr d L, .dma cc0_scoped0.sem) 0)
        ∗ ∃ W', ⌜∀ p ∈ W', p ∈ W ∨ p.2 = none⌝ ∗ owes (thr d L) O W')
      ⊢ iprop(tileRes m d L q (Cert.Spec.lookup (m (cLoc d)) (m (pLoc d)) : Buf (Elt F) (aLoc d)) (Cert.Spec.lookup (m (sLoc d)) (m (pLoc d)) : Buf (Elt F) (bLoc d)) ∗ bufsExp d L ∗ semsExp d L
          ∗ ∃ W', ⌜∀ p ∈ W', p ∈ W ∨ p.2 = none⌝ ∗ owes (thr d L) O W') := by
  iintro ⟨⟨⟨Hbufs, Hsems⟩, Hc, Hs, Ha0, Ha1, Ha2, Ha3, Hb0, Hb1, Hb2, Hb3, H1, H2, H3, H4, H5, H6, S7, S8, S9, S10, S11, S12, S13, S14, S15, S16, S17, S18, Hp, Hi, S19⟩, HW⟩
  isplitl [Hp Hc Hs Ha0 Ha1 Ha2 Ha3 Hb0 Hb1 Hb2 Hb3]
  · isplitl [Hp]; · iexact Hp
    isplitl [Hc]; · iexact Hc
    isplitl [Hs]; · iexact Hs
    isplitl [Ha0 Ha1 Ha2 Ha3]
    · isplitl [Ha0]; · iexact Ha0
      isplitl [Ha1]; · iexact Ha1
      isplitl [Ha2]; · iexact Ha2
      iexact Ha3
    isplitl [Hb0]; · iexact Hb0
    isplitl [Hb1]; · iexact Hb1
    isplitl [Hb2]; · iexact Hb2
    iexact Hb3
  isplitl [Hi H1 H2 H3 H4 H5 H6 Hbufs]
  · isplitl [Hi]; · iexact Hi
    isplitl [H1]; · iexact H1
    isplitl [H2]; · iexact H2
    isplitl [H3]; · iexact H3
    isplitl [H4]; · iexact H4
    isplitl [H5]; · iexact H5
    isplitl [H6]; · iexact H6
    iexact Hbufs
  isplitr [HW]
  · isplitr [Hsems]
    · isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      iexact S19
    iexact Hsems
  iexact HW

set_option maxHeartbeats 4000000 in
/-- The task on the vector subcore of grid point `L`, as the launch states it. -/
theorem tile_task (hF : (K (F := F)).Facts) (hpos : ∀ (d : Dev nD) (j : S2x8192.Idx), (m (pLoc d) j).toNat < 8192)
    (O : CellTallies nD τ sig (HIx 1)) (W : Waits sig (HIx 1)) (hO : ∀ g, O g none = 0) (q : PosShare TreeShare) :
    iprop(levAts (K (F := F)).L (K (F := F)).lev ∗ emp ∗ tileRes m d L q (m (aLoc d)) (m (bLoc d))
        ∗ scopedBufs (thr d L) ∗ scopedSems0 (thr d L) ∗ owes (thr d L) O W)
      ⊢ wp frame (wpE (defs₀ (F := F)) 𝒱₀ (thr d L) none) Set.univ
          (cc0_k L pV (Memref.isWhole_whole _) cM (Memref.isWhole_whole _) sM (Memref.isWhole_whole _) aV (Memref.isWhole_whole _) bV (Memref.isWhole_whole _)
            iS (Memref.isWhole_whole _) c0S (Memref.isWhole_whole _) c1S (Memref.isWhole_whole _) c2S (Memref.isWhole_whole _)
            s0S (Memref.isWhole_whole _) s1S (Memref.isWhole_whole _) s2S (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop(tileRes m d L q (Cert.Spec.lookup (m (cLoc d)) (m (pLoc d)) : Buf (Elt F) (aLoc d)) (Cert.Spec.lookup (m (sLoc d)) (m (pLoc d)) : Buf (Elt F) (bLoc d))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V d L, ownBufs_V d L]
  iintro ⟨#Hlv, -, ⟨Hp, Hc, Hs, ⟨Ha0, Ha1, Ha2, Ha3⟩, ⟨Hb0, Hb1, Hb2, Hb3⟩⟩, ⟨⟨%fi, Hi⟩, ⟨%f1, H1⟩, ⟨%f2, H2⟩, ⟨%f3, H3⟩, ⟨%f4, H4⟩, ⟨%f5, H5⟩, ⟨%f6, H6⟩, Hbufs⟩, ⟨⟨S7, S8, S9, S10, S11, S12, S13, S14, S15, S16, S17, S18, S19⟩, Hsems⟩, HO⟩
  iapply ((tile_body m d L hF hpos (tileRest d L) O W hO q (m (aLoc d)) (m (bLoc d)) fi f1 f2 f3 f4 f5 f6).trans
    (wp_mono frame _ _ fun _ => tile_repack m d L q O W))
  isplitl [Hbufs Hsems Hc Hs Ha0 Ha1 Ha2 Ha3 Hb0 Hb1 Hb2 Hb3 H1 H2 H3 H4 H5 H6 S7 S8 S9 S10 S11 S12 S13 S14 S15 S16 S17 S18]
  · isplitl [Hbufs Hsems]
    · isplitl [Hbufs]; · iexact Hbufs
      iexact Hsems
    isplitl [Hc]; · iexact Hc
    isplitl [Hs]; · iexact Hs
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    isplitl [H1]; · iexact H1
    isplitl [H2]; · iexact H2
    isplitl [H3]; · iexact H3
    isplitl [H4]; · iexact H4
    isplitl [H5]; · iexact H5
    isplitl [H6]; · iexact H6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    iexact S18
  isplitr; · iexact Hlv
  isplitl [Hp]; · iexact Hp
  isplitl [Hi]; · iexact Hi
  isplitl [S19]; · iexact S19
  iexact HO

end Tile

end Cert.Proof.KI

end
-- ==== Proof.KiSplit.lean ====
/-
  The result plane is cut into the workers' windows. A window is named by a core (of 2), a subcore (of 16) and
  a window number (of 4); worker `w = 2 * subcore + core` of 32 serves batch `w / 16` and the places from
  `(w % 16) * 512` on, its window `r` the 128 places from `(w % 16) * 512 + 128 * r` on. So the window that
  holds entry `j` is read off `j`: with `n = (j 0) * 64 + (j 2) / 128` (128 windows of 128 places), the worker is
  `n / 4` and the window number `n % 4`. Hence distinct windows are disjoint and together they are everything.
-/
import proofs.«214960_g85727547228328_cont_9to1_m_337_27_alg».proof.Proof.KiGeom

namespace Cert.Proof.KI

open Cert.KernelIdeal Cert.KernelIdeal.Gen Idealize.ShloMosaic

/-- The grid point of core c, subcore i. -/
def Lof (c : Fin (grid0.bound 0)) (i : Fin (grid0.bound 1)) : grid0.Coords :=
  fun | 0 => c | 1 => i | ⟨_ + 2, h⟩ => absurd h (Nat.not_lt.2 (Nat.le_add_left _ _))

theorem wid_Lof (c : Fin (grid0.bound 0)) (i : Fin (grid0.bound 1)) : wid (Lof c i) = 2 * i.val + c.val := rfl

/-- The result entries of window r of core c's subcore i. -/
def Wset (x : Fin 2 × Fin 16 × Fin 4) : Finset S2x1x8192x128.Idx := (winRect (Lof x.1 x.2.1) x.2.2).set

/-- An entry lies in a window exactly when its batch and place are the window's. -/
theorem mem_Wset (x : Fin 2 × Fin 16 × Fin 4) (j : S2x1x8192x128.Idx) :
    j ∈ Wset x ↔ (j 0).val = (2 * x.2.1.val + x.1.val) / 16
      ∧ (2 * x.2.1.val + x.1.val) % 16 * 512 + 128 * x.2.2.val ≤ (j 2).val
      ∧ (j 2).val < (2 * x.2.1.val + x.1.val) % 16 * 512 + 128 * x.2.2.val + 128 :=
  mem_winRect (Lof x.1 x.2.1) x.2.2 j

theorem Wset_disjoint : ∀ x ∈ (Finset.univ : Finset (Fin 2 × Fin 16 × Fin 4)), ∀ y ∈ (Finset.univ : Finset (Fin 2 × Fin 16 × Fin 4)), x ≠ y → Disjoint (Wset x) (Wset y) := by
  rintro ⟨c, i, r⟩ _ ⟨c', i', r'⟩ _ hne
  rw [Finset.disjoint_left]
  intro j h h'
  rw [mem_Wset] at h h'
  have hc : c.val < 2 := c.isLt
  have hc' : c'.val < 2 := c'.isLt
  have hi : i.val < 16 := i.isLt
  have hi' : i'.val < 16 := i'.isLt
  have hr : r.val < 4 := r.isLt
  have hr' : r'.val < 4 := r'.isLt
  apply hne
  have e1 : c.val = c'.val := by simp only at h h'; omega
  have e2 : i.val = i'.val := by simp only at h h'; omega
  have e3 : r.val = r'.val := by simp only at h h'; omega
  rw [Fin.ext e1, Fin.ext e2, Fin.ext e3]

theorem Wset_cover : (Finset.univ : Finset (Fin 2 × Fin 16 × Fin 4)).biUnion Wset = Finset.univ := by
  refine Finset.eq_univ_iff_forall.2 fun j => ?_
  have h0 : (j 0).val < 2 := (j 0).isLt
  have h2 : (j 2).val < 8192 := (j 2).isLt
  rw [Finset.mem_biUnion]
  refine ⟨(⟨((j 0).val * 16 + (j 2).val / 512) % 2, by omega⟩, ⟨((j 0).val * 16 + (j 2).val / 512) / 2, by omega⟩,
    ⟨(j 2).val % 512 / 128, by omega⟩), Finset.mem_univ _, ?_⟩
  rw [mem_Wset]
  simp only
  omega

end Cert.Proof.KI
-- ==== Proof.KiLaunch.lean ====
/-
  The launch. The TensorCore starts the one SparseCore call: the positions and the two tables go out as read
  shares, cut in two for the two SparseCores and in sixteen again for each one's tiles; each result plane is cut
  into the 128 windows of 128 rows the 32 tiles write, four to a tile (worker `2 i + c` on core `c`, subcore
  `i`). Every tile hands its windows back holding the looked-up rows, the windows tile each result plane, and so
  after the call each result array is the lookup as one whole-array function while the arguments are untouched.
-/
import proofs.«214960_g85727547228328_cont_9to1_m_337_27_alg».proof.Proof.KiBody
import proofs.«214960_g85727547228328_cont_9to1_m_337_27_alg».proof.Proof.KiSplit
import proofs.«214960_g85727547228328_cont_9to1_m_337_27_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

omit m ρ [FloatOps F] in
theorem nCore_zero : (K (F := F)).nCore 0 = 2 := rfl
omit m ρ [FloatOps F] in
theorem nSub_zero : (K (F := F)).nSub 0 = 16 := rfl

omit m ρ [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Shares and windows -/

omit m ρ [FloatOps F] in
theorem bound_zero : 2 = grid0.bound 0 := rfl
omit m ρ [FloatOps F] in
theorem bound_one : 16 = grid0.bound 1 := rfl
/-- The grid point of core `c`, subcore `i`. -/
abbrev LofN (c : Fin 2) (i : Fin 16) : grid0.Coords := Lof (Fin.cast bound_zero c) (Fin.cast bound_one i)

omit m ρ [FloatOps F] in
theorem Wset_eq (x : Fin 2 × Fin 16 × Fin 4) : Wset x = (winRect (LofN x.1 x.2.1) x.2.2).set := rfl

/-- SparseCore `c`'s share of a read-only array, and tile `i`'s share of that. -/
abbrev qC (c : Fin 2) : PosShare TreeShare := pieceOf fullShare 2 (by decide) c
abbrev qT (c : Fin 2) (i : Fin 16) : PosShare TreeShare := pieceOf (qC c) 16 (by decide) i

omit ρ [FloatOps F] in
/-- A read-only array whole is the 32 tiles' shares of it. -/
theorem sh_split {ℓ : Loc nD τ sig} (f : Buf (Elt F) ℓ) :
    (ℓ ↦{fullShare} f : sProp 𝕄) = bigSep Finset.univ fun c : Fin 2 => bigSep Finset.univ fun i : Fin 16 => ℓ ↦{qT c i} f := by
  rw [pointsTo_piecesOf Finset.univ f (o := 2) (by decide) fullShare]
  exact bigSep_congr fun c _ => pointsTo_piecesOf Finset.univ f (o := 16) (by decide) (qC c)

omit m ρ [FloatOps F] in
theorem set_aWin (L : grid0.Coords) (r : Fin 4) : (aWin L r).view.set = (winRect L r).set := by
  show (((aV).view.slice (winRect L r)).reshape S128x128 squeezes_S1x1x128x128_S128x128.numel_eq).set = _
  rw [View.set_reshape]; exact View.set_slice_whole _ _
omit m ρ [FloatOps F] in
theorem set_bWin (L : grid0.Coords) (r : Fin 4) : (bWin L r).view.set = (winRect L r).set := by
  show (((bV).view.slice (winRect L r)).reshape S128x128 squeezes_S1x1x128x128_S128x128.numel_eq).set = _
  rw [View.set_reshape]; exact View.set_slice_whole _ _

omit m ρ [FloatOps F] in
/-- The first result plane whole is the tiles' windows of it. -/
theorem a_split (d : Dev nD) (f : Buf (Elt F) (aLoc d)) :
    (aLoc d ↦{fullShare} f : sProp 𝕄) = bigSep Finset.univ fun c : Fin 2 => bigSep Finset.univ fun i : Fin 16 =>
      iprop(winPts d (LofN c i) (aWin (LofN c i) 0) f ∗ winPts d (LofN c i) (aWin (LofN c i) 1) f
        ∗ winPts d (LofN c i) (aWin (LofN c i) 2) f ∗ winPts d (LofN c i) (aWin (LofN c i) 3) f) := by
  have h := pointsTo_biUnion (ℓ := aLoc d) (q := fullShare) (f := f) (Ix := HIx 1) (Name := ℕ) (U := UU) (Lvl := ℕ)
    (Finset.univ : Finset (Fin 2 × Fin 16 × Fin 4)) Wset Wset_disjoint
  rw [Wset_cover] at h
  refine h.trans ?_
  rw [bigSep_univ_prod]
  refine bigSep_congr fun c _ => ?_
  rw [bigSep_univ_prod]
  refine bigSep_congr fun i _ => ?_
  rw [show (Finset.univ : Finset (Fin 4)) = {0, 1, 2, 3} by decide,
    SparseCore.bigSep_insert' (by decide), SparseCore.bigSep_insert' (by decide), SparseCore.bigSep_insert' (by decide), bigSep_singleton]
  unfold winPts
  rw [set_aWin, set_aWin, set_aWin, set_aWin, Wset_eq, Wset_eq, Wset_eq, Wset_eq]
omit m ρ [FloatOps F] in
/-- The second result plane whole is the tiles' windows of it. -/
theorem b_split (d : Dev nD) (f : Buf (Elt F) (bLoc d)) :
    (bLoc d ↦{fullShare} f : sProp 𝕄) = bigSep Finset.univ fun c : Fin 2 => bigSep Finset.univ fun i : Fin 16 =>
      iprop(winPts d (LofN c i) (bWin (LofN c i) 0) f ∗ winPts d (LofN c i) (bWin (LofN c i) 1) f
        ∗ winPts d (LofN c i) (bWin (LofN c i) 2) f ∗ winPts d (LofN c i) (bWin (LofN c i) 3) f) := by
  have h := pointsTo_biUnion (ℓ := bLoc d) (q := fullShare) (f := f) (Ix := HIx 1) (Name := ℕ) (U := UU) (Lvl := ℕ)
    (Finset.univ : Finset (Fin 2 × Fin 16 × Fin 4)) Wset Wset_disjoint
  rw [Wset_cover] at h
  refine h.trans ?_
  rw [bigSep_univ_prod]
  refine bigSep_congr fun c _ => ?_
  rw [bigSep_univ_prod]
  refine bigSep_congr fun i _ => ?_
  rw [show (Finset.univ : Finset (Fin 4)) = {0, 1, 2, 3} by decide,
    SparseCore.bigSep_insert' (by decide), SparseCore.bigSep_insert' (by decide), SparseCore.bigSep_insert' (by decide), bigSep_singleton]
  unfold winPts
  rw [set_bWin, set_bWin, set_bWin, set_bWin, Wset_eq, Wset_eq, Wset_eq, Wset_eq]

/-- The five arrays the call touches, whole, at result contents `fa`, `fb`. -/
abbrev arrays (d : Dev nD) (fa : Buf (Elt F) (aLoc d)) (fb : Buf (Elt F) (bLoc d)) : sProp 𝕄 :=
  iprop((pLoc d ↦{fullShare} m (pLoc d)) ∗ (cLoc d ↦{fullShare} m (cLoc d)) ∗ (sLoc d ↦{fullShare} m (sLoc d))
    ∗ (aLoc d ↦{fullShare} fa) ∗ (bLoc d ↦{fullShare} fb))

omit ρ [FloatOps F] in
/-- The five arrays whole are what the 32 tiles are handed. -/
theorem arrays_split (d : Dev nD) (fa : Buf (Elt F) (aLoc d)) (fb : Buf (Elt F) (bLoc d)) :
    arrays m d fa fb = bigSep Finset.univ fun c : Fin 2 => bigSep Finset.univ fun i : Fin 16 => tileRes m d (LofN c i) (qT c i) fa fb := by
  unfold arrays
  rw [sh_split (m (pLoc d)), sh_split (m (cLoc d)), sh_split (m (sLoc d)), a_split d fa, b_split d fb]
  symm
  refine (bigSep_congr (Ψ := fun c : Fin 2 => iprop((bigSep Finset.univ fun i : Fin 16 => pLoc d ↦{qT c i} m (pLoc d))
      ∗ (bigSep Finset.univ fun i : Fin 16 => cLoc d ↦{qT c i} m (cLoc d)) ∗ (bigSep Finset.univ fun i : Fin 16 => sLoc d ↦{qT c i} m (sLoc d))
      ∗ (bigSep Finset.univ fun i : Fin 16 => iprop(winPts d (LofN c i) (aWin (LofN c i) 0) fa ∗ winPts d (LofN c i) (aWin (LofN c i) 1) fa
          ∗ winPts d (LofN c i) (aWin (LofN c i) 2) fa ∗ winPts d (LofN c i) (aWin (LofN c i) 3) fa))
      ∗ (bigSep Finset.univ fun i : Fin 16 => iprop(winPts d (LofN c i) (bWin (LofN c i) 0) fb ∗ winPts d (LofN c i) (bWin (LofN c i) 1) fb
          ∗ winPts d (LofN c i) (bWin (LofN c i) 2) fb ∗ winPts d (LofN c i) (bWin (LofN c i) 3) fb)))) fun c _ => ?_).trans ?_
  · rw [← bigSep_sep', ← bigSep_sep', ← bigSep_sep', ← bigSep_sep']
  · rw [bigSep_sep', bigSep_sep', bigSep_sep', bigSep_sep']

/-! ## What the handshakes carry -/

/-- What tile `i` of SparseCore `c` is handed, at result contents `fa`, `fb`; and what the SparseCore is: its tiles'. -/
abbrev taskRes (d : Dev nD) (c : Fin 2) (i : Fin 16) (fa : Buf (Elt F) (aLoc d)) (fb : Buf (Elt F) (bLoc d)) : sProp 𝕄 :=
  tileRes m d (LofN c i) (qT c i) fa fb
abbrev coreRes (d : Dev nD) (c : Fin 2) (fa : Buf (Elt F) (aLoc d)) (fb : Buf (Elt F) (bLoc d)) : sProp 𝕄 :=
  bigSep Finset.univ fun i : Fin 16 => taskRes m d c i fa fb
/-- The lookups: what the two result arrays end holding. -/
abbrev GA (d : Dev nD) : Buf (Elt F) (aLoc d) := Cert.Spec.lookup (m (cLoc d)) (m (pLoc d))
abbrev GB (d : Dev nD) : Buf (Elt F) (bLoc d) := Cert.Spec.lookup (m (sLoc d)) (m (pLoc d))

/-- The one call takes the five arrays cut per SparseCore and per tile; each tile its shares and windows, and brings
    them back with its windows at the lookup. -/
def P : (K (F := F)).Pay (nD := nD) (Val := Elt F) (Name := ℕ) (U := UU) where
  st := fun q d c => match q with
    | 0 => coreRes m d (Fin.cast nCore_zero c) (m (aLoc d)) (m (bLoc d))
  dn := fun q d c => match q with
    | 0 => coreRes m d (Fin.cast nCore_zero c) (GA m d) (GB m d)
  go := fun q d c i => match q with
    | 0 => taskRes m d (Fin.cast nCore_zero c) (Fin.cast nSub_zero i) (m (aLoc d)) (m (bLoc d))
  td := fun q d c i => match q with
    | 0 => taskRes m d (Fin.cast nCore_zero c) (Fin.cast nSub_zero i) (GA m d) (GB m d)
  x := fun _ _ => iprop(emp)

instance P_storable : (P (F := F) m).IsStorable where
  st q d c := match q with
    | 0 => (inferInstance : BI.Storable (upEmb : UEmb _ 𝕄)
      (coreRes m d (Fin.cast nCore_zero c) (m (aLoc d)) (m (bLoc d))))
  dn q d c := match q with
    | 0 => (inferInstance : BI.Storable (upEmb : UEmb _ 𝕄)
      (coreRes m d (Fin.cast nCore_zero c) (GA m d) (GB m d)))
  go q d c i := match q with
    | 0 => (inferInstance : BI.Storable (upEmb : UEmb _ 𝕄)
      (taskRes m d (Fin.cast nCore_zero c) (Fin.cast nSub_zero i) (m (aLoc d)) (m (bLoc d))))
  td q d c i := match q with
    | 0 => (inferInstance : BI.Storable (upEmb : UEmb _ 𝕄)
      (taskRes m d (Fin.cast nCore_zero c) (Fin.cast nSub_zero i) (GA m d) (GB m d)))

/-- What the proof asks of the launch memory: every position word is below 8192, a row of the tables. -/
def PreOK : Prop := ∀ (d : Dev nD) (j : S2x8192.Idx), (m (pLoc d) j).toNat < 8192

/-! ## The obligation -/

omit m ρ in
theorem defs₀_vector (c : Fin τ.nSC) (s : Fin τ.nSub) :
    defs₀ (F := F) (.scVector c s) 0 ()
      = SparseCore.onTile hcore0 hsub0 (fun c s => cc0_k (Lof c s)
          pV (Memref.isWhole_whole _) cM (Memref.isWhole_whole _) sM (Memref.isWhole_whole _) aV (Memref.isWhole_whole _) bV (Memref.isWhole_whole _)
          iS (Memref.isWhole_whole _) c0S (Memref.isWhole_whole _) c1S (Memref.isWhole_whole _) c2S (Memref.isWhole_whole _)
          s0S (Memref.isWhole_whole _) s1S (Memref.isWhole_whole _) s2S (Memref.isWhole_whole _)
          cc0_scratch7 cc0_scratch8 cc0_scratch9 cc0_scratch10 cc0_scratch11 cc0_scratch12 cc0_scratch13 cc0_scratch14 cc0_scratch15 cc0_scratch16 cc0_scratch17 cc0_scratch18 cc0_scoped0) ⟨⟩ c s := rfl

omit m ρ [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m d (Lof ⟨_, hci.1⟩ ⟨_, hci.2⟩) hF hpre O W hO _).trans (wp_mono frame _ _ fun _ => obl_post)

/-! ## A SparseCore's operands split among its tiles -/

omit m ρ [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

set_option maxHeartbeats 4000000 in
theorem vecSplit : (K (F := F)).VecSplit' (P m) 0 := by
  intro d c
  show (coreRes m d (Fin.cast nCore_zero c) (m (aLoc d)) (m (bLoc d)))
    ⊢ |={Set.univ}=> iprop(
      (bigSep Finset.univ fun i : Fin ((K (F := F)).nSub 0) =>
        taskRes m d (Fin.cast nCore_zero c) (Fin.cast nSub_zero i) (m (aLoc d)) (m (bLoc d)))
      ∗ ((bigSep Finset.univ fun i : Fin ((K (F := F)).nSub 0) =>
          taskRes m d (Fin.cast nCore_zero c) (Fin.cast nSub_zero i) (GA m d) (GB m d))
          -∗ (coreRes m d (Fin.cast nCore_zero c) (GA m d) (GB m d))))
  rw [bigSep_tasks (F := F) (fun i => taskRes m d (Fin.cast nCore_zero c) i (m (aLoc d)) (m (bLoc d))),
    bigSep_tasks (F := F) (fun i => taskRes m d (Fin.cast nCore_zero c) i (GA m d) (GB m d))]
  iintro H; imodintro
  isplitl [H]; · iexact H
  iintro H; iexact H

/-! ## The launch element of the ghost state -/

def u₀ : UU := (initOf (K (F := F)).hsCells (K (F := F)).hsToks, 1)

omit m ρ [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit ρ [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ (cLoc d ↦{fullShare} W main_arg2)
      ∗ (sLoc d ↦{fullShare} W main_arg3) ∗ (aLoc d ↦{fullShare} W main_v0_0) ∗ bLoc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

set_option maxHeartbeats 4000000 in
omit ρ in
theorem st0_eq (d : Dev nD) : (bigSep Finset.univ fun c : Fin ((K (F := F)).nCore 0) => (P m).st 0 d c) = arrays m d (m (aLoc d)) (m (bLoc d)) := by
  rw [arrays_split]
  exact bigSep_congr fun c _ => rfl
set_option maxHeartbeats 4000000 in
omit ρ in
theorem dn0_eq (d : Dev nD) : (bigSep Finset.univ fun c : Fin ((K (F := F)).nCore 0) => (P m).dn 0 d c) = arrays m d (GA m d) (GB m d) := by
  rw [arrays_split]
  exact bigSep_congr fun c _ => rfl

/-- What @main ends holding: the arguments as they were, the results at the lookup. -/
abbrev FIN (d : Dev nD) : sProp 𝕄 := iprop((xLoc d ↦{fullShare} m (xLoc d)) ∗ arrays m d (GA m d) (GB m d))

/-- @main on device `d`'s TensorCore: the one call, from the arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Hc, Hs, Ha, Hb'⟩, -, -⟩, -⟩
  iapply ((K (F := F)).wp_run (D (F := F)) 𝒱 (EH := EH) (P := P m) κ d 0) $$ [Hst Hx Hp Hc Hs Ha Hb']
  isplitr; · iexact Hctx
  isplitl [Hst]; · iexact Hst
  isplitl [Hp Hc Hs Ha Hb']
  · rw [st0_eq]
    isplitl [Hp]; · iexact Hp
    isplitl [Hc]; · iexact Hc
    isplitl [Hs]; · iexact Hs
    isplitl [Ha]; · iexact Ha
    iexact Hb'
  iintro ⟨Hst, Hdn⟩
  ihave Hdn' := (Entails.of_eq (dn0_eq m d)) $$ Hdn
  imodintro
  isplitl [Hst]; · iexact Hst
  isplitl [Hx]; · iexact Hx
  iexact Hdn'

def fq (d : Dev nD) (s' : Phys nD τ sig (Elt F)) : Prop :=
  s'.mem.mem (aLoc d) = (GA m d) ∧ s'.mem.mem (bLoc d) = (GB m d)
  ∧ s'.mem.mem (xLoc d) = m (xLoc d) ∧ s'.mem.mem (pLoc d) = m (pLoc d) ∧ s'.mem.mem (cLoc d) = m (cLoc d) ∧ s'.mem.mem (sLoc d) = m (sLoc d)

omit ρ [FloatOps F] in
/-- A whole array held outright is what the memory holds. -/
theorem agree_whole {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

omit ρ [FloatOps F] in
set_option maxRecDepth 16384 in
theorem hfin (d : Dev nD) (s' : Phys nD τ sig (Elt F)) : iprop(FIN m d ∗ SI s') ⊢ (⌜fq m d s'⌝ : sProp 𝕄) := by
  iintro ⟨⟨Hx, Hp, Hc, Hs, Ha, Hb⟩, HSI⟩
  ihave H := (agree_whole _ s') $$ [HSI Hx]; · isplitl [HSI] <;> iassumption
  icases H with ⟨%hx, HSI⟩
  ihave H := (agree_whole _ s') $$ [HSI Hp]; · isplitl [HSI] <;> iassumption
  icases H with ⟨%hp, HSI⟩
  ihave H := (agree_whole _ s') $$ [HSI Hc]; · isplitl [HSI] <;> iassumption
  icases H with ⟨%hc, HSI⟩
  ihave H := (agree_whole _ s') $$ [HSI Hs]; · isplitl [HSI] <;> iassumption
  icases H with ⟨%hs, HSI⟩
  ihave H := (agree_whole _ s') $$ [HSI Ha]; · isplitl [HSI] <;> iassumption
  icases H with ⟨%ha, HSI⟩
  ihave H := (agree_whole _ s') $$ [HSI Hb]; · isplitl [HSI] <;> iassumption
  icases H with ⟨%hb, HSI⟩
  ipureintro; exact ⟨ha, hb, hx, hp, hc, hs⟩

/-! ## The program's run -/

/-- Each result array ends at the lookup; the four arguments end unchanged. -/
def QC : PUnit × MemSt nD τ sig (Elt F) → Prop := fun r => ∀ d : Dev nD,
  r.2.mem (aLoc d) = (GA m d) ∧ r.2.mem (bLoc d) = (GB m d)
  ∧ r.2.mem (xLoc d) = m (xLoc d) ∧ r.2.mem (pLoc d) = m (pLoc d) ∧ r.2.mem (cLoc d) = m (cLoc d) ∧ r.2.mem (sLoc d) = m (sLoc d)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KbGeom.lean ====
/-
  The geometry of the kernel's copies. A grid point `L` (core `L 0` of 2, subcore `L 1` of 16) is worker
  `wid L = 2 * L 1 + L 0` of 32. Worker `w` serves batch `w / 16` and the 512 sequence places from
  `(w % 16) * 512` on; its window `r` of 4 is the 128 places from `(w % 16) * 512 + 128 * r` on.
  Here: the closed forms of the printed offset functions, and which result entries a window holds.
-/
import proofs.«214960_g85727547228328_cont_9to1_m_337_27_alg».proof.Kernel
import proofs.«214960_g85727547228328_cont_9to1_m_337_27_alg».proof.Proof.Gen.Kernel
import Idealize.ShloMosaic.Lib.Decide

namespace Cert.Proof.KB

open Cert.Kernel Cert.Kernel.Gen
open Idealize.ShloMosaic

/-- The worker number of a grid point. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The fetch of the position words starts at batch `w / 16`, place `(w % 16) * 512`. -/
theorem off1_eq : ∀ L : grid0.Coords, k0_off1 L = ![wid L / 16, wid L % 16 * 512] := by decide +kernel

/-- Window `r` starts at batch `w / 16`, place `(w % 16) * 512 + 128 * r`. -/
theorem off2_eq : ∀ (L : grid0.Coords) (r : Fin 4),
    k0_off2 L (BitVec.ofNat 32 (128 * r.val)) = ![wid L / 16, 0, wid L % 16 * 512 + 128 * r.val, 0] := by decide +kernel

/-- The rectangle of window `r` in a result array. -/
abbrev winRect (L : grid0.Coords) (r : Fin 4) : Rect S2x1x8192x128 :=
  Rect.unit (s := S2x1x8192x128) (k0_off2 L (BitVec.ofNat 32 (128 * r.val))) S1x1x128x128.size (k0_off2_inb L r)

/-- A result entry lies in window `r` of worker `w` exactly when its batch is `w / 16` and its place is one of the window's 128. -/
theorem mem_winRect (L : grid0.Coords) (r : Fin 4) (j : S2x1x8192x128.Idx) :
    j ∈ (winRect L r).set ↔ (j 0).val = wid L / 16 ∧ wid L % 16 * 512 + 128 * r.val ≤ (j 2).val ∧ (j 2).val < wid L % 16 * 512 + 128 * r.val + 128 := by
  rw [Rect.mem_set_unit, off2_eq]
  have h1 : (j 1).val < 1 := (j 1).isLt
  have h3 : (j 3).val < 128 := (j 3).isLt
  constructor
  · intro h
    have a0 : wid L / 16 ≤ (j 0).val ∧ (j 0).val < wid L / 16 + 1 := h 0
    have a2 : wid L % 16 * 512 + 128 * r.val ≤ (j 2).val ∧ (j 2).val < wid L % 16 * 512 + 128 * r.val + 128 := h 2
    omega
  · rintro ⟨e0, lo, hi⟩ a
    match a with
    | ⟨0, _⟩ => exact (show wid L / 16 ≤ (j 0).val ∧ (j 0).val < wid L / 16 + 1 from by omega)
    | ⟨1, _⟩ => exact (show 0 ≤ (j 1).val ∧ (j 1).val < 0 + 1 from by omega)
    | ⟨2, _⟩ => exact (show wid L % 16 * 512 + 128 * r.val ≤ (j 2).val ∧ (j 2).val < wid L % 16 * 512 + 128 * r.val + 128 from ⟨lo, hi⟩)
    | ⟨3, _⟩ => exact (show 0 ≤ (j 3).val ∧ (j 3).val < 0 + 128 from by omega)

end Cert.Proof.KB
-- ==== Proof.KbSetup.lean ====
/-
  Names shared by the modules about the kernel's run: the launch configuration, the ghost state, the arrays and
  scratch buffers as a vector subcore addresses them, and the slices the kernel cuts — a tile's 512 position
  words, and its four windows of 128 rows in each result plane.
-/
import proofs.«214960_g85727547228328_cont_9to1_m_337_27_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«214960_g85727547228328_cont_9to1_m_337_27_alg».proof.Proof.Gen.Kernel
import proofs.«214960_g85727547228328_cont_9to1_m_337_27_alg».proof.Proof.Gen.Kernel.Skeleton
import proofs.«214960_g85727547228328_cont_9to1_m_337_27_alg».proof.Proof.KbGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

abbrev EH : Emb UH (MT nD τ sig (HIx 1) (Elt F) ℕ UU ℕ) := embL

abbrev pLoc (d : Dev nD) : Loc nD τ sig := (SparseCore.T d).loc main_arg1
abbrev cLoc (d : Dev nD) : Loc nD τ sig := (SparseCore.T d).loc main_arg2
abbrev sLoc (d : Dev nD) : Loc nD τ sig := (SparseCore.T d).loc main_arg3
abbrev xLoc (d : Dev nD) : Loc nD τ sig := (SparseCore.T d).loc main_arg0
abbrev aLoc (d : Dev nD) : Loc nD τ sig := (SparseCore.T d).loc main_v0_0
abbrev bLoc (d : Dev nD) : Loc nD τ sig := (SparseCore.T d).loc main_v0_1

/-- The position array, the two tables and the two result arrays, whole, as a vector subcore names them. -/
abbrev pV : Memref sig .scVector .hbm S2x8192 .i32 := Memref.whole main_arg1_scv
abbrev cM : Memref sig .scVector .hbm S8192x128 .f32 := Memref.whole main_arg2_scv
abbrev sM : Memref sig .scVector .hbm S8192x128 .f32 := Memref.whole main_arg3_scv
abbrev aV : Memref sig .scVector .hbm S2x1x8192x128 .f32 := Memref.whole main_v0_0_scv
abbrev bV : Memref sig .scVector .hbm S2x1x8192x128 .f32 := Memref.whole main_v0_1_scv
/-- A tile's list buffer and its six row buffers. -/
abbrev iS : Memref sig .scVector .vmem S512 .i32 := Memref.whole cc0_scratch0
abbrev c0S : Memref sig .scVector .vmem S128x128 .f32 := Memref.whole cc0_scratch1
abbrev c1S : Memref sig .scVector .vmem S128x128 .f32 := Memref.whole cc0_scratch2
abbrev c2S : Memref sig .scVector .vmem S128x128 .f32 := Memref.whole cc0_scratch3
abbrev s0S : Memref sig .scVector .vmem S128x128 .f32 := Memref.whole cc0_scratch4
abbrev s1S : Memref sig .scVector .vmem S128x128 .f32 := Memref.whole cc0_scratch5
abbrev s2S : Memref sig .scVector .vmem S128x128 .f32 := Memref.whole cc0_scratch6

abbrev cV (L : grid0.Coords) : Fin τ.nSC := (L 0).castLE hcore0
abbrev jV (L : grid0.Coords) : Fin τ.nSub := (L 1).castLE hsub0
/-- The vector subcore that runs grid point `L` on device `d`. -/
abbrev thr (d : Dev nD) (L : grid0.Coords) : Thread nD τ := V d (cV L) (jV L)

/-- The tile's 512 position words, as the kernel addresses them. -/
abbrev pRowK (L : grid0.Coords) : Memref sig .scVector .hbm S512 .i32 :=
  ((pV).slice (Rect.unit (s := S2x8192) (k0_off1 L) S1x512.size (k0_off1_inb L)) (fun _ => rfl)).squeeze S512 squeezes_S1x512_S512
/-- Window `r` of a result plane: 128 rows, as the kernel addresses them. -/
abbrev aWin (L : grid0.Coords) (r : Fin 4) : Memref sig .scVector .hbm S128x128 .f32 :=
  ((aV).slice (winRect L r) (fun _ => rfl)).squeeze S128x128 squeezes_S1x1x128x128_S128x128
abbrev bWin (L : grid0.Coords) (r : Fin 4) : Memref sig .scVector .hbm S128x128 .f32 :=
  ((bV).slice (winRect L r) (fun _ => rfl)).squeeze S128x128 squeezes_S1x1x128x128_S128x128

variable (m : (ℓ : Loc nD τ sig) → Buf (Elt F) ℓ)

/-- What the tile's list buffer holds once its 512 position words have landed. -/
abbrev idxv (d : Dev nD) (L : grid0.Coords) : Buf (Elt F) ((thr d L).loc cc0_scratch0) := (pRowK L).view.read (Elt F) (m (pLoc d))

/-- A window held outright at contents `f`. -/
abbrev winPts (d : Dev nD) (L : grid0.Coords) (M : Memref sig .scVector .hbm S128x128 .f32) (f : Buf (Elt F) (M.view.loc (thr d L))) :
    sProp (MT nD τ sig (HIx 1) (Elt F) ℕ UU ℕ) :=
  M.view.loc (thr d L) ↦[M.view.set]{fullShare} f

end Cert.Proof.KB

end
-- ==== Proof.KbValue.lean ====
/-
  What a result window holds after a tile's run is the row lookup.

  A tile's list buffer holds its 512 position words: word `z` is the position at batch `w / 16`, place
  `(w % 16) * 512 + z` (`w` the worker number). A chunk's gather reads a window of 128 of those words, takes each as
  a row number of the table, and fills a row buffer with those rows; the row buffer is then written out to the
  window of the result plane at batch `w / 16`, places `(w % 16) * 512 + 128 * r` on. So entry `(y0, y1)` of the
  row buffer is the table's entry (position word at place `(w % 16) * 512 + 128 * r + y0`, lane `y1`), and the
  window's entry `(w / 16, 0, (w % 16) * 512 + 128 * r + y0, y1)` ends holding it: the lookup at that entry, a
  position word below 8192 naming its own row.
-/
import proofs.«214960_g85727547228328_cont_9to1_m_337_27_alg».proof.Proof.KbSetup
import proofs.«214960_g85727547228328_cont_9to1_m_337_27_alg».proof.Proof.Spec
import Idealize.ShloMosaic.Lib.ValueLayout
import Idealize.ShloMosaic.Lib.ValueIdx
import Idealize.ShloMosaic.Lib.Exec.Geometry
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

variable [FloatOps F]

variable (d : Dev nD) (L : grid0.Coords)

/-! ## Indices -/

omit [FloatOps F] in
/-- A rank-1 index recovered from its row-major position has that position as its coordinate. -/
theorem rowMajor_symm_one {dd : Fin 1 → Nat} (n : Fin (⟨1, dd⟩ : Shape).numel) :
    (((⟨1, dd⟩ : Shape).rowMajor.symm n) 0).val = n.val := by
  have h := Shape.rowMajor_val_one ((⟨1, dd⟩ : Shape).rowMajor.symm n)
  rw [Equiv.apply_symm_apply] at h
  exact h.symm

/-- Entry `(y0, y1)` of window `r`, as an entry of the result plane: batch `w / 16`, place
    `(w % 16) * 512 + 128 * r + y0`, lane `y1`. -/
theorem win_coords (r : Fin 4) (y : S128x128.Idx) (h : S128x128.numel = (winRect L r).shape.numel) :
    (((winRect L r).emb (Shape.reshapeEquiv h y)) 0).val = wid L / 16
      ∧ (((winRect L r).emb (Shape.reshapeEquiv h y)) 2).val = wid L % 16 * 512 + 128 * r.val + (y 0).val
      ∧ (((winRect L r).emb (Shape.reshapeEquiv h y)) 3).val = (y 1).val := by
  obtain ⟨y0, y1, rfl⟩ : ∃ y0 y1, y = ix2 y0 y1 := ⟨_, _, eq_ix2 y⟩
  have e : Shape.reshapeEquiv h (ix2 y0 y1) = ix4 (⟨0, Nat.one_pos⟩ : Fin 1) (⟨0, Nat.one_pos⟩ : Fin 1) y0 y1 :=
    reshapeEquiv_ix2_11ab (a := 128) (b := 128) h y0 y1
  rw [e]
  refine ⟨?_, ?_, ?_⟩
  · show k0_off2 L (BitVec.ofNat 32 (128 * r.val)) 0 + 1 * 0 = wid L / 16
    rw [off2_eq]
    show wid L / 16 + 1 * 0 = wid L / 16
    omega
  · show k0_off2 L (BitVec.ofNat 32 (128 * r.val)) 2 + 1 * y0.val = wid L % 16 * 512 + 128 * r.val + y0.val
    rw [off2_eq]
    show wid L % 16 * 512 + 128 * r.val + 1 * y0.val = wid L % 16 * 512 + 128 * r.val + y0.val
    omega
  · show k0_off2 L (BitVec.ofNat 32 (128 * r.val)) 3 + 1 * y1.val = y1.val
    rw [off2_eq]
    show 0 + 1 * y1.val = y1.val
    omega

/-! ## The list buffer -/

/-- The tile's list, read through a window of 128 words at `off`: word `x` of the window is the position word at
    batch `w / 16`, place `(w % 16) * 512 + off + x`. -/
theorem list_apply (off : Fin 1 → Nat) (inb : ∀ a, off a + S128.size a ≤ S512.size a)
    (hs : ∀ a, (Rect.unit (s := S512) off S128.size inb).stride a = 1)
    (x : (Rect.unit (s := S512) off S128.size inb).shape.Idx) (p : S2x8192.Idx)
    (h0 : (p 0).val = wid L / 16) (h1 : (p 1).val = wid L % 16 * 512 + off 0 + (x 0).val) :
    View.read (Elt F) ((iS).slice (Rect.unit (s := S512) off S128.size inb) hs).view (idxv m d L) x = m (pLoc d) p := by
  unfold idxv
  rw [View.read_apply]
  simp only [cast_eq]
  rw [View.read_apply]
  simp only [cast_eq]
  refine congrArg (m (pLoc d)) (show ((pRowK L).view.emb (((iS).slice (Rect.unit (s := S512) off S128.size inb) hs).view.emb x) : S2x8192.Idx) = p from ?_)
  funext a
  refine Fin.ext ?_
  match a with
  | ⟨0, _⟩ =>
    show k0_off1 L 0 + 1 * ((Shape.reshapeEquiv _ ((Rect.unit (s := S512) off S128.size inb).emb x) : S1x512.Idx) 0).val = (p 0).val
    rw [Shape.reshapeEquiv_cons_one, off1_eq, h0]
    show wid L / 16 + 1 * 0 = wid L / 16
    omega
  | ⟨1, _⟩ =>
    show k0_off1 L 1 + 1 * ((Shape.reshapeEquiv _ ((Rect.unit (s := S512) off S128.size inb).emb x) : S1x512.Idx) 1).val = (p 1).val
    rw [Shape.reshapeEquiv_cons_one, off1_eq, h1]
    show wid L % 16 * 512 + 1 * (off 0 + 1 * (x 0).val) = _
    omega

/-! ## A row buffer after its gather -/

/-- THE GATHERED ROWS AT A LOCAL INDEX. A row buffer `B` whose last write is the gather of the table's rows
    named by the list window at `off` reads, at `(y0, y1)`, the lookup at any result entry `j` of batch `w / 16`,
    place `(w % 16) * 512 + off + y0` and lane `y1` — whatever the buffer held before and whatever older writes
    lie under the gather. -/
theorem pay_apply (hpos : ∀ (d : Dev nD) (j : S2x8192.Idx), (m (pLoc d) j).toNat < 8192)
    (T : Memref sig .scVector .hbm S8192x128 .f32) (tab : T.view.ty.Contents (Elt F))
    (B : Memref sig .scVector .vmem S128x128 .f32) (fprev : B.view.ty.Contents (Elt F))
    (older : List (View.Piece (Elt F) S128x128 .f32))
    (off : Fin 1 → Nat) (inb : ∀ a, off a + S128.size a ≤ S512.size a)
    (hs : ∀ a, (Rect.unit (s := S512) off S128.size inb).stride a = 1)
    (inbT : ∀ a, (![0, 0] : Fin 2 → Nat) a + S8192x128.size a ≤ S8192x128.size a)
    (hsT : ∀ a, (Rect.unit (s := S8192x128) ![0, 0] S8192x128.size inbT).stride a = 1)
    (hg : S8192x128.Gathers 0 S128x128)
    (hn : (Rect.unit (s := S512) off S128.size inb).shape.numel = S128x128.size hg.axis')
    (hin : ∀ x, (View.read (Elt F) ((iS).slice (Rect.unit (s := S512) off S128.size inb) hs).view (idxv m d L) x).toNat
      < S8192x128.size hg.axis)
    (y : S128x128.Idx) (j : S2x1x8192x128.Idx)
    (hj0 : (j 0).val = wid L / 16) (hj2 : (j 2).val = wid L % 16 * 512 + off 0 + (y 0).val) (hj3 : (j 3).val = (y 1).val) :
    ReadAs.same.apply
        (View.read (Elt F) B.view
          (B.view.writes (Elt F) fprev
            (⟨Rect.whole S128x128,
              SparseCore.gatherPayload hg
                (View.read (Elt F) (T.slice (Rect.unit (s := S8192x128) ![0, 0] S8192x128.size inbT) hsT).view tab)
                (SparseCore.rows
                  (View.read (Elt F) ((iS).slice (Rect.unit (s := S512) off S128.size inb) hs).view (idxv m d L))
                  hn hin)⟩ :: older)))
        y
      = Cert.Spec.lookup (T.view.read (Elt F) tab) (m (pLoc d)) j := by
  rw [ReadAs.apply_same]
  have h1 := View.read_writes_cons_emb B.view fprev (Rect.whole S128x128)
    (SparseCore.gatherPayload hg
      (View.read (Elt F) (T.slice (Rect.unit (s := S8192x128) ![0, 0] S8192x128.size inbT) hsT).view tab)
      (SparseCore.rows
        (View.read (Elt F) ((iS).slice (Rect.unit (s := S512) off S128.size inb) hs).view (idxv m d L))
        hn hin)) older y
  rw [Rect.emb_whole_apply] at h1
  refine h1.trans ?_
  show View.read (Elt F) T.view tab
      ((Rect.unit (s := S8192x128) ![0, 0] S8192x128.size inbT).emb
        (hg.idx (SparseCore.rows
          (View.read (Elt F) ((iS).slice (Rect.unit (s := S512) off S128.size inb) hs).view (idxv m d L)) hn hin) y))
    = View.read (Elt F) T.view tab (ix2 (Cert.Spec.rowOf (m (pLoc d) (ix2 (j 0) (j 2)))) (j 3))
  refine congrArg (View.read (Elt F) T.view tab) ?_
  funext a
  refine Fin.ext ?_
  match a with
  | ⟨0, _⟩ =>
    show 0 + 1 * (hg.idx (SparseCore.rows
          (View.read (Elt F) ((iS).slice (Rect.unit (s := S512) off S128.size inb) hs).view (idxv m d L)) hn hin) y hg.axis).val
      = (Cert.Spec.rowOf (m (pLoc d) (ix2 (j 0) (j 2)))).val
    rw [Shape.Gathers.idx_axis, Cert.Spec.rowOf_val_of_lt (hpos d _)]
    show 0 + 1 * (View.read (Elt F) ((iS).slice (Rect.unit (s := S512) off S128.size inb) hs).view (idxv m d L)
        ((Rect.unit (s := S512) off S128.size inb).shape.rowMajor.symm ((y hg.axis').cast hn.symm))).toNat = _
    have hz : (((Rect.unit (s := S512) off S128.size inb).shape.rowMajor.symm ((y hg.axis').cast hn.symm)) 0).val = (y 0).val :=
      rowMajor_symm_one (dd := S128.size) ((y hg.axis').cast hn.symm)
    rw [list_apply m d L off inb hs _ (ix2 (j 0) (j 2)) hj0 (by rw [hz]; exact hj2)]
    omega
  | ⟨1, _⟩ =>
    show 0 + 1 * (hg.idx (SparseCore.rows
          (View.read (Elt F) ((iS).slice (Rect.unit (s := S512) off S128.size inb) hs).view (idxv m d L)) hn hin) y ⟨1, by decide⟩).val
      = (j 3).val
    rw [Shape.Gathers.idx_of_ne hg _ y ⟨1, by decide⟩ (by decide), hj3]
    show 0 + 1 * (y 1).val = (y 1).val
    omega

/-! ## A result window after its write-out -/

/-- A window of the cosine plane written whole with `w` holds the lookup, when `w` at `(y0, y1)` is the lookup
    at the entries of batch `w / 16`, place `(w % 16) * 512 + 128 * r + y0`, lane `y1`. -/
theorem aWin_value (r : Fin 4) (fa : Buf (Elt F) (aLoc d)) (w : S128x128.Idx → Elt F .f32)
    (hw : ∀ (y : S128x128.Idx) (j : S2x1x8192x128.Idx), (j 0).val = wid L / 16 →
      (j 2).val = wid L % 16 * 512 + 128 * r.val + (y 0).val → (j 3).val = (y 1).val →
      w y = Cert.Spec.lookup (m (cLoc d)) (m (pLoc d)) j) :
    ∀ i ∈ (aWin L r).view.set, ((aWin L r).view.writes (Elt F) fa [⟨Rect.whole S128x128, w⟩]) i
      = Cert.Spec.lookup (m (cLoc d)) (m (pLoc d)) i := by
  intro i hi
  obtain ⟨y, rfl⟩ := View.exists_emb_of_mem_set _ hi
  have hr := congrFun (View.read_writes_whole (aWin L r).view fa w) y
  rw [View.read_apply] at hr
  simp only [cast_eq] at hr
  refine hr.trans ?_
  have hc := win_coords L r y squeezes_S1x1x128x128_S128x128.numel_eq
  exact hw y _ hc.1 hc.2.1 hc.2.2

/-- The same for a window of the sine plane. -/
theorem bWin_value (r : Fin 4) (fb : Buf (Elt F) (bLoc d)) (w : S128x128.Idx → Elt F .f32)
    (hw : ∀ (y : S128x128.Idx) (j : S2x1x8192x128.Idx), (j 0).val = wid L / 16 →
      (j 2).val = wid L % 16 * 512 + 128 * r.val + (y 0).val → (j 3).val = (y 1).val →
      w y = Cert.Spec.lookup (m (sLoc d)) (m (pLoc d)) j) :
    ∀ i ∈ (bWin L r).view.set, ((bWin L r).view.writes (Elt F) fb [⟨Rect.whole S128x128, w⟩]) i
      = Cert.Spec.lookup (m (sLoc d)) (m (pLoc d)) i := by
  intro i hi
  obtain ⟨y, rfl⟩ := View.exists_emb_of_mem_set _ hi
  have hr := congrFun (View.read_writes_whole (bWin L r).view fb w) y
  rw [View.read_apply] at hr
  simp only [cast_eq] at hr
  refine hr.trans ?_
  have hc := win_coords L r y squeezes_S1x1x128x128_S128x128.numel_eq
  exact hw y _ hc.1 hc.2.1 hc.2.2

/-- A window of the cosine plane written whole with a row buffer's contents — the buffer's last write the gather of
    the cosine table's rows named by the list window at `off`, `off` the window's own offset `128 * r` — holds the lookup. -/
theorem aWin_pay (hpos : ∀ (d : Dev nD) (j : S2x8192.Idx), (m (pLoc d) j).toNat < 8192)
    (r : Fin 4) (fa : Buf (Elt F) (aLoc d))
    (B : Memref sig .scVector .vmem S128x128 .f32) (fprev : B.view.ty.Contents (Elt F))
    (older : List (View.Piece (Elt F) S128x128 .f32))
    (off : Fin 1 → Nat) (hoff : off 0 = 128 * r.val) (inb : ∀ a, off a + S128.size a ≤ S512.size a)
    (hs : ∀ a, (Rect.unit (s := S512) off S128.size inb).stride a = 1)
    (inbT : ∀ a, (![0, 0] : Fin 2 → Nat) a + S8192x128.size a ≤ S8192x128.size a)
    (hsT : ∀ a, (Rect.unit (s := S8192x128) ![0, 0] S8192x128.size inbT).stride a = 1)
    (hg : S8192x128.Gathers 0 S128x128)
    (hn : (Rect.unit (s := S512) off S128.size inb).shape.numel = S128x128.size hg.axis')
    (hin : ∀ x, (View.read (Elt F) ((iS).slice (Rect.unit (s := S512) off S128.size inb) hs).view (idxv m d L) x).toNat
      < S8192x128.size hg.axis) :
    ∀ i ∈ (aWin L r).view.set, ((aWin L r).view.writes (Elt F) fa [⟨Rect.whole S128x128,
        ReadAs.same.apply
          (View.read (Elt F) B.view
            (B.view.writes (Elt F) fprev
              (⟨Rect.whole S128x128,
                SparseCore.gatherPayload hg
                  (View.read (Elt F) ((cM).slice (Rect.unit (s := S8192x128) ![0, 0] S8192x128.size inbT) hsT).view (m (cLoc d)))
                  (SparseCore.rows
                    (View.read (Elt F) ((iS).slice (Rect.unit (s := S512) off S128.size inb) hs).view (idxv m d L))
                    hn hin)⟩ :: older)))⟩]) i
      = Cert.Spec.lookup (m (cLoc d)) (m (pLoc d)) i :=
  aWin_value m d L r fa _ fun y j h0 h2 h3 =>
    pay_apply m d L hpos cM (m (cLoc d)) B fprev older off inb hs inbT hsT hg hn hin y j h0 (by rw [hoff]; exact h2) h3

/-- A window of the sine plane written whole with a row buffer's contents — the buffer's last write the gather of
    the sine table's rows named by the list window at `off`, `off` the window's own offset `128 * r` — holds the lookup. -/
theorem bWin_pay (hpos : ∀ (d : Dev nD) (j : S2x8192.Idx), (m (pLoc d) j).toNat < 8192)
    (r : Fin 4) (fb : Buf (Elt F) (bLoc d))
    (B : Memref sig .scVector .vmem S128x128 .f32) (fprev : B.view.ty.Contents (Elt F))
    (older : List (View.Piece (Elt F) S128x128 .f32))
    (off : Fin 1 → Nat) (hoff : off 0 = 128 * r.val) (inb : ∀ a, off a + S128.size a ≤ S512.size a)
    (hs : ∀ a, (Rect.unit (s := S512) off S128.size inb).stride a = 1)
    (inbT : ∀ a, (![0, 0] : Fin 2 → Nat) a + S8192x128.size a ≤ S8192x128.size a)
    (hsT : ∀ a, (Rect.unit (s := S8192x128) ![0, 0] S8192x128.size inbT).stride a = 1)
    (hg : S8192x128.Gathers 0 S128x128)
    (hn : (Rect.unit (s := S512) off S128.size inb).shape.numel = S128x128.size hg.axis')
    (hin : ∀ x, (View.read (Elt F) ((iS).slice (Rect.unit (s := S512) off S128.size inb) hs).view (idxv m d L) x).toNat
      < S8192x128.size hg.axis) :
    ∀ i ∈ (bWin L r).view.set, ((bWin L r).view.writes (Elt F) fb [⟨Rect.whole S128x128,
        ReadAs.same.apply
          (View.read (Elt F) B.view
            (B.view.writes (Elt F) fprev
              (⟨Rect.whole S128x128,
                SparseCore.gatherPayload hg
                  (View.read (Elt F) ((sM).slice (Rect.unit (s := S8192x128) ![0, 0] S8192x128.size inbT) hsT).view (m (sLoc d)))
                  (SparseCore.rows
                    (View.read (Elt F) ((iS).slice (Rect.unit (s := S512) off S128.size inb) hs).view (idxv m d L))
                    hn hin)⟩ :: older)))⟩]) i
      = Cert.Spec.lookup (m (sLoc d)) (m (pLoc d)) i :=
  bWin_value m d L r fb _ fun y j h0 h2 h3 =>
    pay_apply m d L hpos sM (m (sLoc d)) B fprev older off inb hs inbT hsT hg hn hin y j h0 (by rw [hoff]; exact h2) h3

end Cert.Proof.KB

end
-- ==== Proof.KbBody.lean ====
/-
  One tile's run. The tile fetches its 512 position words into its list buffer and waits; then, for each of its four
  chunks of 128 words, it gathers the rows those words name from the two tables into a pair of row buffers (three
  pairs, reused in turn) and writes each filled buffer out to its window of the matching result plane, waiting for a
  write-out before its buffer is gathered into again. Every list window and each table are read by several streams at
  once, so they are held as read tokens, one per semaphore; each result window ends holding the rows gathered for it.
-/
import proofs.«214960_g85727547228328_cont_9to1_m_337_27_alg».proof.Proof.KbSetup
import proofs.«214960_g85727547228328_cont_9to1_m_337_27_alg».proof.Proof.Spec
import proofs.«214960_g85727547228328_cont_9to1_m_337_27_alg».proof.Proof.KbValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid0.Coords)

/-- The position words the tile fetched are in range wherever a 128-word window of its list is read. -/
theorem list_inb (hpos : ∀ (d : Dev nD) (j : S2x8192.Idx), (m (pLoc d) j).toNat < 8192)
    (off : Fin 1 → Nat) (inb : ∀ a, off a + S128.size a ≤ S512.size a)
    (x : (Rect.unit (s := S512) off S128.size inb).shape.Idx) :
    (View.read (Elt F) ((iS).slice (Rect.unit (s := S512) off S128.size inb) (fun _ => rfl)).view (idxv m d L) x).toNat < 8192 := by
  unfold idxv
  rw [View.read_apply]
  simp only [cast_eq]
  rw [View.read_apply]
  simp only [cast_eq]
  exact hpos d _

set_option maxHeartbeats 4000000 in
/-- The fetch of the tile's position words and its wait. -/
theorem fetch_run (R : sProp 𝕄) (O : CellTallies nD τ sig (HIx 1)) (W : Waits sig (HIx 1)) (hO : ∀ g, O g none = 0)
    (q : PosShare TreeShare) (fi : Buf (Elt F) ((thr d L).loc cc0_scratch0)) :
    iprop(R ∗ levAts (K (F := F)).L (K (F := F)).lev
        ∗ ((pV).view.loc (thr d L) ↦{q} m (pLoc d)) ∗ ((iS).view.loc (thr d L) ↦{fullShare} fi)
        ∗ semVal (thr d L, .dma cc0_scoped0.sem) 0 ∗ owes (thr d L) O W)
      ⊢ wp frame (wpE (defs₀ (F := F)) 𝒱₀ (thr d L) none) Set.univ
          (k0_part1 L pV (Memref.isWhole_whole _) cM (Memref.isWhole_whole _) sM (Memref.isWhole_whole _) aV (Memref.isWhole_whole _) bV (Memref.isWhole_whole _)
            iS (Memref.isWhole_whole _) c0S (Memref.isWhole_whole _) c1S (Memref.isWhole_whole _) c2S (Memref.isWhole_whole _)
            s0S (Memref.isWhole_whole _) s1S (Memref.isWhole_whole _) s2S (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop(R ∗ levAts (K (F := F)).L (K (F := F)).lev ∗ ((pV).view.loc (thr d L) ↦{q} m (pLoc d)) ∗ ((iS).view.loc (thr d L) ↦{fullShare} idxv m d L)
            ∗ semVal (thr d L, .dma cc0_scoped0.sem) 0
            ∗ ∃ W', ⌜∀ p ∈ W', p ∈ W ∨ p.2 = none⌝ ∗ owes (thr d L) O W') := by
  unfold k0_part1
  iintro ⟨HR, #Hlv, Hp, Hi, S19, HO⟩
  ihave Hmw := (show levAts (K (F := F)).L (K (F := F)).lev ⊢ Transfers.MayWaits (thr d L) (default : HIx 1) O from
    (K (F := F)).mayWaits_none (thr := thr d L) hO) $$ Hlv
  sl_exec
  sl_step
  have e : View.write (Elt F) (iS).view fi (fetch_run.sl.dma0 m d L) Finset.univ = idxv m d L := by
    exact View.write_whole_univ (cc0_scratch0 : Ref sig .scVector) fi (idxv m d L)
  isplitl [HR]; · iexact HR
  isplitr; · iexact Hlv
  isplitl [Hp]; · iexact Hp
  isplitl [Hi]
  · iapply (Entails.of_eq (show ((iS).view.loc (thr d L) ↦{fullShare} View.write (Elt F) (iS).view fi (fetch_run.sl.dma0 m d L) Finset.univ : sProp 𝕄)
      = ((iS).view.loc (thr d L) ↦{fullShare} idxv m d L) by rw [e])); iexact Hi
  isplitl [S19]; · iexact S19
  iexists _; isplitr
  swap; · iexact HO
  ipureintro; intro p hp
  rcases Finset.mem_insert.mp hp with hp | hp; · exact .inr (hp ▸ rfl)
  exact .inl hp

open Transfers (shareDrop shareTokN) in
/-- A share of an array cut into six read tokens and a remainder, and put together again. -/
theorem toks6 {ℓ : Loc nD τ sig} (S : Finset (Idx ℓ)) (q : PosShare TreeShare) (f : Buf (Elt F) ℓ) :
    (ℓ ↦[S]{q} f : sProp 𝕄) ⊣⊢ iprop((ℓ ↦[S]{shareDrop q 6} f) ∗ (ℓ ↦[S]{shareTokN q 0} f) ∗ (ℓ ↦[S]{shareTokN q 1} f) ∗ (ℓ ↦[S]{shareTokN q 2} f)
      ∗ (ℓ ↦[S]{shareTokN q 3} f) ∗ (ℓ ↦[S]{shareTokN q 4} f) ∗ (ℓ ↦[S]{shareTokN q 5} f)) := by
  have h := Transfers.pointsTo_toks_range (ℓ := ℓ) (S := S) (f := f) (Ix := HIx 1) (Name := ℕ) (U := UU) (Lvl := ℕ) q 6
  have e : (BI.bigSep (Finset.range 6) (fun i => (ℓ ↦[S]{shareTokN q i} f : sProp 𝕄)))
      ⊣⊢ iprop((ℓ ↦[S]{shareTokN q 0} f) ∗ (ℓ ↦[S]{shareTokN q 1} f) ∗ (ℓ ↦[S]{shareTokN q 2} f)
        ∗ (ℓ ↦[S]{shareTokN q 3} f) ∗ (ℓ ↦[S]{shareTokN q 4} f) ∗ (ℓ ↦[S]{shareTokN q 5} f)) := by
    rw [show Finset.range 6 = insert 0 (insert 1 (insert 2 (insert 3 (insert 4 {5})))) by decide,
      SparseCore.bigSep_insert' (by decide), SparseCore.bigSep_insert' (by decide), SparseCore.bigSep_insert' (by decide),
      SparseCore.bigSep_insert' (by decide), SparseCore.bigSep_insert' (by decide), bigSep_singleton]
  exact ⟨h.1.trans (sep_mono .rfl e.1), (sep_mono .rfl e.2).trans h.2⟩

/-- The tile's own buffers, opened: its seven scratch buffers, each at some contents, and the rest. -/
abbrev bufsExp : sProp 𝕄 :=
  iprop((∃ f, (iS).view.loc (thr d L) ↦{fullShare} f)
      ∗ (∃ f, (c0S).view.loc (thr d L) ↦{fullShare} f)
      ∗ (∃ f, (c1S).view.loc (thr d L) ↦{fullShare} f)
      ∗ (∃ f, (c2S).view.loc (thr d L) ↦{fullShare} f)
      ∗ (∃ f, (s0S).view.loc (thr d L) ↦{fullShare} f)
      ∗ (∃ f, (s1S).view.loc (thr d L) ↦{fullShare} f)
      ∗ (∃ f, (s2S).view.loc (thr d L) ↦{fullShare} f)
      ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
          fun b => iprop(∃ f, ((d, b) : Loc nD τ sig) ↦{fullShare} f))

omit [FloatOps F] in
theorem ownBufs_V : (ownBufs (thr d L) : sProp 𝕄) = bufsExp d L := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

/-- The thirteen DMA semaphores of a tile. -/
def dmaCells : Finset (GSem nD τ sig) :=
  Finset.univ.map ⟨fun k : Fin 13 => ((thr d L, SemLoc.dma k) : GSem nD τ sig), fun a b h => SemLoc.dma.inj (Prod.mk.inj h).2⟩

omit [FloatOps F] in
theorem dmaCells_sub : dmaCells d L ⊆ ownCells (thr d L) := by
  intro g hg
  obtain ⟨k, -, rfl⟩ := Finset.mem_map.mp hg
  refine (mem_ownCells (g := ((thr d L, SemLoc.dma k) : GSem nD τ sig))).mpr ⟨rfl, ?_⟩
  have h : ∀ k : Fin 13, (SemLoc.dma k : SemLoc sig).isScoped .scVector = true := by decide
  exact h k

/-- The tile's own semaphores at zero, opened: its thirteen DMA semaphores at zero, and the rest. -/
abbrev semsExp : sProp 𝕄 :=
  iprop((semVal (thr d L, .dma cc0_scratch7.sem) 0
      ∗ semVal (thr d L, .dma cc0_scratch8.sem) 0
      ∗ semVal (thr d L, .dma cc0_scratch9.sem) 0
      ∗ semVal (thr d L, .dma cc0_scratch10.sem) 0
      ∗ semVal (thr d L, .dma cc0_scratch11.sem) 0
      ∗ semVal (thr d L, .dma cc0_scratch12.sem) 0
      ∗ semVal (thr d L, .dma cc0_scratch13.sem) 0
      ∗ semVal (thr d L, .dma cc0_scratch14.sem) 0
      ∗ semVal (thr d L, .dma cc0_scratch15.sem) 0
      ∗ semVal (thr d L, .dma cc0_scratch16.sem) 0
      ∗ semVal (thr d L, .dma cc0_scratch17.sem) 0
      ∗ semVal (thr d L, .dma cc0_scratch18.sem) 0
      ∗ semVal (thr d L, .dma cc0_scoped0.sem) 0)
      ∗ bigSep (ownCells (thr d L) \ dmaCells d L) fun g => semVal g 0)

omit [FloatOps F] in
theorem ownSems0_V : (ownSems0 (thr d L) : sProp 𝕄) = semsExp d L := by
  unfold SparseCore.Cfg.ownSems0
  rw [SparseCore.bigSep_sdiff_split' (dmaCells_sub d L)]
  congr 1
  unfold dmaCells
  rw [BI.bigSep_map, show (Finset.univ : Finset (Fin 13)) = {0, 1, 2, 3, 4, 5, 6, 7, 8, 9, 10, 11, 12} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- What of a tile's own buffers and semaphores the kernel never names. -/
abbrev tileRest : sProp 𝕄 :=
  iprop((bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
      fun b => iprop(∃ f, ((d, b) : Loc nD τ sig) ↦{fullShare} f))
    ∗ bigSep (ownCells (thr d L) \ dmaCells d L) fun g => semVal g 0)

set_option maxHeartbeats 16000000 in
/-- The tile's whole run over named scratch contents, carrying a frame `R`: every result window ends at the lookup. -/
theorem tile_body (hF : (K (F := F)).Facts) (hpos : ∀ (d : Dev nD) (j : S2x8192.Idx), (m (pLoc d) j).toNat < 8192)
    (R : sProp 𝕄) (O : CellTallies nD τ sig (HIx 1)) (W : Waits sig (HIx 1)) (hO : ∀ g, O g none = 0)
    (q : PosShare TreeShare)
    (fa : Buf (Elt F) (aLoc d)) (fb : Buf (Elt F) (bLoc d))
    (fi : Buf (Elt F) ((thr d L).loc cc0_scratch0))
    (f1 : Buf (Elt F) ((thr d L).loc cc0_scratch1)) (f2 : Buf (Elt F) ((thr d L).loc cc0_scratch2)) (f3 : Buf (Elt F) ((thr d L).loc cc0_scratch3))
    (f4 : Buf (Elt F) ((thr d L).loc cc0_scratch4)) (f5 : Buf (Elt F) ((thr d L).loc cc0_scratch5)) (f6 : Buf (Elt F) ((thr d L).loc cc0_scratch6)) :
    iprop((R ∗ ((cM).view.loc (thr d L) ↦{q} m (cLoc d)) ∗ ((sM).view.loc (thr d L) ↦{q} m (sLoc d))
        ∗ winPts d L (aWin L 0) fa ∗ winPts d L (aWin L 1) fa ∗ winPts d L (aWin L 2) fa ∗ winPts d L (aWin L 3) fa
        ∗ winPts d L (bWin L 0) fb ∗ winPts d L (bWin L 1) fb ∗ winPts d L (bWin L 2) fb ∗ winPts d L (bWin L 3) fb
        ∗ ((c0S).view.loc (thr d L) ↦{fullShare} f1) ∗ ((c1S).view.loc (thr d L) ↦{fullShare} f2) ∗ ((c2S).view.loc (thr d L) ↦{fullShare} f3)
        ∗ ((s0S).view.loc (thr d L) ↦{fullShare} f4) ∗ ((s1S).view.loc (thr d L) ↦{fullShare} f5) ∗ ((s2S).view.loc (thr d L) ↦{fullShare} f6)
        ∗ semVal (thr d L, .dma cc0_scratch7.sem) 0 ∗ semVal (thr d L, .dma cc0_scratch8.sem) 0 ∗ semVal (thr d L, .dma cc0_scratch9.sem) 0
        ∗ semVal (thr d L, .dma cc0_scratch10.sem) 0 ∗ semVal (thr d L, .dma cc0_scratch11.sem) 0 ∗ semVal (thr d L, .dma cc0_scratch12.sem) 0
        ∗ semVal (thr d L, .dma cc0_scratch13.sem) 0 ∗ semVal (thr d L, .dma cc0_scratch14.sem) 0 ∗ semVal (thr d L, .dma cc0_scratch15.sem) 0
        ∗ semVal (thr d L, .dma cc0_scratch16.sem) 0 ∗ semVal (thr d L, .dma cc0_scratch17.sem) 0 ∗ semVal (thr d L, .dma cc0_scratch18.sem) 0)
        ∗ levAts (K (F := F)).L (K (F := F)).lev
        ∗ ((pV).view.loc (thr d L) ↦{q} m (pLoc d)) ∗ ((iS).view.loc (thr d L) ↦{fullShare} fi)
        ∗ semVal (thr d L, .dma cc0_scoped0.sem) 0 ∗ owes (thr d L) O W)
      ⊢ wp frame (wpE (defs₀ (F := F)) 𝒱₀ (thr d L) none) Set.univ
          (cc0_k L pV (Memref.isWhole_whole _) cM (Memref.isWhole_whole _) sM (Memref.isWhole_whole _) aV (Memref.isWhole_whole _) bV (Memref.isWhole_whole _)
            iS (Memref.isWhole_whole _) c0S (Memref.isWhole_whole _) c1S (Memref.isWhole_whole _) c2S (Memref.isWhole_whole _)
            s0S (Memref.isWhole_whole _) s1S (Memref.isWhole_whole _) s2S (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop((R ∗ ((cM).view.loc (thr d L) ↦{q} m (cLoc d)) ∗ ((sM).view.loc (thr d L) ↦{q} m (sLoc d))
        ∗ winPts d L (aWin L 0) (Cert.Spec.lookup (m (cLoc d)) (m (pLoc d)) : Buf (Elt F) (aLoc d)) ∗ winPts d L (aWin L 1) (Cert.Spec.lookup (m (cLoc d)) (m (pLoc d)) : Buf (Elt F) (aLoc d)) ∗ winPts d L (aWin L 2) (Cert.Spec.lookup (m (cLoc d)) (m (pLoc d)) : Buf (Elt F) (aLoc d)) ∗ winPts d L (aWin L 3) (Cert.Spec.lookup (m (cLoc d)) (m (pLoc d)) : Buf (Elt F) (aLoc d))
        ∗ winPts d L (bWin L 0) (Cert.Spec.lookup (m (sLoc d)) (m (pLoc d)) : Buf (Elt F) (bLoc d)) ∗ winPts d L (bWin L 1) (Cert.Spec.lookup (m (sLoc d)) (m (pLoc d)) : Buf (Elt F) (bLoc d)) ∗ winPts d L (bWin L 2) (Cert.Spec.lookup (m (sLoc d)) (m (pLoc d)) : Buf (Elt F) (bLoc d)) ∗ winPts d L (bWin L 3) (Cert.Spec.lookup (m (sLoc d)) (m (pLoc d)) : Buf (Elt F) (bLoc d))
        ∗ (∃ f, (c0S).view.loc (thr d L) ↦{fullShare} f) ∗ (∃ f, (c1S).view.loc (thr d L) ↦{fullShare} f) ∗ (∃ f, (c2S).view.loc (thr d L) ↦{fullShare} f)
        ∗ (∃ f, (s0S).view.loc (thr d L) ↦{fullShare} f) ∗ (∃ f, (s1S).view.loc (thr d L) ↦{fullShare} f) ∗ (∃ f, (s2S).view.loc (thr d L) ↦{fullShare} f)
        ∗ semVal (thr d L, .dma cc0_scratch7.sem) 0 ∗ semVal (thr d L, .dma cc0_scratch8.sem) 0 ∗ semVal (thr d L, .dma cc0_scratch9.sem) 0
        ∗ semVal (thr d L, .dma cc0_scratch10.sem) 0 ∗ semVal (thr d L, .dma cc0_scratch11.sem) 0 ∗ semVal (thr d L, .dma cc0_scratch12.sem) 0
        ∗ semVal (thr d L, .dma cc0_scratch13.sem) 0 ∗ semVal (thr d L, .dma cc0_scratch14.sem) 0 ∗ semVal (thr d L, .dma cc0_scratch15.sem) 0
        ∗ semVal (thr d L, .dma cc0_scratch16.sem) 0 ∗ semVal (thr d L, .dma cc0_scratch17.sem) 0 ∗ semVal (thr d L, .dma cc0_scratch18.sem) 0
        ∗ ((pV).view.loc (thr d L) ↦{q} m (pLoc d)) ∗ (∃ f, (iS).view.loc (thr d L) ↦{fullShare} f)
        ∗ semVal (thr d L, .dma cc0_scoped0.sem) 0)
            ∗ ∃ W', ⌜∀ p ∈ W', p ∈ W ∨ p.2 = none⌝ ∗ owes (thr d L) O W') := by
  rw [cc0_k_eq_skeleton]; unfold cc0_k_skel
  rw [wp_bind]
  refine (fetch_run m d L _ O W hO q fi).trans (wp_mono frame _ _ fun v29 => ?_)
  iintro ⟨⟨HR, Hc, Hs, Ha0, Ha1, Ha2, Ha3, Hb0, Hb1, Hb2, Hb3, H1, H2, H3, H4, H5, H6, S7, S8, S9, S10, S11, S12, S13, S14, S15, S16, S17, S18⟩, #Hlv, Hp, Hi, S19, %W', %hW', HO⟩
  ihave Hmw := (show levAts (K (F := F)).L (K (F := F)).lev ⊢ Transfers.MayWaits (thr d L) (default : HIx 1) O from
    (K (F := F)).mayWaits_none (thr := thr d L) hO) $$ Hlv
  ihave Hc' := (toks6 (ℓ := (cM).view.loc (thr d L)) _ q (m (cLoc d))).1 $$ Hc
  icases Hc' with ⟨Hcr, Hc0, Hc1, Hc2, Hc3, Hc4, Hc5⟩
  ihave Hs' := (toks6 (ℓ := (sM).view.loc (thr d L)) _ q (m (sLoc d))).1 $$ Hs
  icases Hs' with ⟨Hsr, Hs0, Hs1, Hs2, Hs3, Hs4, Hs5⟩
  ihave Hi' := (toks6 (ℓ := (iS).view.loc (thr d L)) _ fullShare (idxv m d L)).1 $$ Hi
  icases Hi' with ⟨Hir, Hi0, Hi1, Hi2, Hi3, Hi4, Hi5⟩
  have hin := list_inb m d L hpos
  sl_exec
  sl_step
  ihave Hc := (toks6 (ℓ := (cM).view.loc (thr d L)) _ q (m (cLoc d))).2 $$ [Hcr Hc0 Hc1 Hc2 Hc3 Hc4 Hc5]
  · isplitl [Hcr]; · iexact Hcr
    isplitl [Hc0]; · iexact Hc0
    isplitl [Hc1]; · iexact Hc1
    isplitl [Hc2]; · iexact Hc2
    isplitl [Hc3]; · iexact Hc3
    isplitl [Hc4]; · iexact Hc4
    iexact Hc5
  ihave Hs := (toks6 (ℓ := (sM).view.loc (thr d L)) _ q (m (sLoc d))).2 $$ [Hsr Hs0 Hs1 Hs2 Hs3 Hs4 Hs5]
  · isplitl [Hsr]; · iexact Hsr
    isplitl [Hs0]; · iexact Hs0
    isplitl [Hs1]; · iexact Hs1
    isplitl [Hs2]; · iexact Hs2
    isplitl [Hs3]; · iexact Hs3
    isplitl [Hs4]; · iexact Hs4
    iexact Hs5
  ihave Hi := (toks6 (ℓ := (iS).view.loc (thr d L)) _ fullShare (idxv m d L)).2 $$ [Hir Hi0 Hi1 Hi2 Hi3 Hi4 Hi5]
  · isplitl [Hir]; · iexact Hir
    isplitl [Hi0]; · iexact Hi0
    isplitl [Hi1]; · iexact Hi1
    isplitl [Hi2]; · iexact Hi2
    isplitl [Hi3]; · iexact Hi3
    isplitl [Hi4]; · iexact Hi4
    iexact Hi5
  have va0 : ∀ i ∈ (aWin L 0).view.set, ((aWin L 0).view.writes (Elt F) fa [⟨Rect.whole S128x128, tile_body.sl.dma0 m d L f1 hin⟩]) i = (Cert.Spec.lookup (m (cLoc d)) (m (pLoc d)) : Buf (Elt F) (aLoc d)) i :=
    aWin_pay m d L hpos 0 fa _ _ _ _ (by rfl) _ _ _ _ _ _ _
  ihave Ha0 := (Entails.of_eq (pointsTo_congr (q := fullShare) va0)) $$ Ha0
  have va1 : ∀ i ∈ (aWin L 1).view.set, ((aWin L 1).view.writes (Elt F) fa [⟨Rect.whole S128x128, tile_body.sl.dma0_2 m d L f2 hin⟩]) i = (Cert.Spec.lookup (m (cLoc d)) (m (pLoc d)) : Buf (Elt F) (aLoc d)) i :=
    aWin_pay m d L hpos 1 fa _ _ _ _ (by rfl) _ _ _ _ _ _ _
  ihave Ha1 := (Entails.of_eq (pointsTo_congr (q := fullShare) va1)) $$ Ha1
  have va2 : ∀ i ∈ (aWin L 2).view.set, ((aWin L 2).view.writes (Elt F) fa [⟨Rect.whole S128x128, tile_body.sl.dma0_4 m d L f3 hin⟩]) i = (Cert.Spec.lookup (m (cLoc d)) (m (pLoc d)) : Buf (Elt F) (aLoc d)) i :=
    aWin_pay m d L hpos 2 fa _ _ _ _ (by rfl) _ _ _ _ _ _ _
  ihave Ha2 := (Entails.of_eq (pointsTo_congr (q := fullShare) va2)) $$ Ha2
  have va3 : ∀ i ∈ (aWin L 3).view.set, ((aWin L 3).view.writes (Elt F) fa [⟨Rect.whole S128x128, tile_body.sl.dma0_6 m d L f1 hin⟩]) i = (Cert.Spec.lookup (m (cLoc d)) (m (pLoc d)) : Buf (Elt F) (aLoc d)) i :=
    aWin_pay m d L hpos 3 fa _ _ _ _ (by rfl) _ _ _ _ _ _ _
  ihave Ha3 := (Entails.of_eq (pointsTo_congr (q := fullShare) va3)) $$ Ha3
  have vb0 : ∀ i ∈ (bWin L 0).view.set, ((bWin L 0).view.writes (Elt F) fb [⟨Rect.whole S128x128, tile_body.sl.dma0_1 m d L f4 hin⟩]) i = (Cert.Spec.lookup (m (sLoc d)) (m (pLoc d)) : Buf (Elt F) (bLoc d)) i :=
    bWin_pay m d L hpos 0 fb _ _ _ _ (by rfl) _ _ _ _ _ _ _
  ihave Hb0 := (Entails.of_eq (pointsTo_congr (q := fullShare) vb0)) $$ Hb0
  have vb1 : ∀ i ∈ (bWin L 1).view.set, ((bWin L 1).view.writes (Elt F) fb [⟨Rect.whole S128x128, tile_body.sl.dma0_3 m d L f5 hin⟩]) i = (Cert.Spec.lookup (m (sLoc d)) (m (pLoc d)) : Buf (Elt F) (bLoc d)) i :=
    bWin_pay m d L hpos 1 fb _ _ _ _ (by rfl) _ _ _ _ _ _ _
  ihave Hb1 := (Entails.of_eq (pointsTo_congr (q := fullShare) vb1)) $$ Hb1
  have vb2 : ∀ i ∈ (bWin L 2).view.set, ((bWin L 2).view.writes (Elt F) fb [⟨Rect.whole S128x128, tile_body.sl.dma0_5 m d L f6 hin⟩]) i = (Cert.Spec.lookup (m (sLoc d)) (m (pLoc d)) : Buf (Elt F) (bLoc d)) i :=
    bWin_pay m d L hpos 2 fb _ _ _ _ (by rfl) _ _ _ _ _ _ _
  ihave Hb2 := (Entails.of_eq (pointsTo_congr (q := fullShare) vb2)) $$ Hb2
  have vb3 : ∀ i ∈ (bWin L 3).view.set, ((bWin L 3).view.writes (Elt F) fb [⟨Rect.whole S128x128, tile_body.sl.dma0_7 m d L f4 hin⟩]) i = (Cert.Spec.lookup (m (sLoc d)) (m (pLoc d)) : Buf (Elt F) (bLoc d)) i :=
    bWin_pay m d L hpos 3 fb _ _ _ _ (by rfl) _ _ _ _ _ _ _
  ihave Hb3 := (Entails.of_eq (pointsTo_congr (q := fullShare) vb3)) $$ Hb3
  isplitr [HO]
  · sl_close
  iexists _; isplitr
  swap; · iexact HO
  ipureintro; intro p hp
  simp only [Finset.mem_insert] at hp
  rcases hp with rfl | rfl | rfl | rfl | rfl | rfl | rfl | rfl | rfl | rfl | rfl | rfl | rfl | rfl | rfl | rfl | hp
  all_goals first | exact .inr rfl | exact hW' p hp

/-- What a tile is handed of the arrays and hands back: a share of the positions and of each table, and its four
    windows of each result plane outright. -/
abbrev tileRes (q : PosShare TreeShare) (fa : Buf (Elt F) (aLoc d)) (fb : Buf (Elt F) (bLoc d)) : sProp 𝕄 :=
  iprop(((pV).view.loc (thr d L) ↦{q} m (pLoc d)) ∗ ((cM).view.loc (thr d L) ↦{q} m (cLoc d)) ∗ ((sM).view.loc (thr d L) ↦{q} m (sLoc d))
    ∗ (winPts d L (aWin L 0) fa ∗ winPts d L (aWin L 1) fa ∗ winPts d L (aWin L 2) fa ∗ winPts d L (aWin L 3) fa)
    ∗ (winPts d L (bWin L 0) fb ∗ winPts d L (bWin L 1) fb ∗ winPts d L (bWin L 2) fb ∗ winPts d L (bWin L 3) fb))

omit [FloatOps F] in
/-- The run's leavings, packed as the task's result. -/
theorem tile_repack (q : PosShare TreeShare) (O : CellTallies nD τ sig (HIx 1)) (W : Waits sig (HIx 1)) :
    iprop((tileRest d L ∗ ((cM).view.loc (thr d L) ↦{q} m (cLoc d)) ∗ ((sM).view.loc (thr d L) ↦{q} m (sLoc d))
        ∗ winPts d L (aWin L 0) (Cert.Spec.lookup (m (cLoc d)) (m (pLoc d)) : Buf (Elt F) (aLoc d)) ∗ winPts d L (aWin L 1) (Cert.Spec.lookup (m (cLoc d)) (m (pLoc d)) : Buf (Elt F) (aLoc d)) ∗ winPts d L (aWin L 2) (Cert.Spec.lookup (m (cLoc d)) (m (pLoc d)) : Buf (Elt F) (aLoc d)) ∗ winPts d L (aWin L 3) (Cert.Spec.lookup (m (cLoc d)) (m (pLoc d)) : Buf (Elt F) (aLoc d))
        ∗ winPts d L (bWin L 0) (Cert.Spec.lookup (m (sLoc d)) (m (pLoc d)) : Buf (Elt F) (bLoc d)) ∗ winPts d L (bWin L 1) (Cert.Spec.lookup (m (sLoc d)) (m (pLoc d)) : Buf (Elt F) (bLoc d)) ∗ winPts d L (bWin L 2) (Cert.Spec.lookup (m (sLoc d)) (m (pLoc d)) : Buf (Elt F) (bLoc d)) ∗ winPts d L (bWin L 3) (Cert.Spec.lookup (m (sLoc d)) (m (pLoc d)) : Buf (Elt F) (bLoc d))
        ∗ (∃ f, (c0S).view.loc (thr d L) ↦{fullShare} f) ∗ (∃ f, (c1S).view.loc (thr d L) ↦{fullShare} f) ∗ (∃ f, (c2S).view.loc (thr d L) ↦{fullShare} f)
        ∗ (∃ f, (s0S).view.loc (thr d L) ↦{fullShare} f) ∗ (∃ f, (s1S).view.loc (thr d L) ↦{fullShare} f) ∗ (∃ f, (s2S).view.loc (thr d L) ↦{fullShare} f)
        ∗ semVal (thr d L, .dma cc0_scratch7.sem) 0 ∗ semVal (thr d L, .dma cc0_scratch8.sem) 0 ∗ semVal (thr d L, .dma cc0_scratch9.sem) 0
        ∗ semVal (thr d L, .dma cc0_scratch10.sem) 0 ∗ semVal (thr d L, .dma cc0_scratch11.sem) 0 ∗ semVal (thr d L, .dma cc0_scratch12.sem) 0
        ∗ semVal (thr d L, .dma cc0_scratch13.sem) 0 ∗ semVal (thr d L, .dma cc0_scratch14.sem) 0 ∗ semVal (thr d L, .dma cc0_scratch15.sem) 0
        ∗ semVal (thr d L, .dma cc0_scratch16.sem) 0 ∗ semVal (thr d L, .dma cc0_scratch17.sem) 0 ∗ semVal (thr d L, .dma cc0_scratch18.sem) 0
        ∗ ((pV).view.loc (thr d L) ↦{q} m (pLoc d)) ∗ (∃ f, (iS).view.loc (thr d L) ↦{fullShare} f)
        ∗ semVal (thr d L, .dma cc0_scoped0.sem) 0)
        ∗ ∃ W', ⌜∀ p ∈ W', p ∈ W ∨ p.2 = none⌝ ∗ owes (thr d L) O W')
      ⊢ iprop(tileRes m d L q (Cert.Spec.lookup (m (cLoc d)) (m (pLoc d)) : Buf (Elt F) (aLoc d)) (Cert.Spec.lookup (m (sLoc d)) (m (pLoc d)) : Buf (Elt F) (bLoc d)) ∗ bufsExp d L ∗ semsExp d L
          ∗ ∃ W', ⌜∀ p ∈ W', p ∈ W ∨ p.2 = none⌝ ∗ owes (thr d L) O W') := by
  iintro ⟨⟨⟨Hbufs, Hsems⟩, Hc, Hs, Ha0, Ha1, Ha2, Ha3, Hb0, Hb1, Hb2, Hb3, H1, H2, H3, H4, H5, H6, S7, S8, S9, S10, S11, S12, S13, S14, S15, S16, S17, S18, Hp, Hi, S19⟩, HW⟩
  isplitl [Hp Hc Hs Ha0 Ha1 Ha2 Ha3 Hb0 Hb1 Hb2 Hb3]
  · isplitl [Hp]; · iexact Hp
    isplitl [Hc]; · iexact Hc
    isplitl [Hs]; · iexact Hs
    isplitl [Ha0 Ha1 Ha2 Ha3]
    · isplitl [Ha0]; · iexact Ha0
      isplitl [Ha1]; · iexact Ha1
      isplitl [Ha2]; · iexact Ha2
      iexact Ha3
    isplitl [Hb0]; · iexact Hb0
    isplitl [Hb1]; · iexact Hb1
    isplitl [Hb2]; · iexact Hb2
    iexact Hb3
  isplitl [Hi H1 H2 H3 H4 H5 H6 Hbufs]
  · isplitl [Hi]; · iexact Hi
    isplitl [H1]; · iexact H1
    isplitl [H2]; · iexact H2
    isplitl [H3]; · iexact H3
    isplitl [H4]; · iexact H4
    isplitl [H5]; · iexact H5
    isplitl [H6]; · iexact H6
    iexact Hbufs
  isplitr [HW]
  · isplitr [Hsems]
    · isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      iexact S19
    iexact Hsems
  iexact HW

set_option maxHeartbeats 4000000 in
/-- The task on the vector subcore of grid point `L`, as the launch states it. -/
theorem tile_task (hF : (K (F := F)).Facts) (hpos : ∀ (d : Dev nD) (j : S2x8192.Idx), (m (pLoc d) j).toNat < 8192)
    (O : CellTallies nD τ sig (HIx 1)) (W : Waits sig (HIx 1)) (hO : ∀ g, O g none = 0) (q : PosShare TreeShare) :
    iprop(levAts (K (F := F)).L (K (F := F)).lev ∗ emp ∗ tileRes m d L q (m (aLoc d)) (m (bLoc d))
        ∗ scopedBufs (thr d L) ∗ scopedSems0 (thr d L) ∗ owes (thr d L) O W)
      ⊢ wp frame (wpE (defs₀ (F := F)) 𝒱₀ (thr d L) none) Set.univ
          (cc0_k L pV (Memref.isWhole_whole _) cM (Memref.isWhole_whole _) sM (Memref.isWhole_whole _) aV (Memref.isWhole_whole _) bV (Memref.isWhole_whole _)
            iS (Memref.isWhole_whole _) c0S (Memref.isWhole_whole _) c1S (Memref.isWhole_whole _) c2S (Memref.isWhole_whole _)
            s0S (Memref.isWhole_whole _) s1S (Memref.isWhole_whole _) s2S (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop(tileRes m d L q (Cert.Spec.lookup (m (cLoc d)) (m (pLoc d)) : Buf (Elt F) (aLoc d)) (Cert.Spec.lookup (m (sLoc d)) (m (pLoc d)) : Buf (Elt F) (bLoc d))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V d L, ownBufs_V d L]
  iintro ⟨#Hlv, -, ⟨Hp, Hc, Hs, ⟨Ha0, Ha1, Ha2, Ha3⟩, ⟨Hb0, Hb1, Hb2, Hb3⟩⟩, ⟨⟨%fi, Hi⟩, ⟨%f1, H1⟩, ⟨%f2, H2⟩, ⟨%f3, H3⟩, ⟨%f4, H4⟩, ⟨%f5, H5⟩, ⟨%f6, H6⟩, Hbufs⟩, ⟨⟨S7, S8, S9, S10, S11, S12, S13, S14, S15, S16, S17, S18, S19⟩, Hsems⟩, HO⟩
  iapply ((tile_body m d L hF hpos (tileRest d L) O W hO q (m (aLoc d)) (m (bLoc d)) fi f1 f2 f3 f4 f5 f6).trans
    (wp_mono frame _ _ fun _ => tile_repack m d L q O W))
  isplitl [Hbufs Hsems Hc Hs Ha0 Ha1 Ha2 Ha3 Hb0 Hb1 Hb2 Hb3 H1 H2 H3 H4 H5 H6 S7 S8 S9 S10 S11 S12 S13 S14 S15 S16 S17 S18]
  · isplitl [Hbufs Hsems]
    · isplitl [Hbufs]; · iexact Hbufs
      iexact Hsems
    isplitl [Hc]; · iexact Hc
    isplitl [Hs]; · iexact Hs
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    isplitl [H1]; · iexact H1
    isplitl [H2]; · iexact H2
    isplitl [H3]; · iexact H3
    isplitl [H4]; · iexact H4
    isplitl [H5]; · iexact H5
    isplitl [H6]; · iexact H6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    iexact S18
  isplitr; · iexact Hlv
  isplitl [Hp]; · iexact Hp
  isplitl [Hi]; · iexact Hi
  isplitl [S19]; · iexact S19
  iexact HO

end Tile

end Cert.Proof.KB

end
-- ==== Proof.KbSplit.lean ====
/-
  The result plane is cut into the workers' windows. A window is named by a core (of 2), a subcore (of 16) and
  a window number (of 4); worker `w = 2 * subcore + core` of 32 serves batch `w / 16` and the places from
  `(w % 16) * 512` on, its window `r` the 128 places from `(w % 16) * 512 + 128 * r` on. So the window that
  holds entry `j` is read off `j`: with `n = (j 0) * 64 + (j 2) / 128` (128 windows of 128 places), the worker is
  `n / 4` and the window number `n % 4`. Hence distinct windows are disjoint and together they are everything.
-/
import proofs.«214960_g85727547228328_cont_9to1_m_337_27_alg».proof.Proof.KbGeom

namespace Cert.Proof.KB

open Cert.Kernel Cert.Kernel.Gen Idealize.ShloMosaic

/-- The grid point of core c, subcore i. -/
def Lof (c : Fin (grid0.bound 0)) (i : Fin (grid0.bound 1)) : grid0.Coords :=
  fun | 0 => c | 1 => i | ⟨_ + 2, h⟩ => absurd h (Nat.not_lt.2 (Nat.le_add_left _ _))

theorem wid_Lof (c : Fin (grid0.bound 0)) (i : Fin (grid0.bound 1)) : wid (Lof c i) = 2 * i.val + c.val := rfl

/-- The result entries of window r of core c's subcore i. -/
def Wset (x : Fin 2 × Fin 16 × Fin 4) : Finset S2x1x8192x128.Idx := (winRect (Lof x.1 x.2.1) x.2.2).set

/-- An entry lies in a window exactly when its batch and place are the window's. -/
theorem mem_Wset (x : Fin 2 × Fin 16 × Fin 4) (j : S2x1x8192x128.Idx) :
    j ∈ Wset x ↔ (j 0).val = (2 * x.2.1.val + x.1.val) / 16
      ∧ (2 * x.2.1.val + x.1.val) % 16 * 512 + 128 * x.2.2.val ≤ (j 2).val
      ∧ (j 2).val < (2 * x.2.1.val + x.1.val) % 16 * 512 + 128 * x.2.2.val + 128 :=
  mem_winRect (Lof x.1 x.2.1) x.2.2 j

theorem Wset_disjoint : ∀ x ∈ (Finset.univ : Finset (Fin 2 × Fin 16 × Fin 4)), ∀ y ∈ (Finset.univ : Finset (Fin 2 × Fin 16 × Fin 4)), x ≠ y → Disjoint (Wset x) (Wset y) := by
  rintro ⟨c, i, r⟩ _ ⟨c', i', r'⟩ _ hne
  rw [Finset.disjoint_left]
  intro j h h'
  rw [mem_Wset] at h h'
  have hc : c.val < 2 := c.isLt
  have hc' : c'.val < 2 := c'.isLt
  have hi : i.val < 16 := i.isLt
  have hi' : i'.val < 16 := i'.isLt
  have hr : r.val < 4 := r.isLt
  have hr' : r'.val < 4 := r'.isLt
  apply hne
  have e1 : c.val = c'.val := by simp only at h h'; omega
  have e2 : i.val = i'.val := by simp only at h h'; omega
  have e3 : r.val = r'.val := by simp only at h h'; omega
  rw [Fin.ext e1, Fin.ext e2, Fin.ext e3]

theorem Wset_cover : (Finset.univ : Finset (Fin 2 × Fin 16 × Fin 4)).biUnion Wset = Finset.univ := by
  refine Finset.eq_univ_iff_forall.2 fun j => ?_
  have h0 : (j 0).val < 2 := (j 0).isLt
  have h2 : (j 2).val < 8192 := (j 2).isLt
  rw [Finset.mem_biUnion]
  refine ⟨(⟨((j 0).val * 16 + (j 2).val / 512) % 2, by omega⟩, ⟨((j 0).val * 16 + (j 2).val / 512) / 2, by omega⟩,
    ⟨(j 2).val % 512 / 128, by omega⟩), Finset.mem_univ _, ?_⟩
  rw [mem_Wset]
  simp only
  omega

end Cert.Proof.KB
-- ==== Proof.KbLaunch.lean ====
/-
  The launch. The TensorCore starts the one SparseCore call: the positions and the two tables go out as read
  shares, cut in two for the two SparseCores and in sixteen again for each one's tiles; each result plane is cut
  into the 128 windows of 128 rows the 32 tiles write, four to a tile (worker `2 i + c` on core `c`, subcore
  `i`). Every tile hands its windows back holding the looked-up rows, the windows tile each result plane, and so
  after the call each result array is the lookup as one whole-array function while the arguments are untouched.
-/
import proofs.«214960_g85727547228328_cont_9to1_m_337_27_alg».proof.Proof.KbBody
import proofs.«214960_g85727547228328_cont_9to1_m_337_27_alg».proof.Proof.KbSplit
import proofs.«214960_g85727547228328_cont_9to1_m_337_27_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

omit m ρ [FloatOps F] in
theorem nCore_zero : (K (F := F)).nCore 0 = 2 := rfl
omit m ρ [FloatOps F] in
theorem nSub_zero : (K (F := F)).nSub 0 = 16 := rfl

omit m ρ [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Shares and windows -/

omit m ρ [FloatOps F] in
theorem bound_zero : 2 = grid0.bound 0 := rfl
omit m ρ [FloatOps F] in
theorem bound_one : 16 = grid0.bound 1 := rfl
/-- The grid point of core `c`, subcore `i`. -/
abbrev LofN (c : Fin 2) (i : Fin 16) : grid0.Coords := Lof (Fin.cast bound_zero c) (Fin.cast bound_one i)

omit m ρ [FloatOps F] in
theorem Wset_eq (x : Fin 2 × Fin 16 × Fin 4) : Wset x = (winRect (LofN x.1 x.2.1) x.2.2).set := rfl

/-- SparseCore `c`'s share of a read-only array, and tile `i`'s share of that. -/
abbrev qC (c : Fin 2) : PosShare TreeShare := pieceOf fullShare 2 (by decide) c
abbrev qT (c : Fin 2) (i : Fin 16) : PosShare TreeShare := pieceOf (qC c) 16 (by decide) i

omit ρ [FloatOps F] in
/-- A read-only array whole is the 32 tiles' shares of it. -/
theorem sh_split {ℓ : Loc nD τ sig} (f : Buf (Elt F) ℓ) :
    (ℓ ↦{fullShare} f : sProp 𝕄) = bigSep Finset.univ fun c : Fin 2 => bigSep Finset.univ fun i : Fin 16 => ℓ ↦{qT c i} f := by
  rw [pointsTo_piecesOf Finset.univ f (o := 2) (by decide) fullShare]
  exact bigSep_congr fun c _ => pointsTo_piecesOf Finset.univ f (o := 16) (by decide) (qC c)

omit m ρ [FloatOps F] in
theorem set_aWin (L : grid0.Coords) (r : Fin 4) : (aWin L r).view.set = (winRect L r).set := by
  show (((aV).view.slice (winRect L r)).reshape S128x128 squeezes_S1x1x128x128_S128x128.numel_eq).set = _
  rw [View.set_reshape]; exact View.set_slice_whole _ _
omit m ρ [FloatOps F] in
theorem set_bWin (L : grid0.Coords) (r : Fin 4) : (bWin L r).view.set = (winRect L r).set := by
  show (((bV).view.slice (winRect L r)).reshape S128x128 squeezes_S1x1x128x128_S128x128.numel_eq).set = _
  rw [View.set_reshape]; exact View.set_slice_whole _ _

omit m ρ [FloatOps F] in
/-- The first result plane whole is the tiles' windows of it. -/
theorem a_split (d : Dev nD) (f : Buf (Elt F) (aLoc d)) :
    (aLoc d ↦{fullShare} f : sProp 𝕄) = bigSep Finset.univ fun c : Fin 2 => bigSep Finset.univ fun i : Fin 16 =>
      iprop(winPts d (LofN c i) (aWin (LofN c i) 0) f ∗ winPts d (LofN c i) (aWin (LofN c i) 1) f
        ∗ winPts d (LofN c i) (aWin (LofN c i) 2) f ∗ winPts d (LofN c i) (aWin (LofN c i) 3) f) := by
  have h := pointsTo_biUnion (ℓ := aLoc d) (q := fullShare) (f := f) (Ix := HIx 1) (Name := ℕ) (U := UU) (Lvl := ℕ)
    (Finset.univ : Finset (Fin 2 × Fin 16 × Fin 4)) Wset Wset_disjoint
  rw [Wset_cover] at h
  refine h.trans ?_
  rw [bigSep_univ_prod]
  refine bigSep_congr fun c _ => ?_
  rw [bigSep_univ_prod]
  refine bigSep_congr fun i _ => ?_
  rw [show (Finset.univ : Finset (Fin 4)) = {0, 1, 2, 3} by decide,
    SparseCore.bigSep_insert' (by decide), SparseCore.bigSep_insert' (by decide), SparseCore.bigSep_insert' (by decide), bigSep_singleton]
  unfold winPts
  rw [set_aWin, set_aWin, set_aWin, set_aWin, Wset_eq, Wset_eq, Wset_eq, Wset_eq]
omit m ρ [FloatOps F] in
/-- The second result plane whole is the tiles' windows of it. -/
theorem b_split (d : Dev nD) (f : Buf (Elt F) (bLoc d)) :
    (bLoc d ↦{fullShare} f : sProp 𝕄) = bigSep Finset.univ fun c : Fin 2 => bigSep Finset.univ fun i : Fin 16 =>
      iprop(winPts d (LofN c i) (bWin (LofN c i) 0) f ∗ winPts d (LofN c i) (bWin (LofN c i) 1) f
        ∗ winPts d (LofN c i) (bWin (LofN c i) 2) f ∗ winPts d (LofN c i) (bWin (LofN c i) 3) f) := by
  have h := pointsTo_biUnion (ℓ := bLoc d) (q := fullShare) (f := f) (Ix := HIx 1) (Name := ℕ) (U := UU) (Lvl := ℕ)
    (Finset.univ : Finset (Fin 2 × Fin 16 × Fin 4)) Wset Wset_disjoint
  rw [Wset_cover] at h
  refine h.trans ?_
  rw [bigSep_univ_prod]
  refine bigSep_congr fun c _ => ?_
  rw [bigSep_univ_prod]
  refine bigSep_congr fun i _ => ?_
  rw [show (Finset.univ : Finset (Fin 4)) = {0, 1, 2, 3} by decide,
    SparseCore.bigSep_insert' (by decide), SparseCore.bigSep_insert' (by decide), SparseCore.bigSep_insert' (by decide), bigSep_singleton]
  unfold winPts
  rw [set_bWin, set_bWin, set_bWin, set_bWin, Wset_eq, Wset_eq, Wset_eq, Wset_eq]

/-- The five arrays the call touches, whole, at result contents `fa`, `fb`. -/
abbrev arrays (d : Dev nD) (fa : Buf (Elt F) (aLoc d)) (fb : Buf (Elt F) (bLoc d)) : sProp 𝕄 :=
  iprop((pLoc d ↦{fullShare} m (pLoc d)) ∗ (cLoc d ↦{fullShare} m (cLoc d)) ∗ (sLoc d ↦{fullShare} m (sLoc d))
    ∗ (aLoc d ↦{fullShare} fa) ∗ (bLoc d ↦{fullShare} fb))

omit ρ [FloatOps F] in
/-- The five arrays whole are what the 32 tiles are handed. -/
theorem arrays_split (d : Dev nD) (fa : Buf (Elt F) (aLoc d)) (fb : Buf (Elt F) (bLoc d)) :
    arrays m d fa fb = bigSep Finset.univ fun c : Fin 2 => bigSep Finset.univ fun i : Fin 16 => tileRes m d (LofN c i) (qT c i) fa fb := by
  unfold arrays
  rw [sh_split (m (pLoc d)), sh_split (m (cLoc d)), sh_split (m (sLoc d)), a_split d fa, b_split d fb]
  symm
  refine (bigSep_congr (Ψ := fun c : Fin 2 => iprop((bigSep Finset.univ fun i : Fin 16 => pLoc d ↦{qT c i} m (pLoc d))
      ∗ (bigSep Finset.univ fun i : Fin 16 => cLoc d ↦{qT c i} m (cLoc d)) ∗ (bigSep Finset.univ fun i : Fin 16 => sLoc d ↦{qT c i} m (sLoc d))
      ∗ (bigSep Finset.univ fun i : Fin 16 => iprop(winPts d (LofN c i) (aWin (LofN c i) 0) fa ∗ winPts d (LofN c i) (aWin (LofN c i) 1) fa
          ∗ winPts d (LofN c i) (aWin (LofN c i) 2) fa ∗ winPts d (LofN c i) (aWin (LofN c i) 3) fa))
      ∗ (bigSep Finset.univ fun i : Fin 16 => iprop(winPts d (LofN c i) (bWin (LofN c i) 0) fb ∗ winPts d (LofN c i) (bWin (LofN c i) 1) fb
          ∗ winPts d (LofN c i) (bWin (LofN c i) 2) fb ∗ winPts d (LofN c i) (bWin (LofN c i) 3) fb)))) fun c _ => ?_).trans ?_
  · rw [← bigSep_sep', ← bigSep_sep', ← bigSep_sep', ← bigSep_sep']
  · rw [bigSep_sep', bigSep_sep', bigSep_sep', bigSep_sep']

/-! ## What the handshakes carry -/

/-- What tile `i` of SparseCore `c` is handed, at result contents `fa`, `fb`; and what the SparseCore is: its tiles'. -/
abbrev taskRes (d : Dev nD) (c : Fin 2) (i : Fin 16) (fa : Buf (Elt F) (aLoc d)) (fb : Buf (Elt F) (bLoc d)) : sProp 𝕄 :=
  tileRes m d (LofN c i) (qT c i) fa fb
abbrev coreRes (d : Dev nD) (c : Fin 2) (fa : Buf (Elt F) (aLoc d)) (fb : Buf (Elt F) (bLoc d)) : sProp 𝕄 :=
  bigSep Finset.univ fun i : Fin 16 => taskRes m d c i fa fb
/-- The lookups: what the two result arrays end holding. -/
abbrev GA (d : Dev nD) : Buf (Elt F) (aLoc d) := Cert.Spec.lookup (m (cLoc d)) (m (pLoc d))
abbrev GB (d : Dev nD) : Buf (Elt F) (bLoc d) := Cert.Spec.lookup (m (sLoc d)) (m (pLoc d))

/-- The one call takes the five arrays cut per SparseCore and per tile; each tile its shares and windows, and brings
    them back with its windows at the lookup. -/
def P : (K (F := F)).Pay (nD := nD) (Val := Elt F) (Name := ℕ) (U := UU) where
  st := fun q d c => match q with
    | 0 => coreRes m d (Fin.cast nCore_zero c) (m (aLoc d)) (m (bLoc d))
  dn := fun q d c => match q with
    | 0 => coreRes m d (Fin.cast nCore_zero c) (GA m d) (GB m d)
  go := fun q d c i => match q with
    | 0 => taskRes m d (Fin.cast nCore_zero c) (Fin.cast nSub_zero i) (m (aLoc d)) (m (bLoc d))
  td := fun q d c i => match q with
    | 0 => taskRes m d (Fin.cast nCore_zero c) (Fin.cast nSub_zero i) (GA m d) (GB m d)
  x := fun _ _ => iprop(emp)

instance P_storable : (P (F := F) m).IsStorable where
  st q d c := match q with
    | 0 => (inferInstance : BI.Storable (upEmb : UEmb _ 𝕄)
      (coreRes m d (Fin.cast nCore_zero c) (m (aLoc d)) (m (bLoc d))))
  dn q d c := match q with
    | 0 => (inferInstance : BI.Storable (upEmb : UEmb _ 𝕄)
      (coreRes m d (Fin.cast nCore_zero c) (GA m d) (GB m d)))
  go q d c i := match q with
    | 0 => (inferInstance : BI.Storable (upEmb : UEmb _ 𝕄)
      (taskRes m d (Fin.cast nCore_zero c) (Fin.cast nSub_zero i) (m (aLoc d)) (m (bLoc d))))
  td q d c i := match q with
    | 0 => (inferInstance : BI.Storable (upEmb : UEmb _ 𝕄)
      (taskRes m d (Fin.cast nCore_zero c) (Fin.cast nSub_zero i) (GA m d) (GB m d)))

/-- What the proof asks of the launch memory: every position word is below 8192, a row of the tables. -/
def PreOK : Prop := ∀ (d : Dev nD) (j : S2x8192.Idx), (m (pLoc d) j).toNat < 8192

/-! ## The obligation -/

omit m ρ in
theorem defs₀_vector (c : Fin τ.nSC) (s : Fin τ.nSub) :
    defs₀ (F := F) (.scVector c s) 0 ()
      = SparseCore.onTile hcore0 hsub0 (fun c s => cc0_k (Lof c s)
          pV (Memref.isWhole_whole _) cM (Memref.isWhole_whole _) sM (Memref.isWhole_whole _) aV (Memref.isWhole_whole _) bV (Memref.isWhole_whole _)
          iS (Memref.isWhole_whole _) c0S (Memref.isWhole_whole _) c1S (Memref.isWhole_whole _) c2S (Memref.isWhole_whole _)
          s0S (Memref.isWhole_whole _) s1S (Memref.isWhole_whole _) s2S (Memref.isWhole_whole _)
          cc0_scratch7 cc0_scratch8 cc0_scratch9 cc0_scratch10 cc0_scratch11 cc0_scratch12 cc0_scratch13 cc0_scratch14 cc0_scratch15 cc0_scratch16 cc0_scratch17 cc0_scratch18 cc0_scoped0) ⟨⟩ c s := rfl

omit m ρ [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m d (Lof ⟨_, hci.1⟩ ⟨_, hci.2⟩) hF hpre O W hO _).trans (wp_mono frame _ _ fun _ => obl_post)

/-! ## A SparseCore's operands split among its tiles -/

omit m ρ [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

set_option maxHeartbeats 4000000 in
theorem vecSplit : (K (F := F)).VecSplit' (P m) 0 := by
  intro d c
  show (coreRes m d (Fin.cast nCore_zero c) (m (aLoc d)) (m (bLoc d)))
    ⊢ |={Set.univ}=> iprop(
      (bigSep Finset.univ fun i : Fin ((K (F := F)).nSub 0) =>
        taskRes m d (Fin.cast nCore_zero c) (Fin.cast nSub_zero i) (m (aLoc d)) (m (bLoc d)))
      ∗ ((bigSep Finset.univ fun i : Fin ((K (F := F)).nSub 0) =>
          taskRes m d (Fin.cast nCore_zero c) (Fin.cast nSub_zero i) (GA m d) (GB m d))
          -∗ (coreRes m d (Fin.cast nCore_zero c) (GA m d) (GB m d))))
  rw [bigSep_tasks (F := F) (fun i => taskRes m d (Fin.cast nCore_zero c) i (m (aLoc d)) (m (bLoc d))),
    bigSep_tasks (F := F) (fun i => taskRes m d (Fin.cast nCore_zero c) i (GA m d) (GB m d))]
  iintro H; imodintro
  isplitl [H]; · iexact H
  iintro H; iexact H

/-! ## The launch element of the ghost state -/

def u₀ : UU := (initOf (K (F := F)).hsCells (K (F := F)).hsToks, 1)

omit m ρ [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit ρ [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ (cLoc d ↦{fullShare} W main_arg2)
      ∗ (sLoc d ↦{fullShare} W main_arg3) ∗ (aLoc d ↦{fullShare} W main_v0_0) ∗ bLoc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

set_option maxHeartbeats 4000000 in
omit ρ in
theorem st0_eq (d : Dev nD) : (bigSep Finset.univ fun c : Fin ((K (F := F)).nCore 0) => (P m).st 0 d c) = arrays m d (m (aLoc d)) (m (bLoc d)) := by
  rw [arrays_split]
  exact bigSep_congr fun c _ => rfl
set_option maxHeartbeats 4000000 in
omit ρ in
theorem dn0_eq (d : Dev nD) : (bigSep Finset.univ fun c : Fin ((K (F := F)).nCore 0) => (P m).dn 0 d c) = arrays m d (GA m d) (GB m d) := by
  rw [arrays_split]
  exact bigSep_congr fun c _ => rfl

/-- What @main ends holding: the arguments as they were, the results at the lookup. -/
abbrev FIN (d : Dev nD) : sProp 𝕄 := iprop((xLoc d ↦{fullShare} m (xLoc d)) ∗ arrays m d (GA m d) (GB m d))

/-- @main on device `d`'s TensorCore: the one call, from the arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Hc, Hs, Ha, Hb'⟩, -, -⟩, -⟩
  iapply ((K (F := F)).wp_run (D (F := F)) 𝒱 (EH := EH) (P := P m) κ d 0) $$ [Hst Hx Hp Hc Hs Ha Hb']
  isplitr; · iexact Hctx
  isplitl [Hst]; · iexact Hst
  isplitl [Hp Hc Hs Ha Hb']
  · rw [st0_eq]
    isplitl [Hp]; · iexact Hp
    isplitl [Hc]; · iexact Hc
    isplitl [Hs]; · iexact Hs
    isplitl [Ha]; · iexact Ha
    iexact Hb'
  iintro ⟨Hst, Hdn⟩
  ihave Hdn' := (Entails.of_eq (dn0_eq m d)) $$ Hdn
  imodintro
  isplitl [Hst]; · iexact Hst
  isplitl [Hx]; · iexact Hx
  iexact Hdn'

def fq (d : Dev nD) (s' : Phys nD τ sig (Elt F)) : Prop :=
  s'.mem.mem (aLoc d) = (GA m d) ∧ s'.mem.mem (bLoc d) = (GB m d)
  ∧ s'.mem.mem (xLoc d) = m (xLoc d) ∧ s'.mem.mem (pLoc d) = m (pLoc d) ∧ s'.mem.mem (cLoc d) = m (cLoc d) ∧ s'.mem.mem (sLoc d) = m (sLoc d)

omit ρ [FloatOps F] in
/-- A whole array held outright is what the memory holds. -/
theorem agree_whole {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

omit ρ [FloatOps F] in
set_option maxRecDepth 16384 in
theorem hfin (d : Dev nD) (s' : Phys nD τ sig (Elt F)) : iprop(FIN m d ∗ SI s') ⊢ (⌜fq m d s'⌝ : sProp 𝕄) := by
  iintro ⟨⟨Hx, Hp, Hc, Hs, Ha, Hb⟩, HSI⟩
  ihave H := (agree_whole _ s') $$ [HSI Hx]; · isplitl [HSI] <;> iassumption
  icases H with ⟨%hx, HSI⟩
  ihave H := (agree_whole _ s') $$ [HSI Hp]; · isplitl [HSI] <;> iassumption
  icases H with ⟨%hp, HSI⟩
  ihave H := (agree_whole _ s') $$ [HSI Hc]; · isplitl [HSI] <;> iassumption
  icases H with ⟨%hc, HSI⟩
  ihave H := (agree_whole _ s') $$ [HSI Hs]; · isplitl [HSI] <;> iassumption
  icases H with ⟨%hs, HSI⟩
  ihave H := (agree_whole _ s') $$ [HSI Ha]; · isplitl [HSI] <;> iassumption
  icases H with ⟨%ha, HSI⟩
  ihave H := (agree_whole _ s') $$ [HSI Hb]; · isplitl [HSI] <;> iassumption
  icases H with ⟨%hb, HSI⟩
  ipureintro; exact ⟨ha, hb, hx, hp, hc, hs⟩

/-! ## The program's run -/

/-- Each result array ends at the lookup; the four arguments end unchanged. -/
def QC : PUnit × MemSt nD τ sig (Elt F) → Prop := fun r => ∀ d : Dev nD,
  r.2.mem (aLoc d) = (GA m d) ∧ r.2.mem (bLoc d) = (GB m d)
  ∧ r.2.mem (xLoc d) = m (xLoc d) ∧ r.2.mem (pLoc d) = m (pLoc d) ∧ r.2.mem (cLoc d) = m (cLoc d) ∧ r.2.mem (sLoc d) = m (sLoc d)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefTerm.lean ====
/-
  The reference's result as ONE pure term of the table and the positions.

  The reference looks a table up twice (a table of cosines, a table of sines) with the same text: the
  position, 8192 added where it is negative; that array with a unit axis appended, as start indices; the
  test "0 ≤ index ≤ 8191" (signed), reduced by "and" over the unit axis; the gather of table rows at the
  start indices; the gathered value where the test holds and a not-a-number elsewhere; and a unit axis
  inserted after the batch axis. The definitions below are that text, operation by operation, over a
  table `tab` and positions `pos`.
-/
import proofs.«214960_g85727547228328_cont_9to1_m_337_27_alg».proof.ReferenceIdeal
import proofs.«214960_g85727547228328_cont_9to1_m_337_27_alg».proof.Proof.Gen.ReferenceIdeal

noncomputable section

namespace Cert.RefSide

open Idealize.ShloMosaic Cert.ReferenceIdeal Cert.ReferenceIdeal.Facts₀

variable {F : FTy → Type} [FloatOps F]

/-- The position with 8192 added where it is negative (the select of the outlined "where"). -/
def wrapped (pos : IVec S2x8192 32) : IVec S2x8192 32 :=
  select (cmpi .slt pos (broadcastInDim S2x8192 ![] bcast_S_S2x8192 (constantI S_ 32 0#32)))
    (addi pos (broadcastInDim S2x8192 ![] bcast_S_S2x8192 (constantI S_ 32 8192#32))) pos

/-- The start indices: the wrapped positions with a unit axis appended. -/
def startIdx (pos : IVec S2x8192 32) : IVec S2x8192x1 32 :=
  broadcastInDim S2x8192x1 ![0, 1] bcast_S2x8192_S2x8192x1_0_1 (wrapped pos)

/-- The in-range test per position: "0 ≤ index" and "index ≤ 8191", both signed, reduced by "and" from 1 over
    the unit axis. -/
def inRange (pos : IVec S2x8192 32) : IVec S2x8192 1 :=
  Host.reduce IntOp.andi
    (andi (cmpi .sge (startIdx pos) (broadcastInDim S2x8192x1 ![] bcast_S_S2x8192x1 (constantI S_ 32 0#32)))
      (cmpi .sle (startIdx pos)
        (broadcastInDim S2x8192x1 ![0, 1, 2] bcast_S1x1x1_S2x8192x1_0_1_2
          (broadcastInDim S1x1x1 ![2] bcast_S1_S1x1x1_2 (constantI S1 32 8191#32)))))
    (constantI S_ 1 1#1) reducesTo_S2x8192x1_S2x8192_d2 h_S_

/-- One lookup: the gathered rows where the test holds, a not-a-number elsewhere. -/
def taken (tab : FVec F S8192x128 .f32) (pos : IVec S2x8192 32) : FVec F S2x8192x128 .f32 :=
  select (broadcastInDim S2x8192x128 ![0, 1] bcast_S2x8192_S2x8192x128_0_1 (inRange pos))
    (Host.gather gather_S8192x128_S2x8192x1_S2x8192x128_2_0_n_n_0_2_1128 tab (startIdx pos))
    (broadcastInDim S2x8192x128 ![] bcast_S_S2x8192x128 (constant S_ .f32 0x7FC00000#32))

/-- The reference's result for one table: the lookup with a unit axis inserted after the batch axis. -/
def outOf (tab : FVec F S8192x128 .f32) (pos : IVec S2x8192 32) : FVec F S2x1x8192x128 .f32 :=
  broadcastInDim S2x1x8192x128 ![0, 2, 3] bcast_S2x8192x128_S2x1x8192x128_0_2_3 (taken tab pos)

end Cert.RefSide

end
-- ==== Proof.RefOps.lean ====
/-
  The reference's @main as a straight line of its forty-eight host operations, and its run.

  @main calls the outlined lookup twice (once per table), and the lookup calls the outlined "where" once; a call
  means its callee's body on the operands, so with the functions' definitions unfolded at their call sites
  and the calls' buffer records at their fields, @main is one chain of operations: per lookup the
  twenty-three of its body (the "where"'s select in its place) over that call's buffers, then @main's own
  broadcast of the result. Every weakly fair execution of that line terminates, each buffer ending at the
  fold of the operations over the launch contents.
-/
import proofs.«214960_g85727547228328_cont_9to1_m_337_27_alg».proof.Proof.RefTerm
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

/-- @main's operations in order, the calls unfolded. -/
abbrev ops : List (HloOp τ sig (Elt F)) :=
  [ TRef.nullary main_call0.c (constantI S_ 32 0#32),
    TRef.unary main_call0.c main_call0.v0 (broadcastInDim S2x8192 ![] bcast_S_S2x8192),
    TRef.binary (.of main_arg1) main_call0.v0 main_call0.v1 (cmpi .slt),
    TRef.nullary main_call0.c_0 (constantI S_ 32 8192#32),
    TRef.unary main_call0.c_0 main_call0.v2 (broadcastInDim S2x8192 ![] bcast_S_S2x8192),
    TRef.binary (.of main_arg1) main_call0.v2 main_call0.v3 addi,
    TRef.ternary main_call0.v1 main_call0.v3 (.of main_arg1) main_call0.call0.v0 select,
    TRef.unary main_call0.call0.v0 main_call0.v5 (broadcastInDim S2x8192x1 ![0, 1] bcast_S2x8192_S2x8192x1_0_1),
    TRef.nullary main_call0.c_1 (constantI S1 32 8191#32),
    TRef.nullary main_call0.c_2 (constantI S_ 32 0#32),
    TRef.unary main_call0.c_2 main_call0.v6 (broadcastInDim S2x8192x1 ![] bcast_S_S2x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2x8192x1 ![0, 1, 2] bcast_S1x1x1_S2x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2x8192x1_S2x8192_d2 h_S_),
    TRef.binary (.of main_arg2) main_call0.v5 main_call0.v13 (fun x i => Host.gather gather_S8192x128_S2x8192x1_S2x8192x128_2_0_n_n_0_2_1128 x i),
    TRef.unary main_call0.v12 main_call0.v14 (broadcastInDim S2x8192x128 ![0, 1] bcast_S2x8192_S2x8192x128_0_1),
    TRef.nullary main_call0.cst (constant S_ .f32 0x7FC00000#32),
    TRef.unary main_call0.cst main_call0.v15 (broadcastInDim S2x8192x128 ![] bcast_S_S2x8192x128),
    TRef.ternary main_call0.v14 main_call0.v13 main_call0.v15 main_call0.v16 select,
    unary main_v0 main_v1 (broadcastInDim S2x1x8192x128 ![0, 2, 3] bcast_S2x8192x128_S2x1x8192x128_0_2_3 : (⟨S2x8192x128, .f32⟩ : BufTy).Contents (Elt F) → (⟨S2x1x8192x128, .f32⟩ : BufTy).Contents (Elt F)),
    TRef.nullary main_call1.c (constantI S_ 32 0#32),
    TRef.unary main_call1.c main_call1.v0 (broadcastInDim S2x8192 ![] bcast_S_S2x8192),
    TRef.binary (.of main_arg1) main_call1.v0 main_call1.v1 (cmpi .slt),
    TRef.nullary main_call1.c_0 (constantI S_ 32 8192#32),
    TRef.unary main_call1.c_0 main_call1.v2 (broadcastInDim S2x8192 ![] bcast_S_S2x8192),
    TRef.binary (.of main_arg1) main_call1.v2 main_call1.v3 addi,
    TRef.ternary main_call1.v1 main_call1.v3 (.of main_arg1) main_call1.call0.v0 select,
    TRef.unary main_call1.call0.v0 main_call1.v5 (broadcastInDim S2x8192x1 ![0, 1] bcast_S2x8192_S2x8192x1_0_1),
    TRef.nullary main_call1.c_1 (constantI S1 32 8191#32),
    TRef.nullary main_call1.c_2 (constantI S_ 32 0#32),
    TRef.unary main_call1.c_2 main_call1.v6 (broadcastInDim S2x8192x1 ![] bcast_S_S2x8192x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S2x8192x1 ![0, 1, 2] bcast_S1x1x1_S2x8192x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2x8192x1_S2x8192_d2 h_S_),
    TRef.binary (.of main_arg3) main_call1.v5 main_call1.v13 (fun x i => Host.gather gather_S8192x128_S2x8192x1_S2x8192x128_2_0_n_n_0_2_1128 x i),
    TRef.unary main_call1.v12 main_call1.v14 (broadcastInDim S2x8192x128 ![0, 1] bcast_S2x8192_S2x8192x128_0_1),
    TRef.nullary main_call1.cst (constant S_ .f32 0x7FC00000#32),
    TRef.unary main_call1.cst main_call1.v15 (broadcastInDim S2x8192x128 ![] bcast_S_S2x8192x128),
    TRef.ternary main_call1.v14 main_call1.v13 main_call1.v15 main_call1.v16 select,
    unary main_v2 main_v3 (broadcastInDim S2x1x8192x128 ![0, 2, 3] bcast_S2x8192x128_S2x1x8192x128_0_2_3 : (⟨S2x8192x128, .f32⟩ : BufTy).Contents (Elt F) → (⟨S2x1x8192x128, .f32⟩ : BufTy).Contents (Elt F)) ]

-- the chain has forty-eight steps
set_option maxRecDepth 2048 in
/-- @main is that straight line: the functions' definitions unfolded at their calls and the records at their fields. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub ..⟩

/-- Every weakly fair execution of @main terminates, each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefFold.lean ====
/-
  What the straight line of the reference's operations leaves in each buffer the claim names.

  At the two result buffers the fold of the operations over contents `V` is the pure term `outOf` of the
  table's and the positions' contents: each operation's result at its own buffer is its function's value
  of its operands' contents and at any other buffer what was there, and the typed references' casts are the
  identity at literal references. No operation writes an argument buffer.
-/
import proofs.«214960_g85727547228328_cont_9to1_m_337_27_alg».proof.Proof.RefOps

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

attribute [local irreducible] Host.reduce Host.gather in
set_option maxRecDepth 8192 in
set_option maxHeartbeats 1000000 in
/-- The fold at the first result buffer is the pure term of the cosine table's and the positions' contents (the
    reduction and the gather are kept folded meanwhile: the equation never looks inside them). -/
theorem v1_eq (V : Valuation τ sig (Elt F)) :
    after ops V (main_v1 : DevRef τ sig) = outOf (V (main_arg2 : DevRef τ sig)) (V (main_arg1 : DevRef τ sig)) := by
  after_results_simp
  rfl

attribute [local irreducible] Host.reduce Host.gather in
set_option maxRecDepth 8192 in
set_option maxHeartbeats 1000000 in
/-- The fold at the second result buffer, likewise, of the sine table's contents. -/
theorem v3_eq (V : Valuation τ sig (Elt F)) :
    after ops V (main_v3 : DevRef τ sig) = outOf (V (main_arg3 : DevRef τ sig)) (V (main_arg1 : DevRef τ sig)) := by
  after_results_simp
  rfl

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

set_option maxRecDepth 8192 in
theorem arg3_eq (V : Valuation τ sig (Elt F)) :
    after ops V (main_arg3 : DevRef τ sig) = V (main_arg3 : DevRef τ sig) := by
  simp only [after_cons, after_nil]
  rfl

end Cert.RefSide

end
-- ==== Proof.RefValue.lean ====
/-
  The reference's pure term, read at an index, is the row lookup — when every position word, read as a
  natural number, is below 8192.

  Under that range fact a position is non-negative as a signed word, so the "where" keeps it; it lies
  between 0 and 8191, so the in-range test is 1 at every position and the final select keeps the gathered
  value; the gather clamps its start index into [0, 8191], which leaves a word below 8192 as it is; and the
  last broadcast only inserts a unit axis. Hence entry (b, 0, s, l) is the table's entry (pos[b, s], l).
-/
import proofs.«214960_g85727547228328_cont_9to1_m_337_27_alg».proof.Proof.RefTerm
import proofs.«214960_g85727547228328_cont_9to1_m_337_27_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.RefSide

open Idealize.ShloMosaic Idealize.ShloMosaic.ValueIdx Cert.ReferenceIdeal Cert.ReferenceIdeal.Facts₀

variable {F : FTy → Type} [FloatOps F]

/-! ## Words -/

/-- A 32-bit word below 8192 reads the same signed and unsigned. -/
theorem toInt_of_lt {x : BitVec 32} (h : x.toNat < 8192) : x.toInt = (x.toNat : Int) := by
  rw [BitVec.toInt_eq_toNat_cond]
  split <;> omega

/-- A left fold by "and" from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-! ## The operations at an index -/

variable (pos : IVec S2x8192 32) (hpos : ∀ j : S2x8192.Idx, (pos j).toNat < 8192)
include hpos

/-- A position in range is kept by the "where". -/
theorem wrapped_apply (k : S2x8192.Idx) : wrapped pos k = pos k := by
  show Scalar.select (IntOp.cmpi .slt (pos k) 0#32) (IntOp.addi (pos k) 8192#32) (pos k) = pos k
  refine if_neg fun h => ?_
  have h1 := IntOp.cmpi_slt.1 h
  rw [toInt_of_lt (hpos k)] at h1
  have e0 : (0#32 : BitVec 32).toInt = 0 := by decide
  rw [e0] at h1
  omega

/-- The start index at (b, s, 0) is the position at (b, s). -/
theorem startIdx_apply (i : S2x8192x1.Idx) : startIdx pos i = pos (ix2 (i 0) (i 1)) := by
  rw [← wrapped_apply pos hpos]
  exact broadcastInDim_apply _ _ _ _ (ix2 (i 0) (i 1)) fun a =>
    match a with | ⟨0, _⟩ => rfl | ⟨1, _⟩ => rfl

/-- The in-range test is 1 at every position. -/
theorem inRange_apply (k : S2x8192.Idx) : inRange pos k = 1#1 := by
  unfold inRange
  rw [Host.reduce_eq_foldl]
  refine foldl_andi_one _ _ fun i _ => ?_
  show IntOp.andi (IntOp.cmpi .sge (startIdx pos i) 0#32) (IntOp.cmpi .sle (startIdx pos i) 8191#32) = 1#1
  rw [startIdx_apply pos hpos i]
  have hk := hpos (ix2 (i 0) (i 1))
  have e0 : (0#32 : BitVec 32).toInt = 0 := by decide
  have e1 : (8191#32 : BitVec 32).toInt = 8191 := by decide
  refine IntOp.andi_eq_one.2 ⟨IntOp.cmpi_sge.2 ?_, IntOp.cmpi_sle.2 ?_⟩
  · rw [toInt_of_lt hk, e0]; omega
  · rw [toInt_of_lt hk, e1]; omega

/-- The table's dimension numbers: rows are gathered along axis 0 (collapsed), lanes are the offset axis. -/
abbrev G : GatherDims S8192x128 S2x8192x1 S2x8192x128 := gather_S8192x128_S2x8192x1_S2x8192x128_2_0_n_n_0_2_1128

omit hpos in
/-- On the lane axis the operand index is the result's lane: no start index, no batching, the offset coordinate. -/
theorem gather_ax1 (idx : IVec S2x8192x1 32) (b : Fin 2) (s : Fin 8192) (l : Fin 128) :
    (G.operandIdx (ix3 b s l) idx 1).val = l.val := by
  show G.start (ix3 b s l) idx 1 + G.batchCoord (ix3 b s l) 1 + G.offCoord (ix3 b s l) 1 = _
  rw [GatherDims.batchCoord_eq_zero _ _ _ List.not_mem_nil]
  have hs : G.start (ix3 b s l) idx 1 = 0 := by
    unfold GatherDims.start
    rw [dif_neg (show (1 : Fin 2) ∉ G.startIndexMap by decide)]
  rw [hs]
  have ho : G.offCoord (ix3 b s l) 1 = l.val := by
    unfold GatherDims.offCoord
    rw [dif_pos (show (1 : Fin 2) ∈ G.sKept by decide)]
    rfl
  rw [ho]
  omega

omit hpos in
/-- On the row axis the operand index is the start index at (b, s, 0), read signed and clamped into [0, 8191]:
    no batching and no offset there. -/
theorem gather_ax0 (idx : IVec S2x8192x1 32) (b : Fin 2) (s : Fin 8192) (l : Fin 128) :
    (G.operandIdx (ix3 b s l) idx 0).val = min (idx (ix3 b s (0 : Fin 1))).toInt.toNat 8191 := by
  show G.start (ix3 b s l) idx 0 + G.batchCoord (ix3 b s l) 0 + G.offCoord (ix3 b s l) 0 = _
  rw [GatherDims.batchCoord_eq_zero _ _ _ List.not_mem_nil,
    GatherDims.offCoord_eq_zero _ _ _ (show (0 : Fin 2) ∉ G.sKept by decide)]
  simp only [Nat.add_zero]
  unfold GatherDims.start
  rw [dif_pos (show (0 : Fin 2) ∈ G.startIndexMap by decide)]
  have hsi : G.siIdx (ix3 b s l) ⟨List.idxOf (0 : Fin 2) G.startIndexMap,
      List.idxOf_lt_length_iff.2 (show (0 : Fin 2) ∈ G.startIndexMap by decide)⟩ = ix3 b s (0 : Fin 1) := by
    funext c; refine Fin.ext ?_
    match c with
    | ⟨0, _⟩ => rfl
    | ⟨1, _⟩ => rfl
    | ⟨2, _⟩ => rfl
  rw [hsi]
  rfl

omit hpos in
/-- The gather of table rows read at (b, s, l): the table at the start index (b, s, 0), read signed and
    clamped into [0, 8191], and lane l. -/
theorem gather_apply {α : Type} (tab : S8192x128.Idx → α) (idx : IVec S2x8192x1 32) (b : Fin 2) (s : Fin 8192) (l : Fin 128) :
    Host.gather gather_S8192x128_S2x8192x1_S2x8192x128_2_0_n_n_0_2_1128 tab idx (ix3 b s l)
      = tab (ix2 ⟨min (idx (ix3 b s (0 : Fin 1))).toInt.toNat 8191, by omega⟩ l) := by
  unfold Host.gather
  refine congrArg tab (funext fun a => Fin.ext ?_)
  match a with
  | ⟨0, _⟩ => exact gather_ax0 idx b s l
  | ⟨1, _⟩ => exact gather_ax1 idx b s l

/-- One lookup read at (b, s, l): the table's entry (pos[b, s], l). -/
theorem taken_apply (tab : FVec F S8192x128 .f32) (b : Fin 2) (s : Fin 8192) (l : Fin 128) :
    taken tab pos (ix3 b s l) = tab (ix2 (Cert.Spec.rowOf (pos (ix2 b s))) l) := by
  have hm : broadcastInDim S2x8192x128 ![0, 1] bcast_S2x8192_S2x8192x128_0_1 (inRange pos) (ix3 b s l) = 1#1 := by
    rw [broadcastInDim_apply _ _ _ _ (ix2 b s) (fun a => match a with | ⟨0, _⟩ => rfl | ⟨1, _⟩ => rfl)]
    exact inRange_apply pos hpos _
  unfold taken
  rw [select_apply, hm, select_one, gather_apply]
  have hk := hpos (ix2 b s)
  have hs : startIdx pos (ix3 b s (0 : Fin 1)) = pos (ix2 b s) := startIdx_apply pos hpos _
  refine congrArg (fun r => tab (ix2 r l)) (Fin.ext ?_)
  show min (startIdx pos (ix3 b s (0 : Fin 1))).toInt.toNat 8191 = (pos (ix2 b s)).toNat % 8192
  rw [hs, toInt_of_lt hk, Int.toNat_natCast]
  omega

/-- THE REFERENCE'S TERM IS THE LOOKUP: entry (b, 0, s, l) of the result is the table's entry (pos[b, s], l). -/
theorem outOf_eq (tab : FVec F S8192x128 .f32) : outOf tab pos = Cert.Spec.lookup tab pos := by
  funext j
  obtain ⟨b, z, s, l, rfl⟩ : ∃ b z s l, j = ix4 b z s l := ⟨_, _, _, _, eq_ix4 j⟩
  unfold outOf
  rw [broadcastInDim_apply _ _ _ _ (ix3 b s l)
    (fun a => match a with | ⟨0, _⟩ => rfl | ⟨1, _⟩ => rfl | ⟨2, _⟩ => rfl)]
  exact taken_apply pos hpos tab b s l

end Cert.RefSide

end
-- ==== Proof.RefRun.lean ====
/-
  The reference's run, read back: from any memory with zero counters in which every position word, read
  as a natural number, is below 8192, every weakly fair execution of the reference terminates with its two
  results at the row lookups of the cosine and the sine table, and its four arguments unchanged.

  The run of the straight line of operations leaves each buffer at the fold of the operations over the launch
  contents; at the result buffers that fold is the pure term of the table's and the positions' contents, and
  under the range fact that term is the lookup; no operation writes an argument buffer.
-/
import proofs.«214960_g85727547228328_cont_9to1_m_337_27_alg».proof.Proof.RefFold
import proofs.«214960_g85727547228328_cont_9to1_m_337_27_alg».proof.Proof.RefValue

noncomputable section

namespace Cert.RefSide

open Cert.ReferenceIdeal Idealize.ShloMosaic Idealize.ShloMosaic.TcCoe Idealize.SL.Sem Idealize.ShloMosaic.StableHlo

theorem run
    (m : (ℓ : Loc Cert.ReferenceIdeal.nD Cert.ReferenceIdeal.τ Cert.ReferenceIdeal.sig) → Buf (Elt Ideal) ℓ)
    (g : Dev Cert.ReferenceIdeal.nD → PrngReg)
    (hpos : ∀ (c : Dev Cert.ReferenceIdeal.nD) (j : Cert.Spec.SPos.Idx),
      (m ((c.tc : Thread Cert.ReferenceIdeal.nD Cert.ReferenceIdeal.τ).loc Cert.ReferenceIdeal.main_arg1) j).toNat < 8192) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
          r.2.mem ((c.tc : Thread Cert.ReferenceIdeal.nD Cert.ReferenceIdeal.τ).loc Cert.ReferenceIdeal.main_v1)
            = Cert.Spec.lookup (m ((c.tc : Thread _ _).loc Cert.ReferenceIdeal.main_arg2)) (m ((c.tc : Thread _ _).loc Cert.ReferenceIdeal.main_arg1))
        ∧ r.2.mem ((c.tc : Thread _ _).loc Cert.ReferenceIdeal.main_v3)
            = Cert.Spec.lookup (m ((c.tc : Thread _ _).loc Cert.ReferenceIdeal.main_arg3)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)) :=
  (θ_run defs _ _).mono (fun _ h c =>
      ⟨(h c main_v1).trans ((v1_eq (launchContents m c)).trans (outOf_eq _ (hpos c) _)),
       (h c main_v3).trans ((v3_eq (launchContents m c)).trans (outOf_eq _ (hpos c) _)),
       (h c main_arg0).trans (arg0_eq (launchContents m c)),
       (h c main_arg1).trans (arg1_eq (launchContents m c)),
       (h c main_arg2).trans (arg2_eq (launchContents m c)),
       (h c main_arg3).trans (arg3_eq (launchContents m c))⟩)
    (run_main m g)

end Cert.RefSide

end
-- ==== Proof.PreDomain.lean ====
/-
  The precondition read back: when the input-domain predicate holds, every position word,
  read as a natural number, is below 8192.

  The predicate is a conjunction; its last conjunct is "all of (0 ≤ pos) and (pos ≤ 8191)" with both
  comparisons signed. A conjunction of one-bit words that is 1 has both conjuncts 1; an "all"
  (a reduction by "and" from 1 over every axis) that is 1 has every element 1; a signed word between
  0 and 8191 has its sign bit clear, so its unsigned reading is the same number, below 8192.
-/
import proofs.«214960_g85727547228328_cont_9to1_m_337_27_alg».proof.Pre_input_domain
import proofs.«214960_g85727547228328_cont_9to1_m_337_27_alg».proof.Proof.Spec
import Idealize.ShloMosaic.Lib.ReduceAll

namespace Cert.PreSide

open Idealize.ShloMosaic

/-- The shape of a scalar has one index. -/
instance : Subsingleton Cert.Pre_input_domain.S_.Idx := ⟨fun a b => funext fun d => d.elim0⟩

/-- A 32-bit word that is, read signed, between 0 and 8191 is, read unsigned, below 8192. -/
theorem toNat_lt_of_signed {x : BitVec 32} (h0 : (0#32).toInt ≤ x.toInt) (h1 : x.toInt ≤ (8191#32).toInt) :
    x.toNat < 8192 := by
  have e0 : (0#32 : BitVec 32).toInt = 0 := by decide
  have e1 : (8191#32 : BitVec 32).toInt = 8191 := by decide
  rw [e0] at h0; rw [e1] at h1
  rw [BitVec.toInt_eq_toNat_cond] at h0 h1
  have := x.isLt
  split at h0 <;> omega

theorem pos_lt {F : FTy → Type} [FloatOps F] [Cert.Pre_input_domain.Facts]
    (a0 : FVec F Cert.Pre_input_domain.S2x8192x2048 .f32) (a1 : IVec Cert.Pre_input_domain.S2x8192 32)
    (a2 a3 : FVec F Cert.Pre_input_domain.S8192x128 .f32)
    (h : Cert.Pre_input_domain.fn (F := F) a0 a1 a2 a3 = fun _ => 1#1) :
    ∀ j : Cert.Spec.SPos.Idx, (a1 j).toNat < 8192 := by
  intro j
  have h0 := congrFun h ValueIdx.ix0
  dsimp only [Cert.Pre_input_domain.fn, Cert.Pre_input_domain.fn_part1] at h0
  -- the last conjunct: the "all" over the positions
  have hall := (IntOp.andi_eq_one.1 h0).2
  -- every element of the array under the "all" is 1
  have hj := Host.reduce_andi_all _ _ _ _ _ hall j
  -- that element is the conjunction of the two signed comparisons at j
  obtain ⟨hge, hle⟩ := IntOp.andi_eq_one.1 hj
  exact toNat_lt_of_signed (IntOp.cmpi_sge.1 hge) (IntOp.cmpi_sle.1 hle)

end Cert.PreSide
-- ==== Proof.lean ====
/-
  The two programs compute one row lookup. For two tables `cos`, `sin` of 8192 rows of 128 numbers and positions
  `pos[b, s]` (two batches of 8192 places, every position a row number below 8192 by the precondition), entry
  `(b, 0, s, l)` of the first result is `cos[pos[b, s], l]` and of the second `sin[pos[b, s], l]`.
  The kernel: 32 vector subcores each fetch 512 positions of one batch and, 128 at a time, gather the named rows of both
  tables into row buffers and copy each buffer out to its 128-row window of a result plane; the 128 windows tile each
  plane, so each result array is the lookup, and the arguments are only read. The reference takes the rows with a
  clamped gather behind a range mask; in range the mask is all ones and the clamp does nothing, so it is the same
  lookup. No arithmetic is done on the table entries: the equality needs no finiteness, only the position range,
  without which a gather would name no row and the kernel would not end.
-/
import proofs.«214960_g85727547228328_cont_9to1_m_337_27_alg».proof.Defs
import proofs.«214960_g85727547228328_cont_9to1_m_337_27_alg».proof.Proof.Gen.Kernel
import proofs.«214960_g85727547228328_cont_9to1_m_337_27_alg».proof.Proof.Gen.Kernel.Skeleton
import proofs.«214960_g85727547228328_cont_9to1_m_337_27_alg».proof.Proof.Gen.KernelIdeal
import proofs.«214960_g85727547228328_cont_9to1_m_337_27_alg».proof.Proof.Gen.KernelIdeal.Skeleton
import proofs.«214960_g85727547228328_cont_9to1_m_337_27_alg».proof.Proof.Gen.ReferenceIdeal
import proofs.«214960_g85727547228328_cont_9to1_m_337_27_alg».proof.Proof.Gen.Pre_input_domain
import proofs.«214960_g85727547228328_cont_9to1_m_337_27_alg».proof.Proof.KiLaunch
import proofs.«214960_g85727547228328_cont_9to1_m_337_27_alg».proof.Proof.KbLaunch
import proofs.«214960_g85727547228328_cont_9to1_m_337_27_alg».proof.Proof.RefRun
import proofs.«214960_g85727547228328_cont_9to1_m_337_27_alg».proof.Proof.PreDomain
import Idealize.ShloMosaic.Adequacy
import Idealize.ShloMosaic.Init

noncomputable section

namespace Cert.Proof

open Idealize.ShloMosaic Idealize.SL.Sem

/-- The kernel as printed runs to its end and leaves its four arguments as they were. -/
theorem frame_k : Cert.frame_Kernel := fun m g hpre =>
  (θ_run Cert.Kernel.defs _ _).mono (fun _ h c => ⟨(h c).2.2.1, (h c).2.2.2.1, (h c).2.2.2.2.1, (h c).2.2.2.2.2⟩)
    (Cert.Proof.KB.run_main (F := Bits) m g (fun d j => Cert.PreSide.pos_lt _ _ _ _ (hpre d) j))

/-- So does the kernel read over the extended reals. -/
theorem frame_ki : Cert.frame_KernelIdeal := fun m g hpre =>
  (θ_run Cert.KernelIdeal.defs _ _).mono (fun _ h c => ⟨(h c).2.2.1, (h c).2.2.2.1, (h c).2.2.2.2.1, (h c).2.2.2.2.2⟩)
    (Cert.Proof.KI.run_main (F := Ideal) m g (fun d j => Cert.PreSide.pos_lt _ _ _ _ (hpre d) j))

/-- And the reference: its run with the results dropped. -/
theorem frame_ri : Cert.frame_ReferenceIdeal := fun m g hpre =>
  (θ_run Cert.ReferenceIdeal.defs _ _).mono (fun _ h c => (h c).2.2)
    (Cert.RefSide.run m g (fun c j => Cert.PreSide.pos_lt _ _ _ _ (hpre c) j))

/-- Over the extended reals both programs end with the two lookups, from memories that agree on the arguments. -/
theorem algebraic : Cert.algebraic_KernelIdeal_ReferenceIdeal := by
  intro m g m' g' hpre hagree
  have hpos : Cert.Proof.KI.PreOK (F := Ideal) m := fun d j => Cert.PreSide.pos_lt _ _ _ _ (hpre d) j
  refine ⟨fun c => Cert.Spec.lookup (m (Cert.Proof.KI.cLoc c)) (m (Cert.Proof.KI.pLoc c)),
    fun c => Cert.Spec.lookup (m (Cert.Proof.KI.sLoc c)) (m (Cert.Proof.KI.pLoc c)), ?_, ?_⟩
  · exact (θ_run Cert.KernelIdeal.defs _ _).mono (fun _ h c => h c) (Cert.Proof.KI.run_main (F := Ideal) m g hpos)
  · have hpos' : ∀ (c : Dev Cert.ReferenceIdeal.nD) (j : Cert.Spec.SPos.Idx),
        (m' ((c.tc : Thread Cert.ReferenceIdeal.nD Cert.ReferenceIdeal.τ).loc Cert.ReferenceIdeal.main_arg1) j).toNat < 8192 := by
      intro c j
      have e := congrFun (hagree c).2.1 j
      rw [e]; exact hpos c j
    refine (θ_run Cert.ReferenceIdeal.defs _ _).mono (fun _ h c => ?_) (Cert.RefSide.run m' g' hpos')
    obtain ⟨h1, h3, h0a, h1a, h2a, h3a⟩ := h c
    refine ⟨h1.trans ?_, h3.trans ?_, h0a, h1a, h2a, h3a⟩
    · rw [(hagree c).2.2.1, (hagree c).2.1]
    · rw [(hagree c).2.2.2, (hagree c).2.1]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
